-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000 : Shape := ⟨1, ![10000]⟩
abbrev S10000x32x128 : Shape := ⟨3, ![10000, 32, 128]⟩
abbrev S128x384 : Shape := ⟨2, ![128, 384]⟩
abbrev S384 : Shape := ⟨1, ![384]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000 : S_.BroadcastsInDim S10000 (![] : Fin 0 → Fin S10000.rank)
  reducesTo_S10000_S_d0 : S10000.ReducesTo [0] S_
  bcast_S_S10000x32x128 : S_.BroadcastsInDim S10000x32x128 (![] : Fin 0 → Fin S10000x32x128.rank)
  reducesTo_S10000x32x128_S_d0_1_2 : S10000x32x128.ReducesTo [0, 1, 2] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S384 .f32) (main_v48 : IVec S_ 1) (main_v49 : FVec F S128x384 .f32) (main_v50 : FVec F S128x384 .f32) : IVec S_ 1 :=
  let main_v51 : IVec S128x384 1 := cmpf .olt main_v49 main_v50
  let main_c_19 : IVec S_ 1 := constantI S_ 1 1#1
  let main_v52 : IVec S_ 1 := (fun x v => Host.reduce IntOp.andi x v reducesTo_S128x384_S_d0_1 h_S_) main_v51 main_c_19
  let main_v53 : IVec S_ 1 := andi main_v48 main_v52
  let main_v54 : FVec F S384 .f32 := Host.absf main_arg11
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x384 .f32) (main_arg11 : FVec F S384 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x384 .f32 := Host.absf main_arg10
  let main_cst_18 : FVec F S_ .f32 := constant S_ .f32 0x7F800000#32
  let main_v50 : FVec F S128x384 .f32 := broadcastInDim S128x384 ![] bcast_S_S128x384 main_cst_18
  fn_part3 (F := F) main_arg11 main_v48 main_v49 main_v50

def fn_part1 {F : FTy → Type} [FloatOps F] (main_arg4 : FVec F S128x384 .f32) (main_arg5 : FVec F S384 .f32) (main_arg6 : FVec F S128x128 .f32) (main_arg7 : FVec F S128 .f32) (main_arg8 : FVec F S128x128 .f32) (main_arg9 : FVec F S128 .f32) (main_arg10 : FVec F S128x384 .f32) (main_arg11 : FVec F S384 .f32) (main_v13 : IVec S_ 1) (main_v16 : IVec S10000x32x128 1) : IVec S_ 1 :=
  let main_c_5 : IVec S_ 1 := constantI S_ 1 1#1
  let main_v17 : IVec S_ 1 := (fun x v => Host.reduce IntOp.andi x v reducesTo_S10000x32x128_S_d0_1_2 h_S_) main_v16 main_c_5
  let main_v18 : IVec S_ 1 := andi main_v13 main_v17
  let main_v19 : FVec F S128x384 .f32 := Host.absf main_arg4
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000 .f32) (main_arg2 : FVec F S10000x32x128 .f32) (main_arg3 : FVec F S10000x32x128 .f32) (main_arg4 : FVec F S128x384 .f32) (main_arg5 : FVec F S384 .f32) (main_arg6 : FVec F S128x128 .f32) (main_arg7 : FVec F S128 .f32) (main_arg8 : FVec F S128x128 .f32) (main_arg9 : FVec F S128 .f32) (main_arg10 : FVec F S128x384 .f32) (main_arg11 : FVec F S384 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000 .f32 := Host.absf main_arg1
  let main_cst_0 : FVec F S_ .f32 := constant S_ .f32 0x7F800000#32
  let main_v5 : FVec F S10000 .f32 := broadcastInDim S10000 ![] bcast_S_S10000 main_cst_0
  let main_v6 : IVec S10000 1 := cmpf .olt main_v4 main_v5
  let main_c_1 : IVec S_ 1 := constantI S_ 1 1#1
  let main_v7 : IVec S_ 1 := (fun x v => Host.reduce IntOp.andi x v reducesTo_S10000_S_d0 h_S_) main_v6 main_c_1
  let main_v8 : IVec S_ 1 := andi main_v3 main_v7
  let main_v9 : FVec F S10000x32x128 .f32 := Host.absf main_arg2
  let main_cst_2 : FVec F S_ .f32 := constant S_ .f32 0x7F800000#32
  let main_v10 : FVec F S10000x32x128 .f32 := broadcastInDim S10000x32x128 ![] bcast_S_S10000x32x128 main_cst_2
  let main_v11 : IVec S10000x32x128 1 := cmpf .olt main_v9 main_v10
  let main_c_3 : IVec S_ 1 := constantI S_ 1 1#1
  let main_v12 : IVec S_ 1 := (fun x v => Host.reduce IntOp.andi x v reducesTo_S10000x32x128_S_d0_1_2 h_S_) main_v11 main_c_3
  let main_v13 : IVec S_ 1 := andi main_v8 main_v12
  let main_v14 : FVec F S10000x32x128 .f32 := Host.absf main_arg3
  let main_cst_4 : FVec F S_ .f32 := constant S_ .f32 0x7F800000#32
  let main_v15 : FVec F S10000x32x128 .f32 := broadcastInDim S10000x32x128 ![] bcast_S_S10000x32x128 main_cst_4
  let main_v16 : IVec S10000x32x128 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000 : Shape := ⟨1, ![10000]⟩
abbrev S10000x32x128 : Shape := ⟨3, ![10000, 32, 128]⟩
abbrev S128x384 : Shape := ⟨2, ![128, 384]⟩
abbrev S384 : Shape := ⟨1, ![384]⟩
abbrev S128x128 : Shape := ⟨2, ![128, 128]⟩
abbrev S128 : Shape := ⟨1, ![128]⟩
abbrev S10000x1 : Shape := ⟨2, ![10000, 1]⟩
abbrev S600x128 : Shape := ⟨2, ![600, 128]⟩
abbrev S600x1 : Shape := ⟨2, ![600, 1]⟩
abbrev S600x16x128 : Shape := ⟨3, ![600, 16, 128]⟩
abbrev S1x128 : Shape := ⟨2, ![1, 128]⟩
abbrev S9600x128 : Shape := ⟨2, ![9600, 128]⟩
abbrev S600x1x128 : Shape := ⟨3, ![600, 1, 128]⟩
abbrev S600x384 : Shape := ⟨2, ![600, 384]⟩
abbrev S1x384 : Shape := ⟨2, ![1, 384]⟩

abbrev nBuf : Space → Nat
  | .hbm => 15
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S10000, .f32⟩
  | .hbm, ⟨2, _⟩ => ⟨S10000x32x128, .f32⟩
  | .hbm, ⟨3, _⟩ => ⟨S10000x32x128, .f32⟩
  | .hbm, ⟨4, _⟩ => ⟨S128x384, .f32⟩
  | .hbm, ⟨5, _⟩ => ⟨S384, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x384, .f32⟩
  | .hbm, ⟨11, _⟩ => ⟨S384, .f32⟩
  | .hbm, ⟨12, _⟩ => ⟨S10000x1, .f32⟩
  | .hbm, ⟨13, _⟩ => ⟨S10000x128, .f32⟩
  | .hbm, ⟨14, _⟩ => ⟨S10000x128, .f32⟩
  | .local _ .vmem, ⟨0, _⟩ => ⟨S600x128, .f32⟩
  | .local _ .vmem, ⟨1, _⟩ => ⟨S600x128, .f32⟩
  | .local _ .vmem, ⟨2, _⟩ => ⟨S600x1, .f32⟩
  | .local _ .vmem, ⟨3, _⟩ => ⟨S600x1, .f32⟩
  | .local _ .vmem, ⟨4, _⟩ => ⟨S600x16x128, .f32⟩
  | .local _ .vmem, ⟨5, _⟩ => ⟨S600x16x128, .f32⟩
  | .local _ .vmem, ⟨6, _⟩ => ⟨S600x16x128, .f32⟩
  | .local _ .vmem, ⟨7, _⟩ => ⟨S600x16x128, .f32⟩
  | .local _ .vmem, ⟨8, _⟩ => ⟨S600x16x128, .f32⟩
  | .local _ .vmem, ⟨9, _⟩ => ⟨S600x16x128, .f32⟩
  | .local _ .vmem, ⟨10, _⟩ => ⟨S600x16x128, .f32⟩
  | .local _ .vmem, ⟨11, _⟩ => ⟨S600x16x128, .f32⟩
  | .local _ .vmem, ⟨12, _⟩ => ⟨S128x384, .f32⟩
  | .local _ .vmem, ⟨13, _⟩ => ⟨S384, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S128x384, .f32⟩
  | .local _ .vmem, ⟨19, _⟩ => ⟨S384, .f32⟩
  | .local _ .vmem, ⟨20, _⟩ => ⟨S600x128, .f32⟩
  | .local _ .vmem, ⟨21, _⟩ => ⟨S600x128, .f32⟩
  | .local _ .vmem, ⟨22, _⟩ => ⟨S600x128, .f32⟩
  | .local _ .vmem, ⟨23, _⟩ => ⟨S600x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S600x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S600x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S600x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S600x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S600x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S600x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S600x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S600x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S10000_S10000x1 : S10000.ShapeCasts S10000x1
  inb_S600x128_S600x128_0_0 : ∀ a, (![0, 0] : Fin 2 → Nat) a + S600x128.size a ≤ S600x128.size a
  h_S600x128 : 0 < S600x128.numel
  inb_S600x1_S600x1_0_0 : ∀ a, (![0, 0] : Fin 2 → Nat) a + S600x1.size a ≤ S600x1.size a
  h_S600x1 : 0 < S600x1.numel
  shapeCasts_S600x1_S600x1 : S600x1.ShapeCasts S600x1
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S600x128 : S1x128.Broadcasts S600x128
  broadcasts_S600x1_S600x128 : S600x1.Broadcasts S600x128
  inb_S600x16x128_S600x16x128_0_0_0 : ∀ a, (![0, 0, 0] : Fin 3 → Nat) a + S600x16x128.size a ≤ S600x16x128.size a
  h_S600x16x128 : 0 < S600x16x128.numel
  shapeCasts_S600x16x128_S9600x128 : S600x16x128.ShapeCasts S9600x128
  broadcasts_S1x128_S9600x128 : S1x128.Broadcasts S9600x128
  shapeCasts_S9600x128_S600x16x128 : S9600x128.ShapeCasts S600x16x128
  shapeCasts_S600x128_S600x1x128 : S600x128.ShapeCasts S600x1x128
  broadcasts_S600x1x128_S600x16x128 : S600x1x128.Broadcasts S600x16x128
  reduces_S600x16x128_S600x128 : S600x16x128.Reduces [1] S600x128
  inb_S128x384_S128x384_0_0 : ∀ a, (![0, 0] : Fin 2 → Nat) a + S128x384.size a ≤ S128x384.size a
  h_S128x384 : 0 < S128x384.numel
  inb_S384_S384_0 : ∀ a, (![0] : Fin 1 → Nat) a + S384.size a ≤ S384.size a
  h_S384 : 0 < S384.numel
  shapeCasts_S384_S1x384 : S384.ShapeCasts S1x384
  broadcasts_S1x384_S600x384 : S1x384.Broadcasts S600x384
  broadcasts_S600x1_S600x384 : S600x1.Broadcasts S600x384
  slices_S600x384_o0_0_S600x128 : S600x384.Slices ![0, 0] S600x128
  slices_S600x384_o0_128_S600x128 : S600x384.Slices ![0, 128] S600x128
  slices_S600x384_o0_256_S600x128 : S600x384.Slices ![0, 256] S600x128
  dot_S600x128_S128x128_S600x128_1_0_0_1_n_n_wf : DotDims.WF S600x128 S128x128 S600x128 [1] [0] [0] [1] [] []
  dot_S9600x128_S128x128_S9600x128_1_0_0_1_n_n_wf : DotDims.WF S9600x128 S128x128 S9600x128 [1] [0] [0] [1] [] []
  dot_S600x128_S128x384_S600x384_1_0_0_1_n_n_wf : DotDims.WF S600x128 S128x384 S600x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S600x128.size a < S10000x128.size a
  hwx0_0 : ∀ i : grid0.Coords, EltTy.bits .f32 = 32 ∨ (Rect.unit (s := S10000x128) (fun a => cc0_transform_0 i a * S600x128.size a) (fun a => (Pipeline.Clip.of (cc0_transform_0 i a) (S600x128.size a) (S10000x128.size a)).extent (S600x128.size a)) fun a => Pipeline.Clip.inb (Pipeline.Clip.ok_of (hstart0_0 i a))).WholeWords (EltTy.packing .f32)
  hwxs0_0 : ∀ i : grid0.Coords, EltTy.bits .f32 = 32 ∨ (Rect.unit (s := S600x128) (fun _ => 0) (fun a => (Pipeline.Clip.of (cc0_transform_0 i a) (S600x128.size a) (S10000x128.size a)).extent (S600x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S600x1.size a < S10000x1.size a
  hwx0_1 : ∀ i : grid0.Coords, EltTy.bits .f32 = 32 ∨ (Rect.unit (s := S10000x1) (fun a => cc0_transform_1 i a * S600x1.size a) (fun a => (Pipeline.Clip.of (cc0_transform_1 i a) (S600x1.size a) (S10000x1.size a)).extent (S600x1.size a)) fun a => Pipeline.Clip.inb (Pipeline.Clip.ok_of (hstart0_1 i a))).WholeWords (EltTy.packing .f32)
  hwxs0_1 : ∀ i : grid0.Coords, EltTy.bits .f32 = 32 ∨ (Rect.unit (s := S600x1) (fun _ => 0) (fun a => (Pipeline.Clip.of (cc0_transform_1 i a) (S600x1.size a) (S10000x1.size a)).extent (S600x1.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S600x16x128.size a < S10000x32x128.size a
  hwx0_2 : ∀ i : grid0.Coords, EltTy.bits .f32 = 32 ∨ (Rect.unit (s := S10000x32x128) (fun a => cc0_transform_2 i a * S600x16x128.size a) (fun a => (Pipeline.Clip.of (cc0_transform_2 i a) (S600x16x128.size a) (S10000x32x128.size a)).extent (S600x16x128.size a)) fun a => Pipeline.Clip.inb (Pipeline.Clip.ok_of (hstart0_2 i a))).WholeWords (EltTy.packing .f32)
  hwxs0_2 : ∀ i : grid0.Coords, EltTy.bits .f32 = 32 ∨ (Rect.unit (s := S600x16x128) (fun _ => 0) (fun a => (Pipeline.Clip.of (cc0_transform_2 i a) (S600x16x128.size a) (S10000x32x128.size a)).extent (S600x16x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S600x16x128.size a < S10000x32x128.size a
  hwx0_3 : ∀ i : grid0.Coords, EltTy.bits .f32 = 32 ∨ (Rect.unit (s := S10000x32x128) (fun a => cc0_transform_3 i a * S600x16x128.size a) (fun a => (Pipeline.Clip.of (cc0_transform_3 i a) (S600x16x128.size a) (S10000x32x128.size a)).extent (S600x16x128.size a)) fun a => Pipeline.Clip.inb (Pipeline.Clip.ok_of (hstart0_3 i a))).WholeWords (EltTy.packing .f32)
  hwxs0_3 : ∀ i : grid0.Coords, EltTy.bits .f32 = 32 ∨ (Rect.unit (s := S600x16x128) (fun _ => 0) (fun a => (Pipeline.Clip.of (cc0_transform_3 i a) (S600x16x128.size a) (S10000x32x128.size a)).extent (S600x16x128.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S600x16x128.size a < S10000x32x128.size a
  hwx0_4 : ∀ i : grid0.Coords, EltTy.bits .f32 = 32 ∨ (Rect.unit (s := S10000x32x128) (fun a => cc0_transform_4 i a * S600x16x128.size a) (fun a => (Pipeline.Clip.of (cc0_transform_4 i a) (S600x16x128.size a) (S10000x32x128.size a)).extent (S600x16x128.size a)) fun a => Pipeline.Clip.inb (Pipeline.Clip.ok_of (hstart0_4 i a))).WholeWords (EltTy.packing .f32)
  hwxs0_4 : ∀ i : grid0.Coords, EltTy.bits .f32 = 32 ∨ (Rect.unit (s := S600x16x128) (fun _ => 0) (fun a => (Pipeline.Clip.of (cc0_transform_4 i a) (S600x16x128.size a) (S10000x32x128.size a)).extent (S600x16x128.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S600x16x128.size a < S10000x32x128.size a
  hwx0_5 : ∀ i : grid0.Coords, EltTy.bits .f32 = 32 ∨ (Rect.unit (s := S10000x32x128) (fun a => cc0_transform_5 i a * S600x16x128.size a) (fun a => (Pipeline.Clip.of (cc0_transform_5 i a) (S600x16x128.size a) (S10000x32x128.size a)).extent (S600x16x128.size a)) fun a => Pipeline.Clip.inb (Pipeline.Clip.ok_of (hstart0_5 i a))).WholeWords (EltTy.packing .f32)
  hwxs0_5 : ∀ i : grid0.Coords, EltTy.bits .f32 = 32 ∨ (Rect.unit (s := S600x16x128) (fun _ => 0) (fun a => (Pipeline.Clip.of (cc0_transform_5 i a) (S600x16x128.size a) (S10000x32x128.size a)).extent (S600x16x128.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x384.size a ≤ S128x384.size a
  hwx0_6 : ∀ i : grid0.Coords, EltTy.bits .f32 = 32 ∨ (Rect.block (s := S128x384) S128x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384.size a ≤ S384.size a
  hwx0_7 : ∀ i : grid0.Coords, EltTy.bits .f32 = 32 ∨ (Rect.block (s := S384) S384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x384.size a ≤ S128x384.size a
  hwx0_12 : ∀ i : grid0.Coords, EltTy.bits .f32 = 32 ∨ (Rect.block (s := S128x384) S128x384.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S384.size a ≤ S384.size a
  hwx0_13 : ∀ i : grid0.Coords, EltTy.bits .f32 = 32 ∨ (Rect.block (s := S384) S384.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hstart0_14 : ∀ (i : grid0.Coords) a, cc0_transform_14 i a * S600x128.size a < S10000x128.size a
  hwx0_14 : ∀ i : grid0.Coords, EltTy.bits .f32 = 32 ∨ (Rect.unit (s := S10000x128) (fun a => cc0_transform_14 i a * S600x128.size a) (fun a => (Pipeline.Clip.of (cc0_transform_14 i a) (S600x128.size a) (S10000x128.size a)).extent (S600x128.size a)) fun a => Pipeline.Clip.inb (Pipeline.Clip.ok_of (hstart0_14 i a))).WholeWords (EltTy.packing .f32)
  hwxs0_14 : ∀ i : grid0.Coords, EltTy.bits .f32 = 32 ∨ (Rect.unit (s := S600x128) (fun _ => 0) (fun a => (Pipeline.Clip.of (cc0_transform_14 i a) (S600x128.size a) (S10000x128.size a)).extent (S600x128.size a)) fun a => (Nat.zero_add _).trans_le (Pipeline.Clip.extent_le (Pipeline.Clip.ok_of (hstart0_14 i a)))).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hstart0_15 : ∀ (i : grid0.Coords) a, cc0_transform_15 i a * S600x128.size a < S10000x128.size a
  hwx0_15 : ∀ i : grid0.Coords, EltTy.bits .f32 = 32 ∨ (Rect.unit (s := S10000x128) (fun a => cc0_transform_15 i a * S600x128.size a) (fun a => (Pipeline.Clip.of (cc0_transform_15 i a) (S600x128.size a) (S10000x128.size a)).extent (S600x128.size a)) fun a => Pipeline.Clip.inb (Pipeline.Clip.ok_of (hstart0_15 i a))).WholeWords (EltTy.packing .f32)
  hwxs0_15 : ∀ i : grid0.Coords, EltTy.bits .f32 = 32 ∨ (Rect.unit (s := S600x128) (fun _ => 0) (fun a => (Pipeline.Clip.of (cc0_transform_15 i a) (S600x128.size a) (S10000x128.size a)).extent (S600x128.size a)) fun a => (Nat.zero_add _).trans_le (Pipeline.Clip.extent_le (Pipeline.Clip.ok_of (hstart0_15 i a)))).WholeWords (EltTy.packing .f32)

variable [Facts₀]

def dot_S600x128_S128x128_S600x128_1_0_0_1_n_n : DotDims S600x128 S128x128 S600x128 where
  lhsContracting := [1]
  rhsContracting := [0]
  lhsNonContracting := [0]
  rhsNonContracting := [1]
  lhsBatch := []
  rhsBatch := []
  wf := dot_S600x128_S128x128_S600x128_1_0_0_1_n_n_wf
def dot_S9600x128_S128x128_S9600x128_1_0_0_1_n_n : DotDims S9600x128 S128x128 S9600x128 where
  lhsContracting := [1]
  rhsContracting := [0]
  lhsNonContracting := [0]
  rhsNonContracting := [1]
  lhsBatch := []
  rhsBatch := []
  wf := dot_S9600x128_S128x128_S9600x128_1_0_0_1_n_n_wf
def dot_S600x128_S128x384_S600x384_1_0_0_1_n_n : DotDims S600x128 S128x384 S600x384 where
  lhsContracting := [1]
  rhsContracting := [0]
  lhsNonContracting := [0]
  rhsNonContracting := [1]
  lhsBatch := []
  rhsBatch := []
  wf := dot_S600x128_S128x384_S600x384_1_0_0_1_n_n_wf

abbrev win0_0 : Pipeline.Window sig grid0 :=
  Pipeline.Window.ofSpecClip (Memref.whole main_arg0) S600x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S600x1.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S600x16x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg2) S600x16x128.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_arg3) S600x16x128.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_arg3) S600x16x128.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpec (Memref.whole main_arg4) S128x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S128x384.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S384.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpecClip (Memref.whole main_v1_0) S600x128.size cc0_transform_14 reads0_14 true false 2 stage0_14 sem0_14
    hrank0 hreads0_14 hstart0_14 nbuf0_14 (Memref.isWhole_whole _) hwx0_14 hwxs0_14 hstage0_14

abbrev win0_15 : Pipeline.Window sig grid0 :=
  Pipeline.Window.ofSpecClip (Memref.whole main_v1_1) S600x128.size cc0_transform_15 reads0_15 true false 2 stage0_15 sem0_15
    hrank0 hreads0_15 hstart0_15 nbuf0_15 (Memref.isWhole_whole _) hwx0_15 hwxs0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000 : Shape := ⟨1, ![10000]⟩
abbrev S10000x32x128 : Shape := ⟨3, ![10000, 32, 128]⟩
abbrev S128x384 : Shape := ⟨2, ![128, 384]⟩
abbrev S384 : Shape := ⟨1, ![384]⟩
abbrev S128x128 : Shape := ⟨2, ![128, 128]⟩
abbrev S128 : Shape := ⟨1, ![128]⟩
abbrev S1x128 : Shape := ⟨2, ![1, 128]⟩
abbrev S10000x1 : Shape := ⟨2, ![10000, 1]⟩
abbrev S1x10000x1x128 : Shape := ⟨4, ![1, 10000, 1, 128]⟩
abbrev S1x10000x32x128 : Shape := ⟨4, ![1, 10000, 32, 128]⟩
abbrev S10000x4096 : Shape := ⟨2, ![10000, 4096]⟩
abbrev S320000x128 : Shape := ⟨2, ![320000, 128]⟩
abbrev S_ : Shape := ⟨0, ![]⟩
abbrev S10000x384 : Shape := ⟨2, ![10000, 384]⟩
abbrev S1x384 : Shape := ⟨2, ![1, 384]⟩

abbrev nBuf : Space → Nat
  | .hbm => 79
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000, .f32⟩
  | .hbm, ⟨2, _⟩ => ⟨S10000x32x128, .f32⟩
  | .hbm, ⟨3, _⟩ => ⟨S10000x32x128, .f32⟩
  | .hbm, ⟨4, _⟩ => ⟨S128x384, .f32⟩
  | .hbm, ⟨5, _⟩ => ⟨S384, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x384, .f32⟩
  | .hbm, ⟨11, _⟩ => ⟨S384, .f32⟩
  | .hbm, ⟨12, _⟩ => ⟨S10000x128, .f32⟩
  | .hbm, ⟨13, _⟩ => ⟨S1x128, .f32⟩
  | .hbm, ⟨14, _⟩ => ⟨S10000x128, .f32⟩
  | .hbm, ⟨15, _⟩ => ⟨S10000x128, .f32⟩
  | .hbm, ⟨16, _⟩ => ⟨S10000x1, .f32⟩
  | .hbm, ⟨17, _⟩ => ⟨S10000x128, .f32⟩
  | .hbm, ⟨18, _⟩ => ⟨S10000x128, .f32⟩
  | .hbm, ⟨19, _⟩ => ⟨S1x10000x1x128, .f32⟩
  | .hbm, ⟨20, _⟩ => ⟨S1x10000x32x128, .f32⟩
  | .hbm, ⟨21, _⟩ => ⟨S10000x4096, .f32⟩
  | .hbm, ⟨22, _⟩ => ⟨S320000x128, .f32⟩
  | .hbm, ⟨23, _⟩ => ⟨S320000x128, .f32⟩
  | .hbm, ⟨24, _⟩ => ⟨S1x128, .f32⟩
  | .hbm, ⟨25, _⟩ => ⟨S320000x128, .f32⟩
  | .hbm, ⟨26, _⟩ => ⟨S320000x128, .f32⟩
  | .hbm, ⟨27, _⟩ => ⟨S10000x4096, .f32⟩
  | .hbm, ⟨28, _⟩ => ⟨S10000x4096, .f32⟩
  | .hbm, ⟨29, _⟩ => ⟨S_, .f32⟩
  | .hbm, ⟨30, _⟩ => ⟨S10000x128, .f32⟩
  | .hbm, ⟨31, _⟩ => ⟨S10000x384, .f32⟩
  | .hbm, ⟨32, _⟩ => ⟨S1x384, .f32⟩
  | .hbm, ⟨33, _⟩ => ⟨S10000x384, .f32⟩
  | .hbm, ⟨34, _⟩ => ⟨S10000x384, .f32⟩
  | .hbm, ⟨35, _⟩ => ⟨S10000x4096, .f32⟩
  | .hbm, ⟨36, _⟩ => ⟨S10000x4096, .f32⟩
  | .hbm, ⟨37, _⟩ => ⟨S_, .f32⟩
  | .hbm, ⟨38, _⟩ => ⟨S10000x4096, .f32⟩
  | .hbm, ⟨39, _⟩ => ⟨S10000x4096, .f32⟩
  | .hbm, ⟨40, _⟩ => ⟨S_, .f32⟩
  | .hbm, ⟨41, _⟩ => ⟨S10000x4096, .f32⟩
  | .hbm, ⟨42, _⟩ => ⟨S10000x4096, .f32⟩
  | .hbm, ⟨43, _⟩ => ⟨S10000x32x128, .f32⟩
  | .hbm, ⟨44, _⟩ => ⟨S10000x32x128, .f32⟩
  | .hbm, ⟨45, _⟩ => ⟨S_, .f32⟩
  | .hbm, ⟨46, _⟩ => ⟨S10000x128, .f32⟩
  | .hbm, ⟨47, _⟩ => ⟨S10000x384, .f32⟩
  | .hbm, ⟨48, _⟩ => ⟨S1x384, .f32⟩
  | .hbm, ⟨49, _⟩ => ⟨S10000x384, .f32⟩
  | .hbm, ⟨50, _⟩ => ⟨S10000x384, .f32⟩
  | .hbm, ⟨51, _⟩ => ⟨S10000x1, .f32⟩
  | .hbm, ⟨52, _⟩ => ⟨S10000x384, .f32⟩
  | .hbm, ⟨53, _⟩ => ⟨S10000x384, .f32⟩
  | .hbm, ⟨54, _⟩ => ⟨S10000x384, .f32⟩
  | .hbm, ⟨55, _⟩ => ⟨S10000x128, .f32⟩
  | .hbm, ⟨56, _⟩ => ⟨S10000x128, .f32⟩
  | .hbm, ⟨57, _⟩ => ⟨S10000x128, .f32⟩
  | .hbm, ⟨58, _⟩ => ⟨S10000x128, .f32⟩
  | .hbm, ⟨59, _⟩ => ⟨S10000x128, .f32⟩
  | .hbm, ⟨60, _⟩ => ⟨S_, .f32⟩
  | .hbm, ⟨61, _⟩ => ⟨S10000x128, .f32⟩
  | .hbm, ⟨62, _⟩ => ⟨S10000x128, .f32⟩
  | .hbm, ⟨63, _⟩ => ⟨S_, .f32⟩
  | .hbm, ⟨64, _⟩ => ⟨S10000x128, .f32⟩
  | .hbm, ⟨65, _⟩ => ⟨S10000x128, .f32⟩
  | .hbm, ⟨66, _⟩ => ⟨S10000x128, .f32⟩
  | .hbm, ⟨67, _⟩ => ⟨S10000x128, .f32⟩
  | .hbm, ⟨68, _⟩ => ⟨S_, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S10000x128, .f32⟩
  | .hbm, ⟨73, _⟩ => ⟨S10000x128, .f32⟩
  | .hbm, ⟨74, _⟩ => ⟨S10000x128, .f32⟩
  | .hbm, ⟨75, _⟩ => ⟨S10000x128, .f32⟩
  | .hbm, ⟨76, _⟩ => ⟨S10000x128, .f32⟩
  | .hbm, ⟨77, _⟩ => ⟨S10000x128, .f32⟩
  | .hbm, ⟨78, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_3 : Ref sig .tc := ⟨.hbm, 60, rfl⟩
abbrev main_v44 : Ref sig .tc := ⟨.hbm, 61, rfl⟩
abbrev main_v45 : Ref sig .tc := ⟨.hbm, 62, rfl⟩
abbrev main_cst_4 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  shapeCasts_S10000x128_S1x10000x1x128 : S10000x128.ShapeCasts S1x10000x1x128
  bcast_S1x10000x1x128_S1x10000x32x128_0_1_2_3 : S1x10000x1x128.BroadcastsInDim S1x10000x32x128 (![0, 1, 2, 3] : Fin 4 → Fin S1x10000x32x128.rank)
  shapeCasts_S1x10000x32x128_S10000x4096 : S1x10000x32x128.ShapeCasts S10000x4096
  shapeCasts_S10000x32x128_S320000x128 : S10000x32x128.ShapeCasts S320000x128
  bcast_S1x128_S320000x128_0_1 : S1x128.BroadcastsInDim S320000x128 (![0, 1] : Fin 2 → Fin S320000x128.rank)
  shapeCasts_S320000x128_S10000x4096 : S320000x128.ShapeCasts S10000x4096
  reducesTo_S10000x32x128_S10000x128_d1 : S10000x32x128.ReducesTo [1] S10000x128
  h_S_ : 0 < S_.numel
  bcast_S384_S1x384_1 : S384.BroadcastsInDim S1x384 (![1] : Fin 1 → Fin S1x384.rank)
  bcast_S1x384_S10000x384_0_1 : S1x384.BroadcastsInDim S10000x384 (![0, 1] : Fin 2 → Fin S10000x384.rank)
  bcast_S_S10000x4096 : S_.BroadcastsInDim S10000x4096 (![] : Fin 0 → Fin S10000x4096.rank)
  shapeCasts_S10000x4096_S10000x32x128 : S10000x4096.ShapeCasts S10000x32x128
  bcast_S10000x1_S10000x384_0_1 : S10000x1.BroadcastsInDim S10000x384 (![0, 1] : Fin 2 → Fin S10000x384.rank)
  slices_S10000x384_S10000x128_0_0 : S10000x384.Slices ![0, 0] S10000x128
  slices_S10000x384_S10000x128_0_128 : S10000x384.Slices ![0, 128] S10000x128
  slices_S10000x384_S10000x128_0_256 : S10000x384.Slices ![0, 256] S10000x128
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S320000x128_S128x128_S320000x128_1_0_0_1_n_n_wf : DotDims.WF S320000x128 S128x128 S320000x128 [1] [0] [0] [1] [] []
  dot_S10000x128_S128x384_S10000x384_1_0_0_1_n_n_wf : DotDims.WF S10000x128 S128x384 S10000x384 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf

class Facts : Prop extends Facts₀ where

variable [Facts]
-- ==== Proof.TileKernel.lean ====
/-
  The tiled program, one grid step at a time.

  The program re-lays the mask vector as a column and then makes ONE tiled call over 17 grid steps. Step t stages, in
  fast memory, rows 600 t ‥ 600 t + 599 of the embeddings and of the mask column, the same rows of the children's hidden
  rows and memory rows — each of those two arrays through TWO windows, children 0‥15 and children 16‥31 — and the eight
  weight and bias arrays whole; it computes the block of new hidden states and the block of new memories and writes them
  back to rows 600 t ‥ of the two results. 17 · 600 exceeds the 10000 nodes: the last step's blocks overhang the arrays,
  only their 400 rows inside the arrays are moved, and what the staging buffers hold past them is anything.

  This module: the buffers as the call finds them (`V`), a window's block at a step (`iblk`), the step's two results as
  pure functions of the fourteen staged blocks (`outH`, `outC`), the step's triple (`sound_kernel`: a symbolic run of the
  printed body), the proof data of the call (`dats`), what each input buffer holds when a step starts (`beforeN`), and the
  step's obligation with the two output buffers left unnamed (`body_obligation_fgt`), which is all a frame needs.
  It is written once, for any float instance, and instantiated for the word-level program and for the idealized one by
  the program's namespace alone.
-/
import proofs.«151285_g88210038325567_cont_sun_c4_578_15_alg».proof.Proof.Gen.Kernel.Launch
import proofs.«151285_g88210038325567_cont_sun_c4_578_15_alg».proof.Proof.Gen.Kernel.Skeleton
import proofs.«151285_g88210038325567_cont_sun_c4_578_15_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.TreeCell.TileKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one tiled call -/

/-- The buffers as the tiled call finds them: after the one host operation before it (the mask vector re-laid as a column). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes only the mask column: every argument array is found as launched. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- Window `w`'s block at grid step `t`, read off its array as the call finds it: the part of the block inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## One grid step's arithmetic -/

/-- The gated sum of the children's memories over both halves, from the loaded blocks. -/
def cAggrT (x0 : Vec F S600x128 .f32) (x1 : Vec F S600x1 .f32) (x2 x3 x4 x5 : Vec F S600x16x128 .f32)
    (x8 : Vec F S128x128 .f32) (x9 : Vec F S128 .f32) (x10 : Vec F S128x128 .f32) (x11 : Vec F S128 .f32) : FVec F S600x128 .f32 :=
  k0_pay8 (k0_pay5 x0 x1 x8 x9) (k0_pay6 x0 x1 x8 x9 x2 x4 x10 x11) x3 x5 x10 x11

/-- The three stacked gate pre-activations but for the aggregation bias. -/
def iouT (x0 : Vec F S600x128 .f32) (x1 : Vec F S600x1 .f32) (x2 x3 : Vec F S600x16x128 .f32)
    (x6 : Vec F S128x384 .f32) (x7 : Vec F S384 .f32) (x12 : Vec F S128x384 .f32) : FVec F S600x384 .f32 :=
  k0_pay9 x0 (k0_pay4 x1) (k0_pay7 x2) x3 x6 x7 x12

/-- The block of new memories a step stores. -/
def outC (x0 : Vec F S600x128 .f32) (x1 : Vec F S600x1 .f32) (x2 : Vec F S600x16x128 .f32) (x3 : Vec F S600x16x128 .f32) (x4 : Vec F S600x16x128 .f32) (x5 : Vec F S600x16x128 .f32) (x6 : Vec F S128x384 .f32) (x7 : Vec F S384 .f32) (x8 : Vec F S128x128 .f32) (x9 : Vec F S128 .f32) (x10 : Vec F S128x128 .f32) (x11 : Vec F S128 .f32) (x12 : Vec F S128x384 .f32) (x13 : Vec F S384 .f32) : FVec F S600x128 .f32 :=
  k0_pay2 (cAggrT x0 x1 x2 x3 x4 x5 x8 x9 x10 x11) (iouT x0 x1 x2 x3 x6 x7 x12) (k0_pay10 x13)

/-- The block of new hidden states a step stores. -/
def outH (x0 : Vec F S600x128 .f32) (x1 : Vec F S600x1 .f32) (x2 : Vec F S600x16x128 .f32) (x3 : Vec F S600x16x128 .f32) (x4 : Vec F S600x16x128 .f32) (x5 : Vec F S600x16x128 .f32) (x6 : Vec F S128x384 .f32) (x7 : Vec F S384 .f32) (x8 : Vec F S128x128 .f32) (x9 : Vec F S128 .f32) (x10 : Vec F S128x128 .f32) (x11 : Vec F S128 .f32) (x12 : Vec F S128x384 .f32) (x13 : Vec F S384 .f32) : FVec F S600x128 .f32 :=
  k0_pay3 (cAggrT x0 x1 x2 x3 x4 x5 x8 x9 x10 x11) (iouT x0 x1 x2 x3 x6 x7 x12) (k0_pay10 x13)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The step's triple -/

set_option maxHeartbeats 4000000 in
/-- One grid step on whole staging buffers: the fourteen input buffers at contents `x0 … x13`, the two output buffers at
    anything; it ends with the inputs as they were and the outputs at `outH` and `outC` of the inputs. -/
theorem sound_kernel (c : Dev nD) (E : Set ℕ) (i : grid0.Coords) (arg1 : Memref sig .tc .vmem S600x128 .f32) (harg1 : arg1.IsWhole) (arg2 : Memref sig .tc .vmem S600x1 .f32) (harg2 : arg2.IsWhole) (arg3 : Memref sig .tc .vmem S600x16x128 .f32) (harg3 : arg3.IsWhole) (arg4 : Memref sig .tc .vmem S600x16x128 .f32) (harg4 : arg4.IsWhole) (arg5 : Memref sig .tc .vmem S600x16x128 .f32) (harg5 : arg5.IsWhole) (arg6 : Memref sig .tc .vmem S600x16x128 .f32) (harg6 : arg6.IsWhole) (arg7 : Memref sig .tc .vmem S128x384 .f32) (harg7 : arg7.IsWhole) (arg8 : Memref sig .tc .vmem S384 .f32) (harg8 : arg8.IsWhole) (arg9 : Memref sig .tc .vmem S128x128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S128x384 .f32) (harg13 : arg13.IsWhole) (arg14 : Memref sig .tc .vmem S384 .f32) (harg14 : arg14.IsWhole) (arg15 : Memref sig .tc .vmem S600x128 .f32) (harg15 : arg15.IsWhole) (arg16 : Memref sig .tc .vmem S600x128 .f32) (harg16 : arg16.IsWhole)
    (x0 : Vec F S600x128 .f32) (x1 : Vec F S600x1 .f32) (x2 : Vec F S600x16x128 .f32) (x3 : Vec F S600x16x128 .f32) (x4 : Vec F S600x16x128 .f32) (x5 : Vec F S600x16x128 .f32) (x6 : Vec F S128x384 .f32) (x7 : Vec F S384 .f32) (x8 : Vec F S128x128 .f32) (x9 : Vec F S128 .f32) (x10 : Vec F S128x128 .f32) (x11 : Vec F S128 .f32) (x12 : Vec F S128x384 .f32) (x13 : Vec F S384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (outH x0 x1 x2 x3 x4 x5 x6 x7 x8 x9 x10 x11 x12 x13) ∗ owns (c : Thread nD τ) arg16 fullShare (outC x0 x1 x2 x3 x4 x5 x6 x7 x8 x9 x10 x11 x12 x13)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__cell_kernel_eq_skeleton]; unfold cc0__cell_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (fun y => ⟨_, List.mem_singleton_self _, View.mem_set_unit_zero hz2 inb_S600x128_S600x128_0_0 y⟩)).trans ?_
    refine (View.canon_unit_zero hz2 inb_S600x128_S600x128_0_0 _).trans ?_
    simp only [View.readAt_eq_ld, View.ld_unit_zero (S := S600x128) hz2, View.ld_unit_zero (S := S600x1) hz2,
      View.ld_unit_zero (S := S600x16x128) hz3, View.ld_unit_zero (S := S128x384) hz2, View.ld_unit_zero (S := S384) hz1,
      View.ld_unit_zero (S := S128x128) hz2, View.ld_unit_zero (S := S128) hz1]
    rfl
  · iexists _; isplitr
    swap; · iexact H15
    ipureintro
    refine (View.read_writes_eq_canon _ _ _ (fun y => ⟨_, List.mem_singleton_self _, View.mem_set_unit_zero hz2 inb_S600x128_S600x128_0_0 y⟩)).trans ?_
    refine (View.canon_unit_zero hz2 inb_S600x128_S600x128_0_0 _).trans ?_
    simp only [View.readAt_eq_ld, View.ld_unit_zero (S := S600x128) hz2, View.ld_unit_zero (S := S600x1) hz2,
      View.ld_unit_zero (S := S600x16x128) hz3, View.ld_unit_zero (S := S128x384) hz2, View.ld_unit_zero (S := S384) hz1,
      View.ld_unit_zero (S := S128x128) hz2, View.ld_unit_zero (S := S128) hz1]
    rfl

/-! ## The proof data of the tiled call -/

/-- How the input arrays are shared among the windows: the children's hidden rows are read through two windows (the first
    and second 16 children), and so are the children's memory rows; each pair splits its array's share in two halves. -/
abbrev shareOf : Fin 16 → PosShare TreeShare := fun
  | 0 => fullShare | 1 => fullShare | 2 => fullShare.left | 3 => fullShare.right | 4 => fullShare.left | 5 => fullShare.right
  | 6 => fullShare | 7 => fullShare | 8 => fullShare | 9 => fullShare | 10 => fullShare | 11 => fullShare | 12 => fullShare | 13 => fullShare
  | 14 => fullShare | 15 => fullShare | ⟨_ + 16, h⟩ => absurd h (Nat.not_lt.2 (Nat.le_add_left _ _))

/-- The proof data on core `c`: the arrays as the call finds them; after a step each input buffer holds its block (a block
    that overhangs the array, filled out past the array's end), each output buffer the step's result on those; nothing is
    kept between steps beyond the scoped rest; nothing owed. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => win0_3.fill (grid0.coords t) (fun _ => Scalar.ofBits .f32 0#32) (iblk m c 3 t)
    | ⟨4, _⟩ => win0_4.fill (grid0.coords t) (fun _ => Scalar.ofBits .f32 0#32) (iblk m c 4 t)
    | ⟨5, _⟩ => win0_5.fill (grid0.coords t) (fun _ => Scalar.ofBits .f32 0#32) (iblk m c 5 t)
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outH (win0_0.fill (grid0.coords t) (fun _ => Scalar.ofBits .f32 0#32) (iblk m c 0 t)) (win0_1.fill (grid0.coords t) (fun _ => Scalar.ofBits .f32 0#32) (iblk m c 1 t)) (win0_2.fill (grid0.coords t) (fun _ => Scalar.ofBits .f32 0#32) (iblk m c 2 t)) (win0_3.fill (grid0.coords t) (fun _ => Scalar.ofBits .f32 0#32) (iblk m c 3 t)) (win0_4.fill (grid0.coords t) (fun _ => Scalar.ofBits .f32 0#32) (iblk m c 4 t)) (win0_5.fill (grid0.coords t) (fun _ => Scalar.ofBits .f32 0#32) (iblk m c 5 t)) (iblk m c 6 t) (iblk m c 7 t) (iblk m c 8 t) (iblk m c 9 t) (iblk m c 10 t) (iblk m c 11 t) (iblk m c 12 t) (iblk m c 13 t)
    | ⟨15, _⟩ => outC (win0_0.fill (grid0.coords t) (fun _ => Scalar.ofBits .f32 0#32) (iblk m c 0 t)) (win0_1.fill (grid0.coords t) (fun _ => Scalar.ofBits .f32 0#32) (iblk m c 1 t)) (win0_2.fill (grid0.coords t) (fun _ => Scalar.ofBits .f32 0#32) (iblk m c 2 t)) (win0_3.fill (grid0.coords t) (fun _ => Scalar.ofBits .f32 0#32) (iblk m c 3 t)) (win0_4.fill (grid0.coords t) (fun _ => Scalar.ofBits .f32 0#32) (iblk m c 4 t)) (win0_5.fill (grid0.coords t) (fun _ => Scalar.ofBits .f32 0#32) (iblk m c 5 t)) (iblk m c 6 t) (iblk m c 7 t) (iblk m c 8 t) (iblk m c 9 t) (iblk m c 10 t) (iblk m c 11 t) (iblk m c 12 t) (iblk m c 13 t)
    | ⟨_ + 16, h⟩ => absurd h (Nat.not_lt.2 (Nat.le_add_left _ _))
  Φ _ := Pipeline.ΦA spec0 c
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = win0_0.fill (grid0.coords t) (fun _ => Scalar.ofBits .f32 0#32) (iblk m c 0 t) := by dsimp only [dats]
theorem after1 (c : Dev nD) (t : Fin cfg0.N) : (dats m 0 c).after 1 t = win0_1.fill (grid0.coords t) (fun _ => Scalar.ofBits .f32 0#32) (iblk m c 1 t) := by dsimp only [dats]
theorem after2 (c : Dev nD) (t : Fin cfg0.N) : (dats m 0 c).after 2 t = win0_2.fill (grid0.coords t) (fun _ => Scalar.ofBits .f32 0#32) (iblk m c 2 t) := by dsimp only [dats]
theorem after3 (c : Dev nD) (t : Fin cfg0.N) : (dats m 0 c).after 3 t = win0_3.fill (grid0.coords t) (fun _ => Scalar.ofBits .f32 0#32) (iblk m c 3 t) := by dsimp only [dats]
theorem after4 (c : Dev nD) (t : Fin cfg0.N) : (dats m 0 c).after 4 t = win0_4.fill (grid0.coords t) (fun _ => Scalar.ofBits .f32 0#32) (iblk m c 4 t) := by dsimp only [dats]
theorem after5 (c : Dev nD) (t : Fin cfg0.N) : (dats m 0 c).after 5 t = win0_5.fill (grid0.coords t) (fun _ => Scalar.ofBits .f32 0#32) (iblk m c 5 t) := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = outH (win0_0.fill (grid0.coords t) (fun _ => Scalar.ofBits .f32 0#32) (iblk m c 0 t)) (win0_1.fill (grid0.coords t) (fun _ => Scalar.ofBits .f32 0#32) (iblk m c 1 t)) (win0_2.fill (grid0.coords t) (fun _ => Scalar.ofBits .f32 0#32) (iblk m c 2 t)) (win0_3.fill (grid0.coords t) (fun _ => Scalar.ofBits .f32 0#32) (iblk m c 3 t)) (win0_4.fill (grid0.coords t) (fun _ => Scalar.ofBits .f32 0#32) (iblk m c 4 t)) (win0_5.fill (grid0.coords t) (fun _ => Scalar.ofBits .f32 0#32) (iblk m c 5 t)) (iblk m c 6 t) (iblk m c 7 t) (iblk m c 8 t) (iblk m c 9 t) (iblk m c 10 t) (iblk m c 11 t) (iblk m c 12 t) (iblk m c 13 t) := by dsimp only [dats]
theorem after15 (c : Dev nD) (t : Fin cfg0.N) : (dats m 0 c).after 15 t = outC (win0_0.fill (grid0.coords t) (fun _ => Scalar.ofBits .f32 0#32) (iblk m c 0 t)) (win0_1.fill (grid0.coords t) (fun _ => Scalar.ofBits .f32 0#32) (iblk m c 1 t)) (win0_2.fill (grid0.coords t) (fun _ => Scalar.ofBits .f32 0#32) (iblk m c 2 t)) (win0_3.fill (grid0.coords t) (fun _ => Scalar.ofBits .f32 0#32) (iblk m c 3 t)) (win0_4.fill (grid0.coords t) (fun _ => Scalar.ofBits .f32 0#32) (iblk m c 4 t)) (win0_5.fill (grid0.coords t) (fun _ => Scalar.ofBits .f32 0#32) (iblk m c 5 t)) (iblk m c 6 t) (iblk m c 7 t) (iblk m c 8 t) (iblk m c 9 t) (iblk m c 10 t) (iblk m c 11 t) (iblk m c 12 t) (iblk m c 13 t) := by dsimp only [dats]

/-! ## What a step finds in each input buffer -/

/-- A row-block window is fetched at every step: its buffer holds the block, and past the array's end whatever was there. -/
theorem before0 (c : Dev nD) (t : Fin cfg0.N) (d) : (dats m 0 c).before 0 t d = win0_0.fill (grid0.coords t) d (iblk m c 0 t) := by
  rw [(dats m 0 c).before_fetched 0 t (fetch0_0 t) d]
  unfold Dat.fetched Dat.blockOf iblk; rw [A_eq]; try rfl
/-- A row-block window is fetched at every step: its buffer holds the block, and past the array's end whatever was there. -/
theorem before1 (c : Dev nD) (t : Fin cfg0.N) (d) : (dats m 0 c).before 1 t d = win0_1.fill (grid0.coords t) d (iblk m c 1 t) := by
  rw [(dats m 0 c).before_fetched 1 t (fetch0_1 t) d]
  unfold Dat.fetched Dat.blockOf iblk; rw [A_eq]; try rfl
/-- A row-block window is fetched at every step: its buffer holds the block, and past the array's end whatever was there. -/
theorem before2 (c : Dev nD) (t : Fin cfg0.N) (d) : (dats m 0 c).before 2 t d = win0_2.fill (grid0.coords t) d (iblk m c 2 t) := by
  rw [(dats m 0 c).before_fetched 2 t (fetch0_2 t) d]
  unfold Dat.fetched Dat.blockOf iblk; rw [A_eq]; try rfl
/-- A row-block window is fetched at every step: its buffer holds the block, and past the array's end whatever was there. -/
theorem before3 (c : Dev nD) (t : Fin cfg0.N) (d) : (dats m 0 c).before 3 t d = win0_3.fill (grid0.coords t) d (iblk m c 3 t) := by
  rw [(dats m 0 c).before_fetched 3 t (fetch0_3 t) d]
  unfold Dat.fetched Dat.blockOf iblk; rw [A_eq]; try rfl
/-- A row-block window is fetched at every step: its buffer holds the block, and past the array's end whatever was there. -/
theorem before4 (c : Dev nD) (t : Fin cfg0.N) (d) : (dats m 0 c).before 4 t d = win0_4.fill (grid0.coords t) d (iblk m c 4 t) := by
  rw [(dats m 0 c).before_fetched 4 t (fetch0_4 t) d]
  unfold Dat.fetched Dat.blockOf iblk; rw [A_eq]; try rfl
/-- A row-block window is fetched at every step: its buffer holds the block, and past the array's end whatever was there. -/
theorem before5 (c : Dev nD) (t : Fin cfg0.N) (d) : (dats m 0 c).before 5 t d = win0_5.fill (grid0.coords t) d (iblk m c 5 t) := by
  rw [(dats m 0 c).before_fetched 5 t (fetch0_5 t) d]
  unfold Dat.fetched Dat.blockOf iblk; rw [A_eq]; try rfl
/-- A weight or bias window is fetched once and then left in place: its buffer holds the whole array at every step. -/
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
/-- A weight or bias window is fetched once and then left in place: its buffer holds the whole array at every step. -/
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
/-- A weight or bias window is fetched once and then left in place: its buffer holds the whole array at every step. -/
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
/-- A weight or bias window is fetched once and then left in place: its buffer holds the whole array at every step. -/
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
/-- A weight or bias window is fetched once and then left in place: its buffer holds the whole array at every step. -/
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
/-- A weight or bias window is fetched once and then left in place: its buffer holds the whole array at every step. -/
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
/-- A weight or bias window is fetched once and then left in place: its buffer holds the whole array at every step. -/
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
/-- A weight or bias window is fetched once and then left in place: its buffer holds the whole array at every step. -/
theorem before13 (c : Dev nD) (t : Fin cfg0.N) (d) : (dats m 0 c).before 13 t d = iblk m c 13 t :=
  ((dats m 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)

/-! ## The step's obligation, the two output buffers at contents nothing names -/

/-- The windows whose buffers the obligation below leaves unnamed: the two outputs. -/
abbrev fgt : Fin 16 → Bool := fun
  | 0 => false | 1 => false | 2 => false | 3 => false | 4 => false | 5 => false | 6 => false | 7 => false
  | 8 => false | 9 => false | 10 => false | 11 => false | 12 => false | 13 => false | 14 => true | 15 => true
  | ⟨_ + 16, h⟩ => absurd h (Nat.not_lt.2 (Nat.le_add_left _ _))

set_option maxHeartbeats 2000000 in
/-- At every grid step the body runs from the input buffers at what they hold to the same, whatever it leaves in the
    output buffers: the frame needs no more. -/
theorem body_obligation_fgt (c : Dev nD) : BodyObligationLoose (dats (F := F) m 0 c) (defs₀ (F := F)) Variants.none () Set.univ fgt := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%X14, H14⟩, ⟨%X15, H15⟩⟩
  rw [before0 m c t d0, before1 m c t d1, before2 m c t d2, before3 m c t d3, before4 m c t d4, before5 m c t d5, before6 m c t d6, before7 m c t d7, before8 m c t d8, before9 m c t d9, before10 m c t d10, before11 m c t d11, before12 m c t d12, before13 m c t d13]
  iapply (sound_kernel c Set.univ (grid0.coords t) _ _ _ _ _ _ _ _ _ _ _ _ _ _ _ _ _ _ _ _ _ _ _ _ _ _ _ _ _ _ _ _ (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]
  · iexists d0
    rw [after0, win0_0.cut_fill]
    iexact H0
  isplitl [H1]
  · iexists d1
    rw [after1, win0_1.cut_fill]
    iexact H1
  isplitl [H2]
  · iexists d2
    rw [after2, win0_2.cut_fill]
    iexact H2
  isplitl [H3]
  · iexists d3
    rw [after3, win0_3.cut_fill]
    iexact H3
  isplitl [H4]
  · iexists d4
    rw [after4, win0_4.cut_fill]
    iexact H4
  isplitl [H5]
  · iexists d5
    rw [after5, win0_5.cut_fill]
    iexact H5
  isplitl [H6]
  · rw [after6]; iexact H6
  isplitl [H7]
  · rw [after7]; iexact H7
  isplitl [H8]
  · rw [after8]; iexact H8
  isplitl [H9]
  · rw [after9]; iexact H9
  isplitl [H10]
  · rw [after10]; iexact H10
  isplitl [H11]
  · rw [after11]; iexact H11
  isplitl [H12]
  · rw [after12]; iexact H12
  isplitl [H13]
  · rw [after13]; iexact H13
  isplitl [H14]; · iexists _; iexact H14
  iexists _; iexact H15

end Cert.TreeCell.TileKernel

end
-- ==== Proof.SplitKernel.lean ====
/-
  The tiled call's sixteen windows sit on fourteen distinct arrays: windows 2 and 3 both read the children's hidden
  rows, windows 4 and 5 both read the children's memories. Each of the fourteen buffers, held whole at the full share,
  is dealt to the windows on it: an array read by one window goes to it whole, an array read by two is halved between
  them, the left half of the full share to the first and the right half to the second.
-/
import proofs.«151285_g88210038325567_cont_sun_c4_578_15_alg».proof.Proof.Gen.Kernel.Launch
import Idealize.ShloMosaic.Lib.Pipeline.FrameBody

set_option maxRecDepth 2560

noncomputable section

namespace Cert.TreeCell.SplitKernel

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

/-- The share of its array each window holds: the two windows on the children's hidden rows hold the two halves of the
    full share, so do the two on the children's memories, and every other window holds its array at the full share. -/
def shareOf : Fin 16 → PosShare TreeShare :=
  fun | 0 => fullShare | 1 => fullShare | 2 => fullShare.left | 3 => fullShare.right | 4 => fullShare.left
      | 5 => fullShare.right | 6 => fullShare | 7 => fullShare | 8 => fullShare | 9 => fullShare | 10 => fullShare
      | 11 => fullShare | 12 => fullShare | 13 => fullShare | 14 => fullShare | 15 => fullShare
      | ⟨_ + 16, h⟩ => absurd h (Nat.not_lt.2 (Nat.le_add_left _ _))

/-- With the input shares `shareOf`, every window's share is `shareOf`'s: the two output windows hold the full share. -/
theorem share_eq (c : Dev nD) (rd : RDat τ (Elt F) Unit ℕ (UR sig nD τ) ℕ cfg0 c) (hq : rd.q = shareOf) :
    ∀ w : Fin 16, rd.share w = shareOf w := by
  intro w
  unfold RDat.share
  rw [hq]
  match w with
  | 0 => rfl | 1 => rfl | 2 => rfl | 3 => rfl | 4 => rfl | 5 => rfl | 6 => rfl | 7 => rfl | 8 => rfl | 9 => rfl
  | 10 => rfl | 11 => rfl | 12 => rfl | 13 => rfl | 14 => rfl | 15 => rfl
  | ⟨_ + 16, h⟩ => exact absurd h (Nat.not_lt.2 (Nat.le_add_left _ _))

/-- The fourteen distinct buffers behind the windows' arrays, each whole at the full share, one by one. -/
theorem arrBufs_eq (c : Dev nD) (V : (b : Ref sig .tc) → Buf (Elt F) ((c.tc : Thread nD τ).loc b)) :
    (Pipeline.arrBufs spec0 c V : sProp 𝕄)
      = iprop((((c.tc : Thread nD τ).loc main_arg0) ↦{fullShare} V main_arg0)
        ∗ (((c.tc : Thread nD τ).loc main_v0) ↦{fullShare} V main_v0)
        ∗ (((c.tc : Thread nD τ).loc main_arg2) ↦{fullShare} V main_arg2)
        ∗ (((c.tc : Thread nD τ).loc main_arg3) ↦{fullShare} V main_arg3)
        ∗ (((c.tc : Thread nD τ).loc main_arg4) ↦{fullShare} V main_arg4)
        ∗ (((c.tc : Thread nD τ).loc main_arg5) ↦{fullShare} V main_arg5)
        ∗ (((c.tc : Thread nD τ).loc main_arg6) ↦{fullShare} V main_arg6)
        ∗ (((c.tc : Thread nD τ).loc main_arg7) ↦{fullShare} V main_arg7)
        ∗ (((c.tc : Thread nD τ).loc main_arg8) ↦{fullShare} V main_arg8)
        ∗ (((c.tc : Thread nD τ).loc main_arg9) ↦{fullShare} V main_arg9)
        ∗ (((c.tc : Thread nD τ).loc main_arg10) ↦{fullShare} V main_arg10)
        ∗ (((c.tc : Thread nD τ).loc main_arg11) ↦{fullShare} V main_arg11)
        ∗ (((c.tc : Thread nD τ).loc main_v1_0) ↦{fullShare} V main_v1_0)
        ∗ (((c.tc : Thread nD τ).loc main_v1_1) ↦{fullShare} V main_v1_1)) := by
  unfold Pipeline.arrBufs
  exact bigSep_eq_bigSepL_of_eq [main_arg0, main_v0, main_arg2, main_arg3, main_arg4, main_arg5, main_arg6, main_arg7, main_arg8, main_arg9, main_arg10, main_arg11, main_v1_0, main_v1_1] (by decide) (by decide) _

/-- The sixteen windows' arrays at the entry contents, one by one: each array whole, at its window's share. -/
theorem arrays_eq (c : Dev nD) (rd : RDat τ (Elt F) Unit ℕ (UR sig nD τ) ℕ cfg0 c)
    (V : (b : Ref sig .tc) → Buf (Elt F) ((c.tc : Thread nD τ).loc b)) (hq : rd.q = shareOf)
    (hA : ∀ w, rd.A w = V (Pipeline.arrRef spec0 w)) :
    (rd.arrays rd.A : sProp 𝕄)
      = iprop((((c.tc : Thread nD τ).loc main_arg0) ↦{fullShare} V main_arg0)
        ∗ (((c.tc : Thread nD τ).loc main_v0) ↦{fullShare} V main_v0)
        ∗ (((c.tc : Thread nD τ).loc main_arg2) ↦{fullShare.left} V main_arg2)
        ∗ (((c.tc : Thread nD τ).loc main_arg2) ↦{fullShare.right} V main_arg2)
        ∗ (((c.tc : Thread nD τ).loc main_arg3) ↦{fullShare.left} V main_arg3)
        ∗ (((c.tc : Thread nD τ).loc main_arg3) ↦{fullShare.right} V main_arg3)
        ∗ (((c.tc : Thread nD τ).loc main_arg4) ↦{fullShare} V main_arg4)
        ∗ (((c.tc : Thread nD τ).loc main_arg5) ↦{fullShare} V main_arg5)
        ∗ (((c.tc : Thread nD τ).loc main_arg6) ↦{fullShare} V main_arg6)
        ∗ (((c.tc : Thread nD τ).loc main_arg7) ↦{fullShare} V main_arg7)
        ∗ (((c.tc : Thread nD τ).loc main_arg8) ↦{fullShare} V main_arg8)
        ∗ (((c.tc : Thread nD τ).loc main_arg9) ↦{fullShare} V main_arg9)
        ∗ (((c.tc : Thread nD τ).loc main_arg10) ↦{fullShare} V main_arg10)
        ∗ (((c.tc : Thread nD τ).loc main_arg11) ↦{fullShare} V main_arg11)
        ∗ (((c.tc : Thread nD τ).loc main_v1_0) ↦{fullShare} V main_v1_0)
        ∗ (((c.tc : Thread nD τ).loc main_v1_1) ↦{fullShare} V main_v1_1)) := by
  have e : (rd.arrays rd.A : sProp 𝕄) = bigSep Finset.univ fun w : Fin 16 =>
      (((c.tc : Thread nD τ).loc (Pipeline.arrRef spec0 w)) ↦{shareOf w} V (Pipeline.arrRef spec0 w) : sProp 𝕄) := by
    unfold RDat.arrays
    exact bigSep_congr fun w _ => by rw [(arr_whole0 w).set_eq_univ, share_eq c rd hq w, hA w]
  rw [e, bigSep_W0]
  rfl

/-- The distinct buffers behind the windows' arrays, each whole at the full share, entail the windows' arrays at the
    entry contents: the children's hidden rows and the children's memories are each halved between their two windows. -/
theorem arrays_of_bufs (c : Dev nD) (rd : RDat τ (Elt F) Unit ℕ (UR sig nD τ) ℕ cfg0 c)
    (V : (b : Ref sig .tc) → Buf (Elt F) ((c.tc : Thread nD τ).loc b)) (hq : rd.q = shareOf)
    (hA : ∀ w, rd.A w = V (Pipeline.arrRef spec0 w)) :
    (Pipeline.arrBufs spec0 c V : sProp 𝕄) ⊢ rd.arrays rd.A := by
  rw [arrBufs_eq c V, arrays_eq c rd V hq hA]
  iintro ⟨H0, H1, H2, H3, H4, H5, H6, H7, H8, H9, H10, H11, H12, H13⟩
  ihave H2 := (pointsTo_share (PosShare.mem_left_op_right fullShare)).1 $$ H2
  icases H2 with ⟨H2l, H2r⟩
  ihave H3 := (pointsTo_share (PosShare.mem_left_op_right fullShare)).1 $$ H3
  icases H3 with ⟨H3l, H3r⟩
  isplitl [H0]; · iexact H0
  isplitl [H1]; · iexact H1
  isplitl [H2l]; · iexact H2l
  isplitl [H2r]; · iexact H2r
  isplitl [H3l]; · iexact H3l
  isplitl [H3r]; · iexact H3r
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.TreeCell.SplitKernel

end
-- ==== Proof.RunKernel.lean ====
/-
  The tiled program's run and its frame.

  From the step's obligation (the module before this one) to the whole program: the launch of the one tiled call, by
  the pipeline library's launch theorem for windows that may share an array — the array of the children's hidden rows
  is handed to the call twice, and so is the array of their memory rows; each is split between its two windows
  (`arrays_of_bufs`) —, then the frame: every argument array ends as it was launched (an array a window stages is
  never written through an input window; the mask vector, which no window stages, bypasses the call).
  Written once for any float instance; instantiated by the program's namespace.
-/
import proofs.«151285_g88210038325567_cont_sun_c4_578_15_alg».proof.Proof.TileKernel
import proofs.«151285_g88210038325567_cont_sun_c4_578_15_alg».proof.Proof.SplitKernel

set_option maxRecDepth 16384

noncomputable section

namespace Cert.TreeCell.TileKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

-- the launch theorem's implicit arguments are found by unifying its conclusion with this one, which takes unfolding plain
-- definitions in a metavariable's type
set_option backward.isDefEq.respectTransparency.types false in
set_option maxHeartbeats 2000000 in
/-- The whole program's run for any relational proof data on these windows that shares the arrays as `shareOf` says,
    carries nothing between steps and owes nothing: every weakly fair execution ends, each windowed array at contents the
    data allow after every write-back, every other unscoped buffer as the call found it. -/
theorem run_rdat (rdat : (c : Dev nD) → RDat τ (Elt F) Unit ℕ (UR sig nD τ) ℕ cfg0 c)
    (hbody : ∀ c, (rdat c).BodyObligation (defs₀ (F := F)) Variants.none () Set.univ)
    (howed : ∀ c t, (rdat c).owed t = 0)
    (hΦ : ∀ c t, (rdat c).Φ t = Pipeline.ΦA spec0 c)
    (hsplit : ∀ c, (Pipeline.arrBufs spec0 c (V m c) : sProp 𝕄) ⊢ (rdat c).arrays (rdat c).A) :
    θ_run defs (onTc (τ := τ) (main (F := F))) (s₀ m ρ) (Pipeline.RDat.FramePost cfg0 rdat (V m)) := by
  classical
  exact Pipeline.RDat.θ_run_region_pf (fun q => (cfgs q).toPCfg (Val := Elt F)) (fun q => (cfgs q).toPCfg_adm)
    (Pipeline.RDat.familyOf (fun q => (cfgs q).toPCfg (Val := Elt F)) (fun q => (cfgs q).toPCfg_adm) 0 rdat) () cellOf_inj 0
    winFacts₀0 (Pipeline.OwnSemFacts.none spec0) (Pipeline.PreFacts.none _) emb₁ defs₀ Variants.none m ρ main
    (fun c => by rw [Pipeline.RDat.familyOf_self]; exact hbody c)
    block_pos0 arr_whole0 stage_whole0 (fun c t => by rw [Pipeline.RDat.familyOf_self]; exact howed c t)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by rw [Pipeline.RDat.familyOf_self]; exact hsplit c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => by
      rw [Pipeline.RDat.familyOf_self, hΦ]
      unfold Pipeline.ΦA; iintro ⟨Hp, -, Hr⟩
      isplitl [Hr] <;> iassumption)
    (hout := fun c => by
      rw [Pipeline.RDat.familyOf_self, hΦ, Pipeline.ownSems0_none]; unfold Pipeline.ΦA
      iintro ⟨Hr, Hp⟩
      isplitl [Hp]; · iexact Hp
      isplitr; · iempintro
      iexact Hr)
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => by simpa only [Pipeline.RDat.familyOf_self] using (h c).1 w,
      Pipeline.rest_of_restP Pipeline.Prefetch.none spec0 (fun k => k.elim0) c (V m c) s (fun k => k.elim0) (fun k => k.elim0) (h c).2.2⟩)

/-- The arrays the two split pairs of windows read enter the call shared as `shareOf` says. -/
theorem hsplit_of (rdat : (c : Dev nD) → RDat τ (Elt F) Unit ℕ (UR sig nD τ) ℕ cfg0 c)
    (hq : ∀ c, (rdat c).q = shareOf) (hA : ∀ c w, (rdat c).A w = V m c (Pipeline.arrRef spec0 w)) (c : Dev nD) :
    (Pipeline.arrBufs spec0 c (V m c) : sProp 𝕄) ⊢ (rdat c).arrays (rdat c).A :=
  Cert.TreeCell.SplitKernel.arrays_of_bufs c (rdat c) (V m c) (hq c) (hA c)

/-- Every argument array ends as launched, from the run's post: a staged array by the library's fact that no input window
    writes its array, the mask vector among the buffers that bypass the call; each then as the call found it, which is
    as launched. -/
theorem kept_of (rdat : (c : Dev nD) → RDat τ (Elt F) Unit ℕ (UR sig nD τ) ℕ cfg0 c)
    (hA : ∀ c w, (rdat c).A w = V m c (Pipeline.arrRef spec0 w)) (r : PUnit × MemSt nD τ sig (Elt F))
    (h : Pipeline.RDat.FramePost cfg0 rdat (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  have k (w : Fin 16) (hw : (cfg0.win w).isOut = false) :
      r.2.mem ((cfg0.spec w).arr.view.loc (c.tc : Thread nD τ)) = V m c (Pipeline.arrRef spec0 w) := by
    have h1 := (h c).1 w
    rw [(rdat c).ArrAt_in w hw] at h1
    exact h1.trans (hA c w)
  exact ⟨(k 0 rfl).trans (V_arg m c main_arg0 (by decide)),
    ((h c).2 main_arg1 (Pipeline.mem_restRefs_of main_arg1 rfl (by decide))).trans (V_arg m c main_arg1 (by decide)),
    (k 2 rfl).trans (V_arg m c main_arg2 (by decide)), (k 4 rfl).trans (V_arg m c main_arg3 (by decide)),
    (k 6 rfl).trans (V_arg m c main_arg4 (by decide)), (k 7 rfl).trans (V_arg m c main_arg5 (by decide)),
    (k 8 rfl).trans (V_arg m c main_arg6 (by decide)), (k 9 rfl).trans (V_arg m c main_arg7 (by decide)),
    (k 10 rfl).trans (V_arg m c main_arg8 (by decide)), (k 11 rfl).trans (V_arg m c main_arg9 (by decide)),
    (k 12 rfl).trans (V_arg m c main_arg10 (by decide)), (k 13 rfl).trans (V_arg m c main_arg11 (by decide))⟩

/-- The run with the two output buffers unnamed. -/
theorem run_fgt : θ_run defs (onTc (τ := τ) (main (F := F))) (s₀ m ρ)
    (Pipeline.RDat.FramePost cfg0 (fun c => (dats m 0 c).toRForget fgt) (V m)) :=
  run_rdat m ρ (fun c => (dats m 0 c).toRForget fgt) (fun c => (body_obligation_fgt m c).toRForget) (fun _ _ => rfl) (fun _ _ => rfl)
    (hsplit_of m (fun c => (dats m 0 c).toRForget fgt) (fun _ => rfl) (fun _ _ => rfl))

/-- THE FRAME: the program runs to the end, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => kept_of m (fun c => (dats m 0 c).toRForget fgt) (fun _ _ => rfl) r h c) (run_fgt m ρ)

end Cert.TreeCell.TileKernel

end
-- ==== Proof.TileKernelIdeal.lean ====
/-
  The tiled program, one grid step at a time.

  The program re-lays the mask vector as a column and then makes ONE tiled call over 17 grid steps. Step t stages, in
  fast memory, rows 600 t ‥ 600 t + 599 of the embeddings and of the mask column, the same rows of the children's hidden
  rows and memory rows — each of those two arrays through TWO windows, children 0‥15 and children 16‥31 — and the eight
  weight and bias arrays whole; it computes the block of new hidden states and the block of new memories and writes them
  back to rows 600 t ‥ of the two results. 17 · 600 exceeds the 10000 nodes: the last step's blocks overhang the arrays,
  only their 400 rows inside the arrays are moved, and what the staging buffers hold past them is anything.

  This module: the buffers as the call finds them (`V`), a window's block at a step (`iblk`), the step's two results as
  pure functions of the fourteen staged blocks (`outH`, `outC`), the step's triple (`sound_kernel`: a symbolic run of the
  printed body), the proof data of the call (`dats`), what each input buffer holds when a step starts (`beforeN`), and the
  step's obligation with the two output buffers left unnamed (`body_obligation_fgt`), which is all a frame needs.
  It is written once, for any float instance, and instantiated for the word-level program and for the idealized one by
  the program's namespace alone.
-/
import proofs.«151285_g88210038325567_cont_sun_c4_578_15_alg».proof.Proof.Gen.KernelIdeal.Launch
import proofs.«151285_g88210038325567_cont_sun_c4_578_15_alg».proof.Proof.Gen.KernelIdeal.Skeleton
import proofs.«151285_g88210038325567_cont_sun_c4_578_15_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.TreeCell.TileKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one tiled call -/

/-- The buffers as the tiled call finds them: after the one host operation before it (the mask vector re-laid as a column). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes only the mask column: every argument array is found as launched. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- Window `w`'s block at grid step `t`, read off its array as the call finds it: the part of the block inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## One grid step's arithmetic -/

/-- The gated sum of the children's memories over both halves, from the loaded blocks. -/
def cAggrT (x0 : Vec F S600x128 .f32) (x1 : Vec F S600x1 .f32) (x2 x3 x4 x5 : Vec F S600x16x128 .f32)
    (x8 : Vec F S128x128 .f32) (x9 : Vec F S128 .f32) (x10 : Vec F S128x128 .f32) (x11 : Vec F S128 .f32) : FVec F S600x128 .f32 :=
  k0_pay8 (k0_pay5 x0 x1 x8 x9) (k0_pay6 x0 x1 x8 x9 x2 x4 x10 x11) x3 x5 x10 x11

/-- The three stacked gate pre-activations but for the aggregation bias. -/
def iouT (x0 : Vec F S600x128 .f32) (x1 : Vec F S600x1 .f32) (x2 x3 : Vec F S600x16x128 .f32)
    (x6 : Vec F S128x384 .f32) (x7 : Vec F S384 .f32) (x12 : Vec F S128x384 .f32) : FVec F S600x384 .f32 :=
  k0_pay9 x0 (k0_pay4 x1) (k0_pay7 x2) x3 x6 x7 x12

/-- The block of new memories a step stores. -/
def outC (x0 : Vec F S600x128 .f32) (x1 : Vec F S600x1 .f32) (x2 : Vec F S600x16x128 .f32) (x3 : Vec F S600x16x128 .f32) (x4 : Vec F S600x16x128 .f32) (x5 : Vec F S600x16x128 .f32) (x6 : Vec F S128x384 .f32) (x7 : Vec F S384 .f32) (x8 : Vec F S128x128 .f32) (x9 : Vec F S128 .f32) (x10 : Vec F S128x128 .f32) (x11 : Vec F S128 .f32) (x12 : Vec F S128x384 .f32) (x13 : Vec F S384 .f32) : FVec F S600x128 .f32 :=
  k0_pay2 (cAggrT x0 x1 x2 x3 x4 x5 x8 x9 x10 x11) (iouT x0 x1 x2 x3 x6 x7 x12) (k0_pay10 x13)

/-- The block of new hidden states a step stores. -/
def outH (x0 : Vec F S600x128 .f32) (x1 : Vec F S600x1 .f32) (x2 : Vec F S600x16x128 .f32) (x3 : Vec F S600x16x128 .f32) (x4 : Vec F S600x16x128 .f32) (x5 : Vec F S600x16x128 .f32) (x6 : Vec F S128x384 .f32) (x7 : Vec F S384 .f32) (x8 : Vec F S128x128 .f32) (x9 : Vec F S128 .f32) (x10 : Vec F S128x128 .f32) (x11 : Vec F S128 .f32) (x12 : Vec F S128x384 .f32) (x13 : Vec F S384 .f32) : FVec F S600x128 .f32 :=
  k0_pay3 (cAggrT x0 x1 x2 x3 x4 x5 x8 x9 x10 x11) (iouT x0 x1 x2 x3 x6 x7 x12) (k0_pay10 x13)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The step's triple -/

set_option maxHeartbeats 4000000 in
/-- One grid step on whole staging buffers: the fourteen input buffers at contents `x0 … x13`, the two output buffers at
    anything; it ends with the inputs as they were and the outputs at `outH` and `outC` of the inputs. -/
theorem sound_kernel (c : Dev nD) (E : Set ℕ) (i : grid0.Coords) (arg1 : Memref sig .tc .vmem S600x128 .f32) (harg1 : arg1.IsWhole) (arg2 : Memref sig .tc .vmem S600x1 .f32) (harg2 : arg2.IsWhole) (arg3 : Memref sig .tc .vmem S600x16x128 .f32) (harg3 : arg3.IsWhole) (arg4 : Memref sig .tc .vmem S600x16x128 .f32) (harg4 : arg4.IsWhole) (arg5 : Memref sig .tc .vmem S600x16x128 .f32) (harg5 : arg5.IsWhole) (arg6 : Memref sig .tc .vmem S600x16x128 .f32) (harg6 : arg6.IsWhole) (arg7 : Memref sig .tc .vmem S128x384 .f32) (harg7 : arg7.IsWhole) (arg8 : Memref sig .tc .vmem S384 .f32) (harg8 : arg8.IsWhole) (arg9 : Memref sig .tc .vmem S128x128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S128x384 .f32) (harg13 : arg13.IsWhole) (arg14 : Memref sig .tc .vmem S384 .f32) (harg14 : arg14.IsWhole) (arg15 : Memref sig .tc .vmem S600x128 .f32) (harg15 : arg15.IsWhole) (arg16 : Memref sig .tc .vmem S600x128 .f32) (harg16 : arg16.IsWhole)
    (x0 : Vec F S600x128 .f32) (x1 : Vec F S600x1 .f32) (x2 : Vec F S600x16x128 .f32) (x3 : Vec F S600x16x128 .f32) (x4 : Vec F S600x16x128 .f32) (x5 : Vec F S600x16x128 .f32) (x6 : Vec F S128x384 .f32) (x7 : Vec F S384 .f32) (x8 : Vec F S128x128 .f32) (x9 : Vec F S128 .f32) (x10 : Vec F S128x128 .f32) (x11 : Vec F S128 .f32) (x12 : Vec F S128x384 .f32) (x13 : Vec F S384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (outH x0 x1 x2 x3 x4 x5 x6 x7 x8 x9 x10 x11 x12 x13) ∗ owns (c : Thread nD τ) arg16 fullShare (outC x0 x1 x2 x3 x4 x5 x6 x7 x8 x9 x10 x11 x12 x13)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__cell_kernel_eq_skeleton]; unfold cc0__cell_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (fun y => ⟨_, List.mem_singleton_self _, View.mem_set_unit_zero hz2 inb_S600x128_S600x128_0_0 y⟩)).trans ?_
    refine (View.canon_unit_zero hz2 inb_S600x128_S600x128_0_0 _).trans ?_
    simp only [View.readAt_eq_ld, View.ld_unit_zero (S := S600x128) hz2, View.ld_unit_zero (S := S600x1) hz2,
      View.ld_unit_zero (S := S600x16x128) hz3, View.ld_unit_zero (S := S128x384) hz2, View.ld_unit_zero (S := S384) hz1,
      View.ld_unit_zero (S := S128x128) hz2, View.ld_unit_zero (S := S128) hz1]
    rfl
  · iexists _; isplitr
    swap; · iexact H15
    ipureintro
    refine (View.read_writes_eq_canon _ _ _ (fun y => ⟨_, List.mem_singleton_self _, View.mem_set_unit_zero hz2 inb_S600x128_S600x128_0_0 y⟩)).trans ?_
    refine (View.canon_unit_zero hz2 inb_S600x128_S600x128_0_0 _).trans ?_
    simp only [View.readAt_eq_ld, View.ld_unit_zero (S := S600x128) hz2, View.ld_unit_zero (S := S600x1) hz2,
      View.ld_unit_zero (S := S600x16x128) hz3, View.ld_unit_zero (S := S128x384) hz2, View.ld_unit_zero (S := S384) hz1,
      View.ld_unit_zero (S := S128x128) hz2, View.ld_unit_zero (S := S128) hz1]
    rfl

/-! ## The proof data of the tiled call -/

/-- How the input arrays are shared among the windows: the children's hidden rows are read through two windows (the first
    and second 16 children), and so are the children's memory rows; each pair splits its array's share in two halves. -/
abbrev shareOf : Fin 16 → PosShare TreeShare := fun
  | 0 => fullShare | 1 => fullShare | 2 => fullShare.left | 3 => fullShare.right | 4 => fullShare.left | 5 => fullShare.right
  | 6 => fullShare | 7 => fullShare | 8 => fullShare | 9 => fullShare | 10 => fullShare | 11 => fullShare | 12 => fullShare | 13 => fullShare
  | 14 => fullShare | 15 => fullShare | ⟨_ + 16, h⟩ => absurd h (Nat.not_lt.2 (Nat.le_add_left _ _))

/-- The proof data on core `c`: the arrays as the call finds them; after a step each input buffer holds its block (a block
    that overhangs the array, filled out past the array's end), each output buffer the step's result on those; nothing is
    kept between steps beyond the scoped rest; nothing owed. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => win0_3.fill (grid0.coords t) (fun _ => Scalar.ofBits .f32 0#32) (iblk m c 3 t)
    | ⟨4, _⟩ => win0_4.fill (grid0.coords t) (fun _ => Scalar.ofBits .f32 0#32) (iblk m c 4 t)
    | ⟨5, _⟩ => win0_5.fill (grid0.coords t) (fun _ => Scalar.ofBits .f32 0#32) (iblk m c 5 t)
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outH (win0_0.fill (grid0.coords t) (fun _ => Scalar.ofBits .f32 0#32) (iblk m c 0 t)) (win0_1.fill (grid0.coords t) (fun _ => Scalar.ofBits .f32 0#32) (iblk m c 1 t)) (win0_2.fill (grid0.coords t) (fun _ => Scalar.ofBits .f32 0#32) (iblk m c 2 t)) (win0_3.fill (grid0.coords t) (fun _ => Scalar.ofBits .f32 0#32) (iblk m c 3 t)) (win0_4.fill (grid0.coords t) (fun _ => Scalar.ofBits .f32 0#32) (iblk m c 4 t)) (win0_5.fill (grid0.coords t) (fun _ => Scalar.ofBits .f32 0#32) (iblk m c 5 t)) (iblk m c 6 t) (iblk m c 7 t) (iblk m c 8 t) (iblk m c 9 t) (iblk m c 10 t) (iblk m c 11 t) (iblk m c 12 t) (iblk m c 13 t)
    | ⟨15, _⟩ => outC (win0_0.fill (grid0.coords t) (fun _ => Scalar.ofBits .f32 0#32) (iblk m c 0 t)) (win0_1.fill (grid0.coords t) (fun _ => Scalar.ofBits .f32 0#32) (iblk m c 1 t)) (win0_2.fill (grid0.coords t) (fun _ => Scalar.ofBits .f32 0#32) (iblk m c 2 t)) (win0_3.fill (grid0.coords t) (fun _ => Scalar.ofBits .f32 0#32) (iblk m c 3 t)) (win0_4.fill (grid0.coords t) (fun _ => Scalar.ofBits .f32 0#32) (iblk m c 4 t)) (win0_5.fill (grid0.coords t) (fun _ => Scalar.ofBits .f32 0#32) (iblk m c 5 t)) (iblk m c 6 t) (iblk m c 7 t) (iblk m c 8 t) (iblk m c 9 t) (iblk m c 10 t) (iblk m c 11 t) (iblk m c 12 t) (iblk m c 13 t)
    | ⟨_ + 16, h⟩ => absurd h (Nat.not_lt.2 (Nat.le_add_left _ _))
  Φ _ := Pipeline.ΦA spec0 c
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = win0_0.fill (grid0.coords t) (fun _ => Scalar.ofBits .f32 0#32) (iblk m c 0 t) := by dsimp only [dats]
theorem after1 (c : Dev nD) (t : Fin cfg0.N) : (dats m 0 c).after 1 t = win0_1.fill (grid0.coords t) (fun _ => Scalar.ofBits .f32 0#32) (iblk m c 1 t) := by dsimp only [dats]
theorem after2 (c : Dev nD) (t : Fin cfg0.N) : (dats m 0 c).after 2 t = win0_2.fill (grid0.coords t) (fun _ => Scalar.ofBits .f32 0#32) (iblk m c 2 t) := by dsimp only [dats]
theorem after3 (c : Dev nD) (t : Fin cfg0.N) : (dats m 0 c).after 3 t = win0_3.fill (grid0.coords t) (fun _ => Scalar.ofBits .f32 0#32) (iblk m c 3 t) := by dsimp only [dats]
theorem after4 (c : Dev nD) (t : Fin cfg0.N) : (dats m 0 c).after 4 t = win0_4.fill (grid0.coords t) (fun _ => Scalar.ofBits .f32 0#32) (iblk m c 4 t) := by dsimp only [dats]
theorem after5 (c : Dev nD) (t : Fin cfg0.N) : (dats m 0 c).after 5 t = win0_5.fill (grid0.coords t) (fun _ => Scalar.ofBits .f32 0#32) (iblk m c 5 t) := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = outH (win0_0.fill (grid0.coords t) (fun _ => Scalar.ofBits .f32 0#32) (iblk m c 0 t)) (win0_1.fill (grid0.coords t) (fun _ => Scalar.ofBits .f32 0#32) (iblk m c 1 t)) (win0_2.fill (grid0.coords t) (fun _ => Scalar.ofBits .f32 0#32) (iblk m c 2 t)) (win0_3.fill (grid0.coords t) (fun _ => Scalar.ofBits .f32 0#32) (iblk m c 3 t)) (win0_4.fill (grid0.coords t) (fun _ => Scalar.ofBits .f32 0#32) (iblk m c 4 t)) (win0_5.fill (grid0.coords t) (fun _ => Scalar.ofBits .f32 0#32) (iblk m c 5 t)) (iblk m c 6 t) (iblk m c 7 t) (iblk m c 8 t) (iblk m c 9 t) (iblk m c 10 t) (iblk m c 11 t) (iblk m c 12 t) (iblk m c 13 t) := by dsimp only [dats]
theorem after15 (c : Dev nD) (t : Fin cfg0.N) : (dats m 0 c).after 15 t = outC (win0_0.fill (grid0.coords t) (fun _ => Scalar.ofBits .f32 0#32) (iblk m c 0 t)) (win0_1.fill (grid0.coords t) (fun _ => Scalar.ofBits .f32 0#32) (iblk m c 1 t)) (win0_2.fill (grid0.coords t) (fun _ => Scalar.ofBits .f32 0#32) (iblk m c 2 t)) (win0_3.fill (grid0.coords t) (fun _ => Scalar.ofBits .f32 0#32) (iblk m c 3 t)) (win0_4.fill (grid0.coords t) (fun _ => Scalar.ofBits .f32 0#32) (iblk m c 4 t)) (win0_5.fill (grid0.coords t) (fun _ => Scalar.ofBits .f32 0#32) (iblk m c 5 t)) (iblk m c 6 t) (iblk m c 7 t) (iblk m c 8 t) (iblk m c 9 t) (iblk m c 10 t) (iblk m c 11 t) (iblk m c 12 t) (iblk m c 13 t) := by dsimp only [dats]

/-! ## What a step finds in each input buffer -/

/-- A row-block window is fetched at every step: its buffer holds the block, and past the array's end whatever was there. -/
theorem before0 (c : Dev nD) (t : Fin cfg0.N) (d) : (dats m 0 c).before 0 t d = win0_0.fill (grid0.coords t) d (iblk m c 0 t) := by
  rw [(dats m 0 c).before_fetched 0 t (fetch0_0 t) d]
  unfold Dat.fetched Dat.blockOf iblk; rw [A_eq]; try rfl
/-- A row-block window is fetched at every step: its buffer holds the block, and past the array's end whatever was there. -/
theorem before1 (c : Dev nD) (t : Fin cfg0.N) (d) : (dats m 0 c).before 1 t d = win0_1.fill (grid0.coords t) d (iblk m c 1 t) := by
  rw [(dats m 0 c).before_fetched 1 t (fetch0_1 t) d]
  unfold Dat.fetched Dat.blockOf iblk; rw [A_eq]; try rfl
/-- A row-block window is fetched at every step: its buffer holds the block, and past the array's end whatever was there. -/
theorem before2 (c : Dev nD) (t : Fin cfg0.N) (d) : (dats m 0 c).before 2 t d = win0_2.fill (grid0.coords t) d (iblk m c 2 t) := by
  rw [(dats m 0 c).before_fetched 2 t (fetch0_2 t) d]
  unfold Dat.fetched Dat.blockOf iblk; rw [A_eq]; try rfl
/-- A row-block window is fetched at every step: its buffer holds the block, and past the array's end whatever was there. -/
theorem before3 (c : Dev nD) (t : Fin cfg0.N) (d) : (dats m 0 c).before 3 t d = win0_3.fill (grid0.coords t) d (iblk m c 3 t) := by
  rw [(dats m 0 c).before_fetched 3 t (fetch0_3 t) d]
  unfold Dat.fetched Dat.blockOf iblk; rw [A_eq]; try rfl
/-- A row-block window is fetched at every step: its buffer holds the block, and past the array's end whatever was there. -/
theorem before4 (c : Dev nD) (t : Fin cfg0.N) (d) : (dats m 0 c).before 4 t d = win0_4.fill (grid0.coords t) d (iblk m c 4 t) := by
  rw [(dats m 0 c).before_fetched 4 t (fetch0_4 t) d]
  unfold Dat.fetched Dat.blockOf iblk; rw [A_eq]; try rfl
/-- A row-block window is fetched at every step: its buffer holds the block, and past the array's end whatever was there. -/
theorem before5 (c : Dev nD) (t : Fin cfg0.N) (d) : (dats m 0 c).before 5 t d = win0_5.fill (grid0.coords t) d (iblk m c 5 t) := by
  rw [(dats m 0 c).before_fetched 5 t (fetch0_5 t) d]
  unfold Dat.fetched Dat.blockOf iblk; rw [A_eq]; try rfl
/-- A weight or bias window is fetched once and then left in place: its buffer holds the whole array at every step. -/
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
/-- A weight or bias window is fetched once and then left in place: its buffer holds the whole array at every step. -/
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
/-- A weight or bias window is fetched once and then left in place: its buffer holds the whole array at every step. -/
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
/-- A weight or bias window is fetched once and then left in place: its buffer holds the whole array at every step. -/
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
/-- A weight or bias window is fetched once and then left in place: its buffer holds the whole array at every step. -/
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
/-- A weight or bias window is fetched once and then left in place: its buffer holds the whole array at every step. -/
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
/-- A weight or bias window is fetched once and then left in place: its buffer holds the whole array at every step. -/
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
/-- A weight or bias window is fetched once and then left in place: its buffer holds the whole array at every step. -/
theorem before13 (c : Dev nD) (t : Fin cfg0.N) (d) : (dats m 0 c).before 13 t d = iblk m c 13 t :=
  ((dats m 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)

/-! ## The step's obligation, the two output buffers at contents nothing names -/

/-- The windows whose buffers the obligation below leaves unnamed: the two outputs. -/
abbrev fgt : Fin 16 → Bool := fun
  | 0 => false | 1 => false | 2 => false | 3 => false | 4 => false | 5 => false | 6 => false | 7 => false
  | 8 => false | 9 => false | 10 => false | 11 => false | 12 => false | 13 => false | 14 => true | 15 => true
  | ⟨_ + 16, h⟩ => absurd h (Nat.not_lt.2 (Nat.le_add_left _ _))

set_option maxHeartbeats 2000000 in
/-- At every grid step the body runs from the input buffers at what they hold to the same, whatever it leaves in the
    output buffers: the frame needs no more. -/
theorem body_obligation_fgt (c : Dev nD) : BodyObligationLoose (dats (F := F) m 0 c) (defs₀ (F := F)) Variants.none () Set.univ fgt := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%X14, H14⟩, ⟨%X15, H15⟩⟩
  rw [before0 m c t d0, before1 m c t d1, before2 m c t d2, before3 m c t d3, before4 m c t d4, before5 m c t d5, before6 m c t d6, before7 m c t d7, before8 m c t d8, before9 m c t d9, before10 m c t d10, before11 m c t d11, before12 m c t d12, before13 m c t d13]
  iapply (sound_kernel c Set.univ (grid0.coords t) _ _ _ _ _ _ _ _ _ _ _ _ _ _ _ _ _ _ _ _ _ _ _ _ _ _ _ _ _ _ _ _ (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]
  · iexists d0
    rw [after0, win0_0.cut_fill]
    iexact H0
  isplitl [H1]
  · iexists d1
    rw [after1, win0_1.cut_fill]
    iexact H1
  isplitl [H2]
  · iexists d2
    rw [after2, win0_2.cut_fill]
    iexact H2
  isplitl [H3]
  · iexists d3
    rw [after3, win0_3.cut_fill]
    iexact H3
  isplitl [H4]
  · iexists d4
    rw [after4, win0_4.cut_fill]
    iexact H4
  isplitl [H5]
  · iexists d5
    rw [after5, win0_5.cut_fill]
    iexact H5
  isplitl [H6]
  · rw [after6]; iexact H6
  isplitl [H7]
  · rw [after7]; iexact H7
  isplitl [H8]
  · rw [after8]; iexact H8
  isplitl [H9]
  · rw [after9]; iexact H9
  isplitl [H10]
  · rw [after10]; iexact H10
  isplitl [H11]
  · rw [after11]; iexact H11
  isplitl [H12]
  · rw [after12]; iexact H12
  isplitl [H13]
  · rw [after13]; iexact H13
  isplitl [H14]; · iexists _; iexact H14
  iexists _; iexact H15

end Cert.TreeCell.TileKernelIdeal

end
-- ==== Proof.SplitKernelIdeal.lean ====
/-
  The tiled call's sixteen windows sit on fourteen distinct arrays: windows 2 and 3 both read the children's hidden
  rows, windows 4 and 5 both read the children's memories. Each of the fourteen buffers, held whole at the full share,
  is dealt to the windows on it: an array read by one window goes to it whole, an array read by two is halved between
  them, the left half of the full share to the first and the right half to the second.
-/
import proofs.«151285_g88210038325567_cont_sun_c4_578_15_alg».proof.Proof.Gen.KernelIdeal.Launch
import Idealize.ShloMosaic.Lib.Pipeline.FrameBody

set_option maxRecDepth 2560

noncomputable section

namespace Cert.TreeCell.SplitKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

/-- The share of its array each window holds: the two windows on the children's hidden rows hold the two halves of the
    full share, so do the two on the children's memories, and every other window holds its array at the full share. -/
def shareOf : Fin 16 → PosShare TreeShare :=
  fun | 0 => fullShare | 1 => fullShare | 2 => fullShare.left | 3 => fullShare.right | 4 => fullShare.left
      | 5 => fullShare.right | 6 => fullShare | 7 => fullShare | 8 => fullShare | 9 => fullShare | 10 => fullShare
      | 11 => fullShare | 12 => fullShare | 13 => fullShare | 14 => fullShare | 15 => fullShare
      | ⟨_ + 16, h⟩ => absurd h (Nat.not_lt.2 (Nat.le_add_left _ _))

/-- With the input shares `shareOf`, every window's share is `shareOf`'s: the two output windows hold the full share. -/
theorem share_eq (c : Dev nD) (rd : RDat τ (Elt F) Unit ℕ (UR sig nD τ) ℕ cfg0 c) (hq : rd.q = shareOf) :
    ∀ w : Fin 16, rd.share w = shareOf w := by
  intro w
  unfold RDat.share
  rw [hq]
  match w with
  | 0 => rfl | 1 => rfl | 2 => rfl | 3 => rfl | 4 => rfl | 5 => rfl | 6 => rfl | 7 => rfl | 8 => rfl | 9 => rfl
  | 10 => rfl | 11 => rfl | 12 => rfl | 13 => rfl | 14 => rfl | 15 => rfl
  | ⟨_ + 16, h⟩ => exact absurd h (Nat.not_lt.2 (Nat.le_add_left _ _))

/-- The fourteen distinct buffers behind the windows' arrays, each whole at the full share, one by one. -/
theorem arrBufs_eq (c : Dev nD) (V : (b : Ref sig .tc) → Buf (Elt F) ((c.tc : Thread nD τ).loc b)) :
    (Pipeline.arrBufs spec0 c V : sProp 𝕄)
      = iprop((((c.tc : Thread nD τ).loc main_arg0) ↦{fullShare} V main_arg0)
        ∗ (((c.tc : Thread nD τ).loc main_v0) ↦{fullShare} V main_v0)
        ∗ (((c.tc : Thread nD τ).loc main_arg2) ↦{fullShare} V main_arg2)
        ∗ (((c.tc : Thread nD τ).loc main_arg3) ↦{fullShare} V main_arg3)
        ∗ (((c.tc : Thread nD τ).loc main_arg4) ↦{fullShare} V main_arg4)
        ∗ (((c.tc : Thread nD τ).loc main_arg5) ↦{fullShare} V main_arg5)
        ∗ (((c.tc : Thread nD τ).loc main_arg6) ↦{fullShare} V main_arg6)
        ∗ (((c.tc : Thread nD τ).loc main_arg7) ↦{fullShare} V main_arg7)
        ∗ (((c.tc : Thread nD τ).loc main_arg8) ↦{fullShare} V main_arg8)
        ∗ (((c.tc : Thread nD τ).loc main_arg9) ↦{fullShare} V main_arg9)
        ∗ (((c.tc : Thread nD τ).loc main_arg10) ↦{fullShare} V main_arg10)
        ∗ (((c.tc : Thread nD τ).loc main_arg11) ↦{fullShare} V main_arg11)
        ∗ (((c.tc : Thread nD τ).loc main_v1_0) ↦{fullShare} V main_v1_0)
        ∗ (((c.tc : Thread nD τ).loc main_v1_1) ↦{fullShare} V main_v1_1)) := by
  unfold Pipeline.arrBufs
  exact bigSep_eq_bigSepL_of_eq [main_arg0, main_v0, main_arg2, main_arg3, main_arg4, main_arg5, main_arg6, main_arg7, main_arg8, main_arg9, main_arg10, main_arg11, main_v1_0, main_v1_1] (by decide) (by decide) _

/-- The sixteen windows' arrays at the entry contents, one by one: each array whole, at its window's share. -/
theorem arrays_eq (c : Dev nD) (rd : RDat τ (Elt F) Unit ℕ (UR sig nD τ) ℕ cfg0 c)
    (V : (b : Ref sig .tc) → Buf (Elt F) ((c.tc : Thread nD τ).loc b)) (hq : rd.q = shareOf)
    (hA : ∀ w, rd.A w = V (Pipeline.arrRef spec0 w)) :
    (rd.arrays rd.A : sProp 𝕄)
      = iprop((((c.tc : Thread nD τ).loc main_arg0) ↦{fullShare} V main_arg0)
        ∗ (((c.tc : Thread nD τ).loc main_v0) ↦{fullShare} V main_v0)
        ∗ (((c.tc : Thread nD τ).loc main_arg2) ↦{fullShare.left} V main_arg2)
        ∗ (((c.tc : Thread nD τ).loc main_arg2) ↦{fullShare.right} V main_arg2)
        ∗ (((c.tc : Thread nD τ).loc main_arg3) ↦{fullShare.left} V main_arg3)
        ∗ (((c.tc : Thread nD τ).loc main_arg3) ↦{fullShare.right} V main_arg3)
        ∗ (((c.tc : Thread nD τ).loc main_arg4) ↦{fullShare} V main_arg4)
        ∗ (((c.tc : Thread nD τ).loc main_arg5) ↦{fullShare} V main_arg5)
        ∗ (((c.tc : Thread nD τ).loc main_arg6) ↦{fullShare} V main_arg6)
        ∗ (((c.tc : Thread nD τ).loc main_arg7) ↦{fullShare} V main_arg7)
        ∗ (((c.tc : Thread nD τ).loc main_arg8) ↦{fullShare} V main_arg8)
        ∗ (((c.tc : Thread nD τ).loc main_arg9) ↦{fullShare} V main_arg9)
        ∗ (((c.tc : Thread nD τ).loc main_arg10) ↦{fullShare} V main_arg10)
        ∗ (((c.tc : Thread nD τ).loc main_arg11) ↦{fullShare} V main_arg11)
        ∗ (((c.tc : Thread nD τ).loc main_v1_0) ↦{fullShare} V main_v1_0)
        ∗ (((c.tc : Thread nD τ).loc main_v1_1) ↦{fullShare} V main_v1_1)) := by
  have e : (rd.arrays rd.A : sProp 𝕄) = bigSep Finset.univ fun w : Fin 16 =>
      (((c.tc : Thread nD τ).loc (Pipeline.arrRef spec0 w)) ↦{shareOf w} V (Pipeline.arrRef spec0 w) : sProp 𝕄) := by
    unfold RDat.arrays
    exact bigSep_congr fun w _ => by rw [(arr_whole0 w).set_eq_univ, share_eq c rd hq w, hA w]
  rw [e, bigSep_W0]
  rfl

/-- The distinct buffers behind the windows' arrays, each whole at the full share, entail the windows' arrays at the
    entry contents: the children's hidden rows and the children's memories are each halved between their two windows. -/
theorem arrays_of_bufs (c : Dev nD) (rd : RDat τ (Elt F) Unit ℕ (UR sig nD τ) ℕ cfg0 c)
    (V : (b : Ref sig .tc) → Buf (Elt F) ((c.tc : Thread nD τ).loc b)) (hq : rd.q = shareOf)
    (hA : ∀ w, rd.A w = V (Pipeline.arrRef spec0 w)) :
    (Pipeline.arrBufs spec0 c V : sProp 𝕄) ⊢ rd.arrays rd.A := by
  rw [arrBufs_eq c V, arrays_eq c rd V hq hA]
  iintro ⟨H0, H1, H2, H3, H4, H5, H6, H7, H8, H9, H10, H11, H12, H13⟩
  ihave H2 := (pointsTo_share (PosShare.mem_left_op_right fullShare)).1 $$ H2
  icases H2 with ⟨H2l, H2r⟩
  ihave H3 := (pointsTo_share (PosShare.mem_left_op_right fullShare)).1 $$ H3
  icases H3 with ⟨H3l, H3r⟩
  isplitl [H0]; · iexact H0
  isplitl [H1]; · iexact H1
  isplitl [H2l]; · iexact H2l
  isplitl [H2r]; · iexact H2r
  isplitl [H3l]; · iexact H3l
  isplitl [H3r]; · iexact H3r
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.TreeCell.SplitKernelIdeal

end
-- ==== Proof.RunKernelIdeal.lean ====
/-
  The tiled program's run and its frame.

  From the step's obligation (the module before this one) to the whole program: the launch of the one tiled call, by
  the pipeline library's launch theorem for windows that may share an array — the array of the children's hidden rows
  is handed to the call twice, and so is the array of their memory rows; each is split between its two windows
  (`arrays_of_bufs`) —, then the frame: every argument array ends as it was launched (an array a window stages is
  never written through an input window; the mask vector, which no window stages, bypasses the call).
  Written once for any float instance; instantiated by the program's namespace.
-/
import proofs.«151285_g88210038325567_cont_sun_c4_578_15_alg».proof.Proof.TileKernelIdeal
import proofs.«151285_g88210038325567_cont_sun_c4_578_15_alg».proof.Proof.SplitKernelIdeal

set_option maxRecDepth 16384

noncomputable section

namespace Cert.TreeCell.TileKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

-- the launch theorem's implicit arguments are found by unifying its conclusion with this one, which takes unfolding plain
-- definitions in a metavariable's type
set_option backward.isDefEq.respectTransparency.types false in
set_option maxHeartbeats 2000000 in
/-- The whole program's run for any relational proof data on these windows that shares the arrays as `shareOf` says,
    carries nothing between steps and owes nothing: every weakly fair execution ends, each windowed array at contents the
    data allow after every write-back, every other unscoped buffer as the call found it. -/
theorem run_rdat (rdat : (c : Dev nD) → RDat τ (Elt F) Unit ℕ (UR sig nD τ) ℕ cfg0 c)
    (hbody : ∀ c, (rdat c).BodyObligation (defs₀ (F := F)) Variants.none () Set.univ)
    (howed : ∀ c t, (rdat c).owed t = 0)
    (hΦ : ∀ c t, (rdat c).Φ t = Pipeline.ΦA spec0 c)
    (hsplit : ∀ c, (Pipeline.arrBufs spec0 c (V m c) : sProp 𝕄) ⊢ (rdat c).arrays (rdat c).A) :
    θ_run defs (onTc (τ := τ) (main (F := F))) (s₀ m ρ) (Pipeline.RDat.FramePost cfg0 rdat (V m)) := by
  classical
  exact Pipeline.RDat.θ_run_region_pf (fun q => (cfgs q).toPCfg (Val := Elt F)) (fun q => (cfgs q).toPCfg_adm)
    (Pipeline.RDat.familyOf (fun q => (cfgs q).toPCfg (Val := Elt F)) (fun q => (cfgs q).toPCfg_adm) 0 rdat) () cellOf_inj 0
    winFacts₀0 (Pipeline.OwnSemFacts.none spec0) (Pipeline.PreFacts.none _) emb₁ defs₀ Variants.none m ρ main
    (fun c => by rw [Pipeline.RDat.familyOf_self]; exact hbody c)
    block_pos0 arr_whole0 stage_whole0 (fun c t => by rw [Pipeline.RDat.familyOf_self]; exact howed c t)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by rw [Pipeline.RDat.familyOf_self]; exact hsplit c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => by
      rw [Pipeline.RDat.familyOf_self, hΦ]
      unfold Pipeline.ΦA; iintro ⟨Hp, -, Hr⟩
      isplitl [Hr] <;> iassumption)
    (hout := fun c => by
      rw [Pipeline.RDat.familyOf_self, hΦ, Pipeline.ownSems0_none]; unfold Pipeline.ΦA
      iintro ⟨Hr, Hp⟩
      isplitl [Hp]; · iexact Hp
      isplitr; · iempintro
      iexact Hr)
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => by simpa only [Pipeline.RDat.familyOf_self] using (h c).1 w,
      Pipeline.rest_of_restP Pipeline.Prefetch.none spec0 (fun k => k.elim0) c (V m c) s (fun k => k.elim0) (fun k => k.elim0) (h c).2.2⟩)

/-- The arrays the two split pairs of windows read enter the call shared as `shareOf` says. -/
theorem hsplit_of (rdat : (c : Dev nD) → RDat τ (Elt F) Unit ℕ (UR sig nD τ) ℕ cfg0 c)
    (hq : ∀ c, (rdat c).q = shareOf) (hA : ∀ c w, (rdat c).A w = V m c (Pipeline.arrRef spec0 w)) (c : Dev nD) :
    (Pipeline.arrBufs spec0 c (V m c) : sProp 𝕄) ⊢ (rdat c).arrays (rdat c).A :=
  Cert.TreeCell.SplitKernelIdeal.arrays_of_bufs c (rdat c) (V m c) (hq c) (hA c)

/-- Every argument array ends as launched, from the run's post: a staged array by the library's fact that no input window
    writes its array, the mask vector among the buffers that bypass the call; each then as the call found it, which is
    as launched. -/
theorem kept_of (rdat : (c : Dev nD) → RDat τ (Elt F) Unit ℕ (UR sig nD τ) ℕ cfg0 c)
    (hA : ∀ c w, (rdat c).A w = V m c (Pipeline.arrRef spec0 w)) (r : PUnit × MemSt nD τ sig (Elt F))
    (h : Pipeline.RDat.FramePost cfg0 rdat (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  have k (w : Fin 16) (hw : (cfg0.win w).isOut = false) :
      r.2.mem ((cfg0.spec w).arr.view.loc (c.tc : Thread nD τ)) = V m c (Pipeline.arrRef spec0 w) := by
    have h1 := (h c).1 w
    rw [(rdat c).ArrAt_in w hw] at h1
    exact h1.trans (hA c w)
  exact ⟨(k 0 rfl).trans (V_arg m c main_arg0 (by decide)),
    ((h c).2 main_arg1 (Pipeline.mem_restRefs_of main_arg1 rfl (by decide))).trans (V_arg m c main_arg1 (by decide)),
    (k 2 rfl).trans (V_arg m c main_arg2 (by decide)), (k 4 rfl).trans (V_arg m c main_arg3 (by decide)),
    (k 6 rfl).trans (V_arg m c main_arg4 (by decide)), (k 7 rfl).trans (V_arg m c main_arg5 (by decide)),
    (k 8 rfl).trans (V_arg m c main_arg6 (by decide)), (k 9 rfl).trans (V_arg m c main_arg7 (by decide)),
    (k 10 rfl).trans (V_arg m c main_arg8 (by decide)), (k 11 rfl).trans (V_arg m c main_arg9 (by decide)),
    (k 12 rfl).trans (V_arg m c main_arg10 (by decide)), (k 13 rfl).trans (V_arg m c main_arg11 (by decide))⟩

/-- The run with the two output buffers unnamed. -/
theorem run_fgt : θ_run defs (onTc (τ := τ) (main (F := F))) (s₀ m ρ)
    (Pipeline.RDat.FramePost cfg0 (fun c => (dats m 0 c).toRForget fgt) (V m)) :=
  run_rdat m ρ (fun c => (dats m 0 c).toRForget fgt) (fun c => (body_obligation_fgt m c).toRForget) (fun _ _ => rfl) (fun _ _ => rfl)
    (hsplit_of m (fun c => (dats m 0 c).toRForget fgt) (fun _ => rfl) (fun _ _ => rfl))

/-- THE FRAME: the program runs to the end, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => kept_of m (fun c => (dats m 0 c).toRForget fgt) (fun _ _ => rfl) r h c) (run_fgt m ρ)

end Cert.TreeCell.TileKernelIdeal

end
-- ==== Proof.ExactKernelIdeal.lean ====
/-
  The tiled program's step, its two result buffers named.

  A result window is written back at every grid step, so at every step its staging buffer arrives holding anything
  and must leave holding, on the rows its write-back moves, the step's result. The step's result on those rows is
  computed from the six row-block input buffers, which past the array's end hold anything; that the rows inside the
  array do not depend on it is taken here as a hypothesis, one for each result (`rowLocalH`, `rowLocalC`): every
  row of a result is computed from the same row of the inputs.
-/
import proofs.«151285_g88210038325567_cont_sun_c4_578_15_alg».proof.Proof.TileKernelIdeal

set_option maxRecDepth 16384

noncomputable section

namespace Cert.TreeCell.TileKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a step finds in each result buffer -/

/-- A result window is written back at every step, so its buffer is fresh when the next step starts: it holds anything. -/
theorem before14 (c : Dev nD) (t : Fin cfg0.N) (d) : (dats m 0 c).before 14 t d = d :=
  (dats m 0 c).before_out_reset 14 rfl t (by
    by_cases h0 : t.val = 0
    · exact .inl h0
    · exact .inr ⟨h0, flush0_14 _⟩) d

/-- A result window is written back at every step, so its buffer is fresh when the next step starts: it holds anything. -/
theorem before15 (c : Dev nD) (t : Fin cfg0.N) (d) : (dats m 0 c).before 15 t d = d :=
  (dats m 0 c).before_out_reset 15 rfl t (by
    by_cases h0 : t.val = 0
    · exact .inl h0
    · exact .inr ⟨h0, flush0_15 _⟩) d

/-! ## The rows inside the array do not see the fillers -/

/-- The rows of the block of new hidden states that lie inside the array do not depend on what fills the six row-block input
    buffers past the array's end: with any fillers `d0 … d5` they are what they are with the zero word. -/
abbrev rowLocalH (c : Dev nD) : Prop :=
  ∀ (t : Fin cfg0.N) (d0 : S600x128.Idx → Elt F .f32) (d1 : S600x1.Idx → Elt F .f32) (d2 d3 d4 d5 : S600x16x128.Idx → Elt F .f32),
    win0_14.cut (grid0.coords t) (outH (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) (iblk m c 10 t) (iblk m c 11 t) (iblk m c 12 t) (iblk m c 13 t))
      = win0_14.cut (grid0.coords t) (outH (win0_0.fill (grid0.coords t) (fun _ => Scalar.ofBits .f32 0#32) (iblk m c 0 t)) (win0_1.fill (grid0.coords t) (fun _ => Scalar.ofBits .f32 0#32) (iblk m c 1 t)) (win0_2.fill (grid0.coords t) (fun _ => Scalar.ofBits .f32 0#32) (iblk m c 2 t)) (win0_3.fill (grid0.coords t) (fun _ => Scalar.ofBits .f32 0#32) (iblk m c 3 t)) (win0_4.fill (grid0.coords t) (fun _ => Scalar.ofBits .f32 0#32) (iblk m c 4 t)) (win0_5.fill (grid0.coords t) (fun _ => Scalar.ofBits .f32 0#32) (iblk m c 5 t)) (iblk m c 6 t) (iblk m c 7 t) (iblk m c 8 t) (iblk m c 9 t) (iblk m c 10 t) (iblk m c 11 t) (iblk m c 12 t) (iblk m c 13 t))

/-- The rows of the block of new memories that lie inside the array do not depend on what fills the six row-block input
    buffers past the array's end: with any fillers `d0 … d5` they are what they are with the zero word. -/
abbrev rowLocalC (c : Dev nD) : Prop :=
  ∀ (t : Fin cfg0.N) (d0 : S600x128.Idx → Elt F .f32) (d1 : S600x1.Idx → Elt F .f32) (d2 d3 d4 d5 : S600x16x128.Idx → Elt F .f32),
    win0_15.cut (grid0.coords t) (outC (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) (iblk m c 10 t) (iblk m c 11 t) (iblk m c 12 t) (iblk m c 13 t))
      = win0_15.cut (grid0.coords t) (outC (win0_0.fill (grid0.coords t) (fun _ => Scalar.ofBits .f32 0#32) (iblk m c 0 t)) (win0_1.fill (grid0.coords t) (fun _ => Scalar.ofBits .f32 0#32) (iblk m c 1 t)) (win0_2.fill (grid0.coords t) (fun _ => Scalar.ofBits .f32 0#32) (iblk m c 2 t)) (win0_3.fill (grid0.coords t) (fun _ => Scalar.ofBits .f32 0#32) (iblk m c 3 t)) (win0_4.fill (grid0.coords t) (fun _ => Scalar.ofBits .f32 0#32) (iblk m c 4 t)) (win0_5.fill (grid0.coords t) (fun _ => Scalar.ofBits .f32 0#32) (iblk m c 5 t)) (iblk m c 6 t) (iblk m c 7 t) (iblk m c 8 t) (iblk m c 9 t) (iblk m c 10 t) (iblk m c 11 t) (iblk m c 12 t) (iblk m c 13 t))

/-! ## The step's obligation, every buffer named -/

set_option maxHeartbeats 4000000 in
/-- At every grid step the body runs from every buffer at what it holds — the inputs at their blocks, the results at
    anything — to the inputs as they were and the results at the step's blocks of new hidden states and new memories
    on the rows inside the array. -/
theorem body_obligation_exact (c : Dev nD) (hH : rowLocalH (F := F) m c) (hC : rowLocalC (F := F) m c) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  rw [before0 m c t d0, before1 m c t d1, before2 m c t d2, before3 m c t d3, before4 m c t d4, before5 m c t d5, before6 m c t d6, before7 m c t d7, before8 m c t d8, before9 m c t d9, before10 m c t d10, before11 m c t d11, before12 m c t d12, before13 m c t d13, before14 m c t d14, before15 m c t d15]
  -- the fillers do not reach the rows a write-back moves: filling the step's result with its own moved rows is the result
  have eH : win0_14.fill (grid0.coords t) (outH (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) (iblk m c 10 t) (iblk m c 11 t) (iblk m c 12 t) (iblk m c 13 t))
      (win0_14.cut (grid0.coords t) ((dats m 0 c).after 14 t)) = outH (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) (iblk m c 10 t) (iblk m c 11 t) (iblk m c 12 t) (iblk m c 13 t) := by
    rw [after14, ← hH t d0 d1 d2 d3 d4 d5, win0_14.fill_cut]
  have eC : win0_15.fill (grid0.coords t) (outC (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) (iblk m c 10 t) (iblk m c 11 t) (iblk m c 12 t) (iblk m c 13 t))
      (win0_15.cut (grid0.coords t) ((dats m 0 c).after 15 t)) = outC (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) (iblk m c 10 t) (iblk m c 11 t) (iblk m c 12 t) (iblk m c 13 t) := by
    rw [after15, ← hC t d0 d1 d2 d3 d4 d5, win0_15.fill_cut]
  iapply (sound_kernel c Set.univ (grid0.coords t) _ _ _ _ _ _ _ _ _ _ _ _ _ _ _ _ _ _ _ _ _ _ _ _ _ _ _ _ _ _ _ _ (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists d14; iexact H14
  isplitl [H15]; · iexists d15; iexact H15
  iintro ⟨H0, H1, H2, H3, H4, H5, H6, H7, H8, H9, H10, H11, H12, H13, H14, H15⟩
  isplitl [HΦ]; · iexact HΦ
  isplitl [Ho]; · iexact Ho
  isplitl [H0]
  · iexists d0
    rw [after0, win0_0.cut_fill]
    iexact H0
  isplitl [H1]
  · iexists d1
    rw [after1, win0_1.cut_fill]
    iexact H1
  isplitl [H2]
  · iexists d2
    rw [after2, win0_2.cut_fill]
    iexact H2
  isplitl [H3]
  · iexists d3
    rw [after3, win0_3.cut_fill]
    iexact H3
  isplitl [H4]
  · iexists d4
    rw [after4, win0_4.cut_fill]
    iexact H4
  isplitl [H5]
  · iexists d5
    rw [after5, win0_5.cut_fill]
    iexact H5
  isplitl [H6]
  · rw [after6]; iexact H6
  isplitl [H7]
  · rw [after7]; iexact H7
  isplitl [H8]
  · rw [after8]; iexact H8
  isplitl [H9]
  · rw [after9]; iexact H9
  isplitl [H10]
  · rw [after10]; iexact H10
  isplitl [H11]
  · rw [after11]; iexact H11
  isplitl [H12]
  · rw [after12]; iexact H12
  isplitl [H13]
  · rw [after13]; iexact H13
  isplitl [H14]
  · iexists (outH (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) (iblk m c 10 t) (iblk m c 11 t) (iblk m c 12 t) (iblk m c 13 t))
    rw [eH]
    iexact H14
  · iexists (outC (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) (iblk m c 10 t) (iblk m c 11 t) (iblk m c 12 t) (iblk m c 13 t))
    rw [eC]
    iexact H15

end Cert.TreeCell.TileKernelIdeal

end
-- ==== Proof.BodyFn.lean ====
/-
  What one grid step of the tiled program stores, as two pure functions of the fourteen blocks it loads:
  a block of 600 nodes' embeddings `X0` and masks `X1`, the first and second halves (16 children each) of those
  nodes' children's hidden rows `X2`, `X3` and memory rows `X4`, `X5`, and the eight weight and bias arrays whole
  (`X6` W_iou, `X7` b_iou, `X8` W_fin, `X9` b_fin, `X10` W_f, `X11` b_f, `X12` W_aggr, `X13` b_aggr).
  `stepC` is the block of new memories, `stepH` the block of new hidden states; both are the step's own
  arithmetic, composed from the generated names of its stored values.
-/
import proofs.«151285_g88210038325567_cont_sun_c4_578_15_alg».proof.Proof.Gen.KernelIdeal.Skeleton

noncomputable section

namespace Cert.TreeCell.Step

open Idealize.ShloMosaic Cert.KernelIdeal Cert.KernelIdeal.Gen

variable {F : FTy → Type} [FloatOps F]

/-- The masked input projection of the forget gates, for the block. -/
def fInB (X0 : Vec F S600x128 .f32) (X1 : Vec F S600x1 .f32) (X8 : Vec F S128x128 .f32) (X9 : Vec F S128 .f32) : FVec F S600x128 .f32 :=
  k0_pay5 X0 X1 X8 X9

/-- The gated sum of the children's memories over both halves. -/
def cAggrB (X0 : Vec F S600x128 .f32) (X1 : Vec F S600x1 .f32) (X2 X3 X4 X5 : Vec F S600x16x128 .f32)
    (X8 : Vec F S128x128 .f32) (X9 : Vec F S128 .f32) (X10 : Vec F S128x128 .f32) (X11 : Vec F S128 .f32) : FVec F S600x128 .f32 :=
  k0_pay8 (fInB X0 X1 X8 X9) (k0_pay6 X0 X1 X8 X9 X2 X4 X10 X11) X3 X5 X10 X11

/-- The three stacked gate pre-activations but for the aggregation bias. -/
def iouB (X0 : Vec F S600x128 .f32) (X1 : Vec F S600x1 .f32) (X2 X3 : Vec F S600x16x128 .f32)
    (X6 : Vec F S128x384 .f32) (X7 : Vec F S384 .f32) (X12 : Vec F S128x384 .f32) : FVec F S600x384 .f32 :=
  k0_pay9 X0 (k0_pay4 X1) (k0_pay7 X2) X3 X6 X7 X12

/-- The block of new memories. -/
def stepC (X0 : Vec F S600x128 .f32) (X1 : Vec F S600x1 .f32) (X2 X3 X4 X5 : Vec F S600x16x128 .f32)
    (X6 : Vec F S128x384 .f32) (X7 : Vec F S384 .f32) (X8 : Vec F S128x128 .f32) (X9 : Vec F S128 .f32)
    (X10 : Vec F S128x128 .f32) (X11 : Vec F S128 .f32) (X12 : Vec F S128x384 .f32) (X13 : Vec F S384 .f32) : FVec F S600x128 .f32 :=
  k0_pay2 (cAggrB X0 X1 X2 X3 X4 X5 X8 X9 X10 X11) (iouB X0 X1 X2 X3 X6 X7 X12) (k0_pay10 X13)

/-- The block of new hidden states. -/
def stepH (X0 : Vec F S600x128 .f32) (X1 : Vec F S600x1 .f32) (X2 X3 X4 X5 : Vec F S600x16x128 .f32)
    (X6 : Vec F S128x384 .f32) (X7 : Vec F S384 .f32) (X8 : Vec F S128x128 .f32) (X9 : Vec F S128 .f32)
    (X10 : Vec F S128x128 .f32) (X11 : Vec F S128 .f32) (X12 : Vec F S128x384 .f32) (X13 : Vec F S384 .f32) : FVec F S600x128 .f32 :=
  k0_pay3 (cAggrB X0 X1 X2 X3 X4 X5 X8 X9 X10 X11) (iouB X0 X1 X2 X3 X6 X7 X12) (k0_pay10 X13)

end Cert.TreeCell.Step

end
-- ==== Proof.Spec.lean ====
/-
  One node of the child-sum tree cell, as a function of that node's data, over the extended reals.

  A node has an embedding row `x` (128 entries), a mask scalar `mk`, and 32 children, each with a hidden row
  `nh ch` and a memory row `nc ch` (128 entries each). With the weights `Wfin, Wf : 128 × 128`,
  `Wiou, Waggr : 128 × 384` and the biases:

    fIn j        = (Σ_k x k · Wfin k j + bfin j) · mk
    gate ch j    = σ((Σ_k nh ch k · Wf k j + bf j) + fIn j)            σ z = 1 / (1 + e^(−z))
    cAggr j      = Σ_ch gate ch j · nc ch j
    hSum k       = Σ_ch nh ch k
    iou j        = (Σ_k x k · Wiou k j + biou j) · mk + (Σ_k hSum k · Waggr k j + baggr j)     (j < 384)
    cNew j       = σ(iou j) · tanh(iou (256 + j)) + cAggr j
    hNew j       = σ(iou (128 + j)) · tanh(cNew j)

  The two programs compared compute `hNew` and `cNew` for every node; this module fixes the common form.
-/
import Idealize.ShloMosaic.PureOps.Ideal
import Mathlib.Analysis.SpecialFunctions.Trigonometric.DerivHyp

noncomputable section

namespace Cert.TreeCell

open Idealize.ShloMosaic

/-- A family over the 32 children from its two halves of 16: children 0‥15 from `a`, children 16‥31 from `b`. -/
def halves {α : Type} (a b : Fin 16 → α) (ch : Fin 32) : α :=
  if h : ch.val < 16 then a ⟨ch.val, h⟩ else b ⟨ch.val - 16, by omega⟩

/-- The input projection of the forget gates, masked. -/
def fIn (x : Fin 128 → EReal) (mk : EReal) (Wfin : Fin 128 → Fin 128 → EReal) (bfin : Fin 128 → EReal) (j : Fin 128) : EReal :=
  (∑ k : Fin 128, x k * Wfin k j + bfin j) * mk

/-- One child's forget gate. -/
def gate (h : Fin 128 → EReal) (Wf : Fin 128 → Fin 128 → EReal) (bf : Fin 128 → EReal) (fin : EReal) (j : Fin 128) : EReal :=
  Ideal.logistic ((∑ k : Fin 128, h k * Wf k j + bf j) + fin)

/-- The children's memories, gated and summed. -/
def cAggr (x : Fin 128 → EReal) (mk : EReal) (nh nc : Fin 32 → Fin 128 → EReal)
    (Wfin : Fin 128 → Fin 128 → EReal) (bfin : Fin 128 → EReal) (Wf : Fin 128 → Fin 128 → EReal) (bf : Fin 128 → EReal)
    (j : Fin 128) : EReal :=
  ∑ ch : Fin 32, gate (nh ch) Wf bf (fIn x mk Wfin bfin j) j * nc ch j

/-- The children's hidden rows summed. -/
def hSum (nh : Fin 32 → Fin 128 → EReal) (k : Fin 128) : EReal := ∑ ch : Fin 32, nh ch k

/-- The three stacked gate pre-activations. -/
def iou (x : Fin 128 → EReal) (mk : EReal) (nh : Fin 32 → Fin 128 → EReal)
    (Wiou : Fin 128 → Fin 384 → EReal) (biou : Fin 384 → EReal) (Waggr : Fin 128 → Fin 384 → EReal) (baggr : Fin 384 → EReal)
    (j : Fin 384) : EReal :=
  (∑ k : Fin 128, x k * Wiou k j + biou j) * mk + (∑ k : Fin 128, hSum nh k * Waggr k j + baggr j)

/-- The column of the input gate, the output gate, the update: `j`, `128 + j`, `256 + j`. -/
def colI (j : Fin 128) : Fin 384 := ⟨j.val, by omega⟩
def colO (j : Fin 128) : Fin 384 := ⟨128 + j.val, by omega⟩
def colU (j : Fin 128) : Fin 384 := ⟨256 + j.val, by omega⟩

/-- The node's new memory. -/
def cNew (x : Fin 128 → EReal) (mk : EReal) (nh nc : Fin 32 → Fin 128 → EReal)
    (Wiou : Fin 128 → Fin 384 → EReal) (biou : Fin 384 → EReal) (Wfin : Fin 128 → Fin 128 → EReal) (bfin : Fin 128 → EReal)
    (Wf : Fin 128 → Fin 128 → EReal) (bf : Fin 128 → EReal) (Waggr : Fin 128 → Fin 384 → EReal) (baggr : Fin 384 → EReal)
    (j : Fin 128) : EReal :=
  Ideal.logistic (iou x mk nh Wiou biou Waggr baggr (colI j)) * Ideal.tanh (iou x mk nh Wiou biou Waggr baggr (colU j))
    + cAggr x mk nh nc Wfin bfin Wf bf j

/-- The node's new hidden state. -/
def hNew (x : Fin 128 → EReal) (mk : EReal) (nh nc : Fin 32 → Fin 128 → EReal)
    (Wiou : Fin 128 → Fin 384 → EReal) (biou : Fin 384 → EReal) (Wfin : Fin 128 → Fin 128 → EReal) (bfin : Fin 128 → EReal)
    (Wf : Fin 128 → Fin 128 → EReal) (bf : Fin 128 → EReal) (Waggr : Fin 128 → Fin 384 → EReal) (baggr : Fin 384 → EReal)
    (j : Fin 128) : EReal :=
  Ideal.logistic (iou x mk nh Wiou biou Waggr baggr (colO j)) * Ideal.tanh (cNew x mk nh nc Wiou biou Wfin bfin Wf bf Waggr baggr j)

end Cert.TreeCell

end
-- ==== Proof.Laws.lean ====
/-
  Two laws over the extended reals that join a tiled arrangement of the tree cell to its common form, and the
  constants both programs spell.

  The logistic through the hyperbolic tangent: for every extended real z,
      (1/2) · tanh((1/2) · z) + 1/2 = 1 / (1 + e^(−z)),
  at +∞ (both sides 1), at −∞ (both sides 0), and at a real r, where with a = e^(r/2), b = e^(−r/2), a·b = 1:
      (1/2)(a − b)/(a + b) + 1/2 = a/(a + b) = 1/(1 + b/a) = 1/(1 + b²) = 1/(1 + e^(−r)).

  A sum over the 32 children is the sum over children 0‥15 plus the sum over children 16‥31, in any commutative
  monoid; and the family `halves a b` reads `a` on the first half and `b` on the second.
-/
import proofs.«151285_g88210038325567_cont_sun_c4_578_15_alg».proof.Proof.Spec
import Idealize.ShloMosaic.Lib.IdealHost

noncomputable section

namespace Cert.TreeCell

open Idealize.ShloMosaic

/-! ## The constants -/

/-- The f32 pattern `0x3F000000` denotes the real one half. -/
theorem ofBits_half : Ideal.ofBits .f32 0x3F000000#32 = (((1 : ℝ) / 2 : ℝ) : EReal) := by
  simp [Ideal.ofBits, Ideal.ieee, -EReal.coe_mul]; norm_num

/-- The f32 pattern of `+0.0` denotes zero. -/
theorem ofBits_zero : Ideal.ofBits .f32 0x00000000#32 = 0 := Ideal.ofBits_zero_f32

/-- The f32 pattern `0x3F800000` denotes one. -/
theorem ofBits_one : Ideal.ofBits .f32 0x3F800000#32 = 1 := Ideal.ofBits_one_f32

/-! ## The logistic through the hyperbolic tangent -/

/-- On the reals: `(1/2) · tanh(r/2) + 1/2 = 1 / (1 + e^(−r))`. -/
theorem real_logistic_via_tanh (r : ℝ) :
    (1 / 2 : ℝ) * Real.tanh ((1 / 2 : ℝ) * r) + 1 / 2 = (1 + Real.exp (-r))⁻¹ := by
  have hmul : Real.exp (1 / 2 * r) * Real.exp (-(1 / 2 * r)) = 1 := by
    rw [← Real.exp_add, add_neg_cancel, Real.exp_zero]
  have hsq : Real.exp (-r) = Real.exp (-(1 / 2 * r)) * Real.exp (-(1 / 2 * r)) := by
    rw [← Real.exp_add]; congr 1; ring
  have hp : 0 < Real.exp (1 / 2 * r) := Real.exp_pos _
  have hn : 0 < Real.exp (-(1 / 2 * r)) := Real.exp_pos _
  rw [Real.tanh_eq_sinh_div_cosh, Real.sinh_eq, Real.cosh_eq, hsq]
  generalize Real.exp (1 / 2 * r) = a at *
  generalize Real.exp (-(1 / 2 * r)) = b at *
  have hab : a + b ≠ 0 := (add_pos hp hn).ne'
  have hb2 : 1 + b * b ≠ 0 := by positivity
  field_simp
  linear_combination (2 * b) * hmul

/-- The logistic through the hyperbolic tangent, at every extended real. -/
theorem logistic_via_tanh (z : EReal) :
    Ideal.ofBits .f32 0x3F000000#32 * Ideal.tanh (Ideal.ofBits .f32 0x3F000000#32 * z)
      + Ideal.ofBits .f32 0x3F000000#32 = Ideal.logistic z := by
  rw [ofBits_half]
  have hpos : (0 : ℝ) < 1 / 2 := by norm_num
  induction z using EReal.rec with
  | bot =>
    rw [EReal.coe_mul_bot_of_pos hpos, Ideal.tanh_bot, Ideal.logistic_bot]
    rw [show (-1 : EReal) = ((-1 : ℝ) : EReal) by rw [EReal.coe_neg, EReal.coe_one], ← EReal.coe_mul, ← EReal.coe_add]
    norm_num
  | top =>
    rw [EReal.coe_mul_top_of_pos hpos, Ideal.tanh_top, Ideal.logistic_top, mul_one, ← EReal.coe_add]
    norm_num
  | coe r =>
    rw [← EReal.coe_mul, Ideal.tanh_coe, Ideal.logistic_coe, ← EReal.coe_mul, ← EReal.coe_add,
      real_logistic_via_tanh]

/-- The logistic as a program prints it, with the pattern of one for each `1`. -/
theorem logistic_printed (z : EReal) :
    Ideal.div (Ideal.ofBits .f32 0x3F800000#32) (Ideal.ofBits .f32 0x3F800000#32 + Ideal.exp (-z))
      = Ideal.logistic z := by
  rw [ofBits_one]; rfl

/-! ## The 32 children as two halves of 16 -/

/-- A sum over the 32 children is the sum over the first 16 plus the sum over the last 16. -/
theorem sum_halves {M : Type*} [AddCommMonoid M] (g : Fin 32 → M) :
    ∑ ch : Fin 32, g ch
      = (∑ a : Fin 16, g ⟨a.val, by omega⟩) + ∑ b : Fin 16, g ⟨16 + b.val, by omega⟩ :=
  Fin.sum_univ_add (a := 16) (b := 16) g

/-- `halves a b` on the first half reads `a`. -/
theorem halves_left {α : Type} (a b : Fin 16 → α) (i : Fin 16) : halves a b ⟨i.val, by omega⟩ = a i := by
  unfold halves; rw [dif_pos i.isLt]

/-- `halves a b` on the second half reads `b`. -/
theorem halves_right {α : Type} (a b : Fin 16 → α) (i : Fin 16) : halves a b ⟨16 + i.val, by omega⟩ = b i := by
  unfold halves
  rw [dif_neg (by simp)]
  exact congrArg b (Fin.ext (by simp))

/-- Every family over the 32 children is the `halves` of its two restrictions. -/
theorem halves_eta {α : Type} (f : Fin 32 → α) :
    halves (fun a => f ⟨a.val, by omega⟩) (fun b => f ⟨16 + b.val, by omega⟩) = f := by
  funext ch
  unfold halves
  split
  · rfl
  · exact congrArg f (Fin.ext (by simp only []; omega))

end Cert.TreeCell

end
-- ==== Proof.KernelSide.lean ====
/-
  One grid step of the tiled tree cell, row by row.

  The step loads a block of 600 nodes (their embeddings, their masks, and the two halves, 16 children each, of their
  children's hidden and memory rows) and the weights whole, and stores the block of new memories and the block of new
  hidden states. This module reads both stored blocks at node p and channel j and finds there the common form
  `cNew` / `hNew` at node p's own data: row p of the result depends on row p of the six node blocks only.

  Bottom-up. A matrix product into the zero accumulator is, at (p, c), the sum over the contracted coordinate of the
  products. A bias row, the mask column and the input projection are broadcast, read by index. The children's rows are
  laid out flat, child q of node p as row 16·p + q, multiplied by W_f, and read back at (p, q, ·). The step spells the
  logistic as 1/2 · tanh(1/2 · z) + 1/2. The sum over a half's 16 children is a finite sum, and the two halves' sums make
  the sum over the 32 children. The three gates are the columns j, 128 + j, 256 + j of the stacked pre-activations.
  The only algebra used is the associativity of + on the extended reals.
-/
import proofs.«151285_g88210038325567_cont_sun_c4_578_15_alg».proof.Proof.BodyFn
import proofs.«151285_g88210038325567_cont_sun_c4_578_15_alg».proof.Proof.Spec
import proofs.«151285_g88210038325567_cont_sun_c4_578_15_alg».proof.Proof.Laws
import Idealize.ShloMosaic.Lib.ValueIdx
import Idealize.ShloMosaic.Lib.ValueLayout
import Idealize.ShloMosaic.Lib.Pipeline.Value
import Idealize.ShloMosaic.PureOps.Ideal.Laws

noncomputable section

namespace Cert.TreeCell.Ker

open Idealize.ShloMosaic Idealize.ShloMosaic.ValueIdx Cert.KernelIdeal Cert.KernelIdeal.Gen

/-! ## The three matrix products, read at coordinates -/

/-- The left operand's row coordinate is the output's row coordinate. -/
theorem lhs0_mm600 (i : S600x128.Idx) (q : dot_S600x128_S128x128_S600x128_1_0_0_1_n_n.contr.Idx) :
    (dot_S600x128_S128x128_S600x128_1_0_0_1_n_n.lhsIdx i q 0).val = (i 0).val := by
  unfold DotDims.lhsIdx
  rw [dif_neg (show ¬(0 : Fin S600x128.rank) ∈ dot_S600x128_S128x128_S600x128_1_0_0_1_n_n.lhsBatch by decide), dif_pos (show (0 : Fin S600x128.rank) ∈ dot_S600x128_S128x128_S600x128_1_0_0_1_n_n.lhsNonContracting by decide)]
  rfl
/-- The right operand's column coordinate is the output's column coordinate. -/
theorem rhs1_mm600 (i : S600x128.Idx) (q : dot_S600x128_S128x128_S600x128_1_0_0_1_n_n.contr.Idx) :
    (dot_S600x128_S128x128_S600x128_1_0_0_1_n_n.rhsIdx i q 1).val = (i 1).val := by
  unfold DotDims.rhsIdx
  rw [dif_neg (show ¬(1 : Fin S128x128.rank) ∈ dot_S600x128_S128x128_S600x128_1_0_0_1_n_n.rhsBatch by decide), dif_pos (show (1 : Fin S128x128.rank) ∈ dot_S600x128_S128x128_S600x128_1_0_0_1_n_n.rhsNonContracting by decide)]
  rfl

/-- The product of a [600,128] block with a [128,128] matrix into the zero accumulator, at (p, c): the sum over the contracted coordinate. -/
theorem mm600_apply (l : FVec Ideal S600x128 .f32) (r : FVec Ideal S128x128 .f32) (p : Fin 600) (c : Fin 128) :
    matmul dot_S600x128_S128x128_S600x128_1_0_0_1_n_n none l r (constant (F := Ideal) S600x128 .f32 0x00000000#32) (ix2 p c)
      = ∑ k : Fin 128, l (ix2 p k) * r (ix2 k c) := by
  simp only [matmul]
  rw [Ideal.matmul_constant_zero_apply, ← Equiv.sum_comp (contrEquiv1 dot_S600x128_S128x128_S600x128_1_0_0_1_n_n 128 rfl rfl).symm]
  refine Finset.sum_congr rfl fun k _ => ?_
  have hk := contrEquiv1_symm_val dot_S600x128_S128x128_S600x128_1_0_0_1_n_n 128 rfl rfl k
  have el : dot_S600x128_S128x128_S600x128_1_0_0_1_n_n.lhsIdx (ix2 p c) ((contrEquiv1 dot_S600x128_S128x128_S600x128_1_0_0_1_n_n 128 rfl rfl).symm k) = ix2 p k := funext fun a => Fin.ext (by
    match a with
    | ⟨0, _⟩ => exact lhs0_mm600 _ _
    | ⟨1, _⟩ => exact (dot_S600x128_S128x128_S600x128_1_0_0_1_n_n.lhsIdx_val_of_single rfl _ _).trans hk)
  have er : dot_S600x128_S128x128_S600x128_1_0_0_1_n_n.rhsIdx (ix2 p c) ((contrEquiv1 dot_S600x128_S128x128_S600x128_1_0_0_1_n_n 128 rfl rfl).symm k) = ix2 k c := funext fun a => Fin.ext (by
    match a with
    | ⟨0, _⟩ => exact (dot_S600x128_S128x128_S600x128_1_0_0_1_n_n.rhsIdx_val_of_single rfl _ _).trans hk
    | ⟨1, _⟩ => exact rhs1_mm600 _ _)
  rw [el, er]

/-- The left operand's row coordinate is the output's row coordinate. -/
theorem lhs0_mm9600 (i : S9600x128.Idx) (q : dot_S9600x128_S128x128_S9600x128_1_0_0_1_n_n.contr.Idx) :
    (dot_S9600x128_S128x128_S9600x128_1_0_0_1_n_n.lhsIdx i q 0).val = (i 0).val := by
  unfold DotDims.lhsIdx
  rw [dif_neg (show ¬(0 : Fin S9600x128.rank) ∈ dot_S9600x128_S128x128_S9600x128_1_0_0_1_n_n.lhsBatch by decide), dif_pos (show (0 : Fin S9600x128.rank) ∈ dot_S9600x128_S128x128_S9600x128_1_0_0_1_n_n.lhsNonContracting by decide)]
  rfl
/-- The right operand's column coordinate is the output's column coordinate. -/
theorem rhs1_mm9600 (i : S9600x128.Idx) (q : dot_S9600x128_S128x128_S9600x128_1_0_0_1_n_n.contr.Idx) :
    (dot_S9600x128_S128x128_S9600x128_1_0_0_1_n_n.rhsIdx i q 1).val = (i 1).val := by
  unfold DotDims.rhsIdx
  rw [dif_neg (show ¬(1 : Fin S128x128.rank) ∈ dot_S9600x128_S128x128_S9600x128_1_0_0_1_n_n.rhsBatch by decide), dif_pos (show (1 : Fin S128x128.rank) ∈ dot_S9600x128_S128x128_S9600x128_1_0_0_1_n_n.rhsNonContracting by decide)]
  rfl

/-- The product of a [9600,128] block with a [128,128] matrix into the zero accumulator, at (p, c): the sum over the contracted coordinate. -/
theorem mm9600_apply (l : FVec Ideal S9600x128 .f32) (r : FVec Ideal S128x128 .f32) (p : Fin 9600) (c : Fin 128) :
    matmul dot_S9600x128_S128x128_S9600x128_1_0_0_1_n_n none l r (constant (F := Ideal) S9600x128 .f32 0x00000000#32) (ix2 p c)
      = ∑ k : Fin 128, l (ix2 p k) * r (ix2 k c) := by
  simp only [matmul]
  rw [Ideal.matmul_constant_zero_apply, ← Equiv.sum_comp (contrEquiv1 dot_S9600x128_S128x128_S9600x128_1_0_0_1_n_n 128 rfl rfl).symm]
  refine Finset.sum_congr rfl fun k _ => ?_
  have hk := contrEquiv1_symm_val dot_S9600x128_S128x128_S9600x128_1_0_0_1_n_n 128 rfl rfl k
  have el : dot_S9600x128_S128x128_S9600x128_1_0_0_1_n_n.lhsIdx (ix2 p c) ((contrEquiv1 dot_S9600x128_S128x128_S9600x128_1_0_0_1_n_n 128 rfl rfl).symm k) = ix2 p k := funext fun a => Fin.ext (by
    match a with
    | ⟨0, _⟩ => exact lhs0_mm9600 _ _
    | ⟨1, _⟩ => exact (dot_S9600x128_S128x128_S9600x128_1_0_0_1_n_n.lhsIdx_val_of_single rfl _ _).trans hk)
  have er : dot_S9600x128_S128x128_S9600x128_1_0_0_1_n_n.rhsIdx (ix2 p c) ((contrEquiv1 dot_S9600x128_S128x128_S9600x128_1_0_0_1_n_n 128 rfl rfl).symm k) = ix2 k c := funext fun a => Fin.ext (by
    match a with
    | ⟨0, _⟩ => exact (dot_S9600x128_S128x128_S9600x128_1_0_0_1_n_n.rhsIdx_val_of_single rfl _ _).trans hk
    | ⟨1, _⟩ => exact rhs1_mm9600 _ _)
  rw [el, er]

/-- The left operand's row coordinate is the output's row coordinate. -/
theorem lhs0_mm384 (i : S600x384.Idx) (q : dot_S600x128_S128x384_S600x384_1_0_0_1_n_n.contr.Idx) :
    (dot_S600x128_S128x384_S600x384_1_0_0_1_n_n.lhsIdx i q 0).val = (i 0).val := by
  unfold DotDims.lhsIdx
  rw [dif_neg (show ¬(0 : Fin S600x128.rank) ∈ dot_S600x128_S128x384_S600x384_1_0_0_1_n_n.lhsBatch by decide), dif_pos (show (0 : Fin S600x128.rank) ∈ dot_S600x128_S128x384_S600x384_1_0_0_1_n_n.lhsNonContracting by decide)]
  rfl
/-- The right operand's column coordinate is the output's column coordinate. -/
theorem rhs1_mm384 (i : S600x384.Idx) (q : dot_S600x128_S128x384_S600x384_1_0_0_1_n_n.contr.Idx) :
    (dot_S600x128_S128x384_S600x384_1_0_0_1_n_n.rhsIdx i q 1).val = (i 1).val := by
  unfold DotDims.rhsIdx
  rw [dif_neg (show ¬(1 : Fin S128x384.rank) ∈ dot_S600x128_S128x384_S600x384_1_0_0_1_n_n.rhsBatch by decide), dif_pos (show (1 : Fin S128x384.rank) ∈ dot_S600x128_S128x384_S600x384_1_0_0_1_n_n.rhsNonContracting by decide)]
  rfl

/-- The product of a [600,128] block with a [128,384] matrix into the zero accumulator, at (p, c): the sum over the contracted coordinate. -/
theorem mm384_apply (l : FVec Ideal S600x128 .f32) (r : FVec Ideal S128x384 .f32) (p : Fin 600) (c : Fin 384) :
    matmul dot_S600x128_S128x384_S600x384_1_0_0_1_n_n none l r (constant (F := Ideal) S600x384 .f32 0x00000000#32) (ix2 p c)
      = ∑ k : Fin 128, l (ix2 p k) * r (ix2 k c) := by
  simp only [matmul]
  rw [Ideal.matmul_constant_zero_apply, ← Equiv.sum_comp (contrEquiv1 dot_S600x128_S128x384_S600x384_1_0_0_1_n_n 128 rfl rfl).symm]
  refine Finset.sum_congr rfl fun k _ => ?_
  have hk := contrEquiv1_symm_val dot_S600x128_S128x384_S600x384_1_0_0_1_n_n 128 rfl rfl k
  have el : dot_S600x128_S128x384_S600x384_1_0_0_1_n_n.lhsIdx (ix2 p c) ((contrEquiv1 dot_S600x128_S128x384_S600x384_1_0_0_1_n_n 128 rfl rfl).symm k) = ix2 p k := funext fun a => Fin.ext (by
    match a with
    | ⟨0, _⟩ => exact lhs0_mm384 _ _
    | ⟨1, _⟩ => exact (dot_S600x128_S128x384_S600x384_1_0_0_1_n_n.lhsIdx_val_of_single rfl _ _).trans hk)
  have er : dot_S600x128_S128x384_S600x384_1_0_0_1_n_n.rhsIdx (ix2 p c) ((contrEquiv1 dot_S600x128_S128x384_S600x384_1_0_0_1_n_n 128 rfl rfl).symm k) = ix2 k c := funext fun a => Fin.ext (by
    match a with
    | ⟨0, _⟩ => exact (dot_S600x128_S128x384_S600x384_1_0_0_1_n_n.rhsIdx_val_of_single rfl _ _).trans hk
    | ⟨1, _⟩ => exact rhs1_mm384 _ _)
  rw [el, er]

/-! ## Layout operations of the block, read at coordinates -/

section Layout
variable {α : Type}

/-- A column [a,1] broadcast to [a,b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [b] cast to [1,b] and broadcast to [a,b] reads, at (p, c), the vector at c. -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A block [a,b] cast to [a,1,b] and broadcast to [a,n,b] reads, at (p, q, c), the block at (p, c). -/
theorem overChildren_apply {a n b : ℕ} (v : (⟨2, ![a, b]⟩ : Shape).Idx → α)
    (h1 : (⟨2, ![a, b]⟩ : Shape).ShapeCasts ⟨3, ![a, 1, b]⟩)
    (h2 : (⟨3, ![a, 1, b]⟩ : Shape).Broadcasts ⟨3, ![a, n, b]⟩) (p : Fin a) (q : Fin n) (c : Fin b) :
    broadcastTo ⟨3, ![a, n, b]⟩ (shapeCast ⟨3, ![a, 1, b]⟩ v h1) h2 (ix3 p q c) = v (ix2 p c) := by
  refine (broadcastTo_apply _ h2 (ix3 p q c) (ix3 p (0 : Fin 1) c) fun ax => ?_).trans ?_
  · match ax with
    | ⟨0, _⟩ =>
      show p.val = if a = 1 then 0 else p.val
      split
      · have := p.isLt; omega
      · rfl
    | ⟨1, _⟩ => rfl
    | ⟨2, _⟩ =>
      show c.val = if b = 1 then 0 else c.val
      split
      · have := c.isLt; omega
      · rfl
  · refine shapeCast_apply v h1 _ _ ?_
    rw [Shape.rowMajor_val_two, Shape.rowMajor_val_three]
    show p.val * b + c.val = (p.val * 1 + 0) * b + c.val
    rw [Nat.mul_one, Nat.add_zero]

/-- The children's rows [600,16,128] laid out as [9600,128]: row 16·p + q is child q of node p. -/
theorem flatten_apply (v : S600x16x128.Idx → α) (h : S600x16x128.ShapeCasts S9600x128)
    (p : Fin 600) (q : Fin 16) (c : Fin 128) :
    shapeCast S9600x128 v h (ix2 (⟨16 * p.val + q.val, by omega⟩ : Fin 9600) c) = v (ix3 p q c) := by
  refine shapeCast_apply v h _ _ ?_
  rw [Shape.rowMajor_val_two, Shape.rowMajor_val_three]
  show (p.val * 16 + q.val) * 128 + c.val = (16 * p.val + q.val) * 128 + c.val
  omega

/-- And back: [9600,128] laid out as [600,16,128] reads, at (p, q, c), row 16·p + q. -/
theorem unflatten_apply (w : S9600x128.Idx → α) (h : S9600x128.ShapeCasts S600x16x128)
    (p : Fin 600) (q : Fin 16) (c : Fin 128) :
    shapeCast S600x16x128 w h (ix3 p q c) = w (ix2 (⟨16 * p.val + q.val, by omega⟩ : Fin 9600) c) := by
  refine shapeCast_apply w h _ _ ?_
  rw [Shape.rowMajor_val_two, Shape.rowMajor_val_three]
  show (16 * p.val + q.val) * 128 + c.val = (p.val * 16 + q.val) * 128 + c.val
  omega

end Layout

/-- The sum over the 16 children of a [600,16,128] block, at (p, j). -/
theorem sumChildren_apply (src : FVec Ideal S600x16x128 .f32) (h : S600x16x128.Reduces [1] S600x128)
    (hφ : FKind.Formats .f32) (hacc : (0x00000000#32 : BitVec 32) = 0x00000000#32) (p : Fin 600) (j : Fin 128) :
    multiReduction (F := Ideal) .add [1] S600x128 src 0x00000000#32 h hφ hacc (ix2 p j) = ∑ q : Fin 16, src (ix3 p q j) := by
  refine (Ideal.multiReduction_add_single src 0x00000000#32 h hφ hacc (ix2 p j)).trans ?_
  refine Finset.sum_congr rfl fun q _ => congrArg src ?_
  funext ax
  match ax with
  | ⟨0, _⟩ => rfl
  | ⟨1, _⟩ => rfl
  | ⟨2, _⟩ => rfl

/-! ## The payloads of one grid step, read at coordinates -/

/-- The mask block is passed on unchanged. -/
theorem pay4_eq (v1 : Vec Ideal S600x1 .f32) : k0_pay4 (F := Ideal) v1 = v1 :=
  shapeCast_self v1 _

/-- The masked input projection of the forget gates, at node p and channel j. -/
theorem pay5_apply (v0 : Vec Ideal S600x128 .f32) (v1 : Vec Ideal S600x1 .f32) (v3 : Vec Ideal S128x128 .f32)
    (v5 : Vec Ideal S128 .f32) (p : Fin 600) (j : Fin 128) :
    k0_pay5 (F := Ideal) v0 v1 v3 v5 (ix2 p j)
      = fIn (fun k => v0 (ix2 p k)) (v1 (ix2 p 0)) (fun k c => v3 (ix2 k c)) (fun c => v5 (ix1 c)) j := by
  have e1 := mm600_apply v0 v3 p j
  have e2 := rowBias_apply (a := 600) v5 shapeCasts_S128_S1x128 broadcasts_S1x128_S600x128 p j
  have e3 : broadcastTo S600x128 (k0_pay4 (F := Ideal) v1) broadcasts_S600x1_S600x128 (ix2 p j) = v1 (ix2 p 0) := by
    rw [pay4_eq]; exact broadcastTo_a1_ab_apply v1 _ p j
  unfold fIn
  exact congrArg₂ (· * ·) (congrArg₂ (· + ·) e1 e2) e3

/-- The sum of the 16 children's hidden rows of one half, at node p and channel k. -/
theorem pay7_apply (v11 : Vec Ideal S600x16x128 .f32) (p : Fin 600) (k : Fin 128) :
    k0_pay7 (F := Ideal) v11 (ix2 p k) = ∑ q : Fin 16, v11 (ix3 p q k) :=
  sumChildren_apply v11 reduces_S600x16x128_S600x128 (.inl rfl) rfl p k

/-- The aggregation bias over the block, at node p and column c. -/
theorem pay10_apply (v70 : Vec Ideal S384 .f32) (p : Fin 600) (c : Fin 384) :
    k0_pay10 (F := Ideal) v70 (ix2 p c) = v70 (ix1 c) :=
  rowBias_apply (a := 600) v70 shapeCasts_S384_S1x384 broadcasts_S1x384_S600x384 p c

/-- The logistic as the step spells it over a block, 1/2 · tanh(1/2 · x) + 1/2, at an index. -/
theorem sigmoidB_apply {s : Shape} (x : FVec Ideal s .f32) (i : s.Idx) :
    addf (mulf (broadcast s (Scalar.ofBits (F := Ideal) .f32 0x3F000000#32))
        (tanh (mulf (broadcast s (Scalar.ofBits (F := Ideal) .f32 0x3F000000#32)) x)))
      (broadcast s (Scalar.ofBits (F := Ideal) .f32 0x3F000000#32)) i = Ideal.logistic (x i) :=
  logistic_via_tanh (x i)

/-- One child's gate pre-activation without the input projection: the child's hidden row through W_f, plus b_f,
    computed on the flattened [9600,128] layout and read back at (p, q, j). -/
theorem childProj_apply (h : FVec Ideal S600x16x128 .f32) (W : FVec Ideal S128x128 .f32) (b : FVec Ideal S128 .f32)
    (p : Fin 600) (q : Fin 16) (j : Fin 128) :
    shapeCast S600x16x128
        (addf (matmul dot_S9600x128_S128x128_S9600x128_1_0_0_1_n_n none
            (shapeCast S9600x128 h shapeCasts_S600x16x128_S9600x128) W (constant (F := Ideal) S9600x128 .f32 0x00000000#32))
          (broadcastTo S9600x128 (shapeCast S1x128 b shapeCasts_S128_S1x128) broadcasts_S1x128_S9600x128))
        shapeCasts_S9600x128_S600x16x128 (ix3 p q j)
      = ∑ k : Fin 128, h (ix3 p q k) * W (ix2 k j) + b (ix1 j) := by
  refine (unflatten_apply _ _ p q j).trans ?_
  refine congrArg₂ (· + ·) ?_ (rowBias_apply (a := 9600) b shapeCasts_S128_S1x128 broadcasts_S1x128_S9600x128 _ j)
  refine (mm9600_apply _ W _ j).trans ?_
  exact Finset.sum_congr rfl fun k _ => congrArg (· * W (ix2 k j)) (flatten_apply h _ p q k)

/-- One half's gated sum of the children's memories as the step computes it, at node p and channel j:
    the sum over the half's 16 children of gate · memory. -/
theorem gatedHalf_apply (f : FVec Ideal S600x128 .f32) (h c : FVec Ideal S600x16x128 .f32) (W : FVec Ideal S128x128 .f32)
    (b : FVec Ideal S128 .f32) (p : Fin 600) (j : Fin 128) :
    multiReduction (F := Ideal) .add [1] S600x128
        (mulf
          (addf (mulf (broadcast S600x16x128 (Scalar.ofBits (F := Ideal) .f32 0x3F000000#32))
              (tanh (mulf (broadcast S600x16x128 (Scalar.ofBits (F := Ideal) .f32 0x3F000000#32))
                (addf
                  (shapeCast S600x16x128
                    (addf (matmul dot_S9600x128_S128x128_S9600x128_1_0_0_1_n_n none
                        (shapeCast S9600x128 h shapeCasts_S600x16x128_S9600x128) W (constant (F := Ideal) S9600x128 .f32 0x00000000#32))
                      (broadcastTo S9600x128 (shapeCast S1x128 b shapeCasts_S128_S1x128) broadcasts_S1x128_S9600x128))
                    shapeCasts_S9600x128_S600x16x128)
                  (broadcastTo S600x16x128 (shapeCast S600x1x128 f shapeCasts_S600x128_S600x1x128) broadcasts_S600x1x128_S600x16x128)))))
            (broadcast S600x16x128 (Scalar.ofBits (F := Ideal) .f32 0x3F000000#32)))
          c)
        0x00000000#32 reduces_S600x16x128_S600x128 (.inl rfl) rfl (ix2 p j)
      = ∑ q : Fin 16, gate (fun k => h (ix3 p q k)) (fun k c => W (ix2 k c)) (fun c => b (ix1 c)) (f (ix2 p j)) j * c (ix3 p q j) := by
  refine (sumChildren_apply _ _ _ _ p j).trans ?_
  refine Finset.sum_congr rfl fun q _ => ?_
  refine congrArg (· * c (ix3 p q j)) ?_
  refine (sigmoidB_apply _ _).trans ?_
  unfold gate
  exact congrArg Ideal.logistic (congrArg₂ (· + ·) (childProj_apply h W b p q j) (overChildren_apply f _ _ p q j))

/-- The first half's gated sum, at node p and channel j. -/
theorem pay6_apply (v0 : Vec Ideal S600x128 .f32) (v1 : Vec Ideal S600x1 .f32) (v3 : Vec Ideal S128x128 .f32)
    (v5 : Vec Ideal S128 .f32) (v11 v12 : Vec Ideal S600x16x128 .f32) (v14 : Vec Ideal S128x128 .f32) (v16 : Vec Ideal S128 .f32)
    (p : Fin 600) (j : Fin 128) :
    k0_pay6 (F := Ideal) v0 v1 v3 v5 v11 v12 v14 v16 (ix2 p j)
      = ∑ q : Fin 16, gate (fun k => v11 (ix3 p q k)) (fun k c => v14 (ix2 k c)) (fun c => v16 (ix1 c))
          (k0_pay5 (F := Ideal) v0 v1 v3 v5 (ix2 p j)) j * v12 (ix3 p q j) :=
  gatedHalf_apply (k0_pay5 (F := Ideal) v0 v1 v3 v5) v11 v12 v14 v16 p j

/-- Both halves' gated sums added, at node p and channel j. -/
theorem pay8_apply (v10 v32 : FVec Ideal S600x128 .f32) (v34 v35 : Vec Ideal S600x16x128 .f32) (v37 : Vec Ideal S128x128 .f32)
    (v39 : Vec Ideal S128 .f32) (p : Fin 600) (j : Fin 128) :
    k0_pay8 (F := Ideal) v10 v32 v34 v35 v37 v39 (ix2 p j)
      = v32 (ix2 p j) + ∑ q : Fin 16, gate (fun k => v34 (ix3 p q k)) (fun k c => v37 (ix2 k c)) (fun c => v39 (ix1 c))
          (v10 (ix2 p j)) j * v35 (ix3 p q j) :=
  congrArg (v32 (ix2 p j) + ·) (gatedHalf_apply v10 v34 v35 v37 v39 p j)

/-- The gate pre-activations but for the aggregation bias, at node p and column c: the masked input projection
    plus the summed hidden rows of both halves through W_aggr. -/
theorem pay9_apply (v0 : Vec Ideal S600x128 .f32) (v2 : FVec Ideal S600x1 .f32) (v33 : FVec Ideal S600x128 .f32)
    (v34 : Vec Ideal S600x16x128 .f32) (v59 : Vec Ideal S128x384 .f32) (v61 : Vec Ideal S384 .f32) (v67 : Vec Ideal S128x384 .f32)
    (p : Fin 600) (c : Fin 384) :
    k0_pay9 (F := Ideal) v0 v2 v33 v34 v59 v61 v67 (ix2 p c)
      = (∑ k : Fin 128, v0 (ix2 p k) * v59 (ix2 k c) + v61 (ix1 c)) * v2 (ix2 p 0)
        + ∑ k : Fin 128, (v33 (ix2 p k) + ∑ q : Fin 16, v34 (ix3 p q k)) * v67 (ix2 k c) := by
  refine congrArg₂ (· + ·)
    (congrArg₂ (· * ·)
      (congrArg₂ (· + ·) (mm384_apply v0 v59 p c)
        (rowBias_apply (a := 600) v61 shapeCasts_S384_S1x384 broadcasts_S1x384_S600x384 p c))
      (broadcastTo_a1_ab_apply v2 broadcasts_S600x1_S600x384 p c)) ?_
  refine (mm384_apply _ v67 p c).trans ?_
  exact Finset.sum_congr rfl fun k _ => congrArg (· * v67 (ix2 k c))
    (congrArg (v33 (ix2 p k) + ·) (sumChildren_apply v34 reduces_S600x16x128_S600x128 (.inl rfl) rfl p k))

/-- The summed hidden rows of the 32 children are the two halves' sums added. -/
theorem hSum_halves (A B : Fin 16 → Fin 128 → EReal) (k : Fin 128) :
    hSum (halves A B) k = ∑ q : Fin 16, A q k + ∑ q : Fin 16, B q k := by
  unfold hSum
  rw [sum_halves]
  simp only [halves_left, halves_right]

/-- The three stacked gate pre-activations of node p, at column c, are the common form's. -/
theorem iouRow_apply (X0 : Vec Ideal S600x128 .f32) (X1 : Vec Ideal S600x1 .f32) (X2 X3 : Vec Ideal S600x16x128 .f32)
    (X6 : Vec Ideal S128x384 .f32) (X7 : Vec Ideal S384 .f32) (X12 : Vec Ideal S128x384 .f32) (X13 : Vec Ideal S384 .f32)
    (p : Fin 600) (c : Fin 384) :
    k0_pay1 (F := Ideal) (k0_pay9 (F := Ideal) X0 (k0_pay4 (F := Ideal) X1) (k0_pay7 (F := Ideal) X2) X3 X6 X7 X12)
        (k0_pay10 (F := Ideal) X13) (ix2 p c)
      = iou (fun k => X0 (ix2 p k)) (X1 (ix2 p 0))
          (halves (fun a k => X2 (ix3 p a k)) (fun b k => X3 (ix3 p b k)))
          (fun k c => X6 (ix2 k c)) (fun c => X7 (ix1 c)) (fun k c => X12 (ix2 k c)) (fun c => X13 (ix1 c)) c := by
  unfold iou
  refine (congrArg₂ (· + ·) (pay9_apply X0 (k0_pay4 (F := Ideal) X1) (k0_pay7 (F := Ideal) X2) X3 X6 X7 X12 p c)
    (pay10_apply X13 p c)).trans ?_
  rw [pay4_eq, add_assoc]
  refine congrArg ((∑ k : Fin 128, X0 (ix2 p k) * X6 (ix2 k c) + X7 (ix1 c)) * X1 (ix2 p 0) + ·) ?_
  refine congrArg (· + X13 (ix1 c)) ?_
  refine Finset.sum_congr rfl fun k _ => congrArg (· * X12 (ix2 k c)) ?_
  rw [hSum_halves, pay7_apply]

/-- The block of new memories at node p and channel j, over the gate pre-activations and the gated sum. -/
theorem pay2_apply (v57 : FVec Ideal S600x128 .f32) (v69 v72 : FVec Ideal S600x384 .f32) (p : Fin 600) (j : Fin 128) :
    k0_pay2 (F := Ideal) v57 v69 v72 (ix2 p j)
      = Ideal.logistic (k0_pay1 (F := Ideal) v69 v72 (ix2 p (colI j)))
          * Ideal.tanh (k0_pay1 (F := Ideal) v69 v72 (ix2 p (colU j))) + v57 (ix2 p j) := by
  refine congrArg (· + v57 (ix2 p j)) ?_
  refine congrArg₂ (· * ·) ?_ ?_
  · refine (sigmoidB_apply _ _).trans (congrArg Ideal.logistic ?_)
    exact slice2_axis1_apply 0 _ slices_S600x384_o0_0_S600x128 p j (colI j) (Nat.zero_add _).symm
  · exact congrArg Ideal.tanh (slice2_axis1_apply 256 _ slices_S600x384_o0_256_S600x128 p j (colU j) rfl)

/-- The block of new hidden states at node p and channel j. -/
theorem pay3_apply (v57 : FVec Ideal S600x128 .f32) (v69 v72 : FVec Ideal S600x384 .f32) (p : Fin 600) (j : Fin 128) :
    k0_pay3 (F := Ideal) v57 v69 v72 (ix2 p j)
      = Ideal.logistic (k0_pay1 (F := Ideal) v69 v72 (ix2 p (colO j)))
          * Ideal.tanh (k0_pay2 (F := Ideal) v57 v69 v72 (ix2 p j)) := by
  refine congrArg₂ (· * ·) ?_ rfl
  refine (sigmoidB_apply _ _).trans (congrArg Ideal.logistic ?_)
  exact slice2_axis1_apply 128 _ slices_S600x384_o0_128_S600x128 p j (colO j) rfl

/-- The gated sum of the 32 children's memories of node p, at channel j, is the common form's. -/
theorem cAggrRow_apply (X0 : Vec Ideal S600x128 .f32) (X1 : Vec Ideal S600x1 .f32) (X2 X3 X4 X5 : Vec Ideal S600x16x128 .f32)
    (X8 : Vec Ideal S128x128 .f32) (X9 : Vec Ideal S128 .f32) (X10 : Vec Ideal S128x128 .f32) (X11 : Vec Ideal S128 .f32)
    (p : Fin 600) (j : Fin 128) :
    k0_pay8 (F := Ideal) (k0_pay5 (F := Ideal) X0 X1 X8 X9) (k0_pay6 (F := Ideal) X0 X1 X8 X9 X2 X4 X10 X11) X3 X5 X10 X11 (ix2 p j)
      = cAggr (fun k => X0 (ix2 p k)) (X1 (ix2 p 0))
          (halves (fun a k => X2 (ix3 p a k)) (fun b k => X3 (ix3 p b k)))
          (halves (fun a k => X4 (ix3 p a k)) (fun b k => X5 (ix3 p b k)))
          (fun k c => X8 (ix2 k c)) (fun c => X9 (ix1 c)) (fun k c => X10 (ix2 k c)) (fun c => X11 (ix1 c)) j := by
  unfold cAggr
  rw [sum_halves]
  simp only [halves_left, halves_right]
  rw [pay8_apply, pay6_apply, pay5_apply]

/-! ## One grid step's two stored blocks, row by row

Row p of either block is the common form at node p's own data: the embedding row, the mask entry, the 32 children's
hidden and memory rows (the two halves of 16 joined), and the weights. -/

/-- The block of new memories, at node p and channel j. -/
theorem stepC_apply (X0 : Vec Ideal S600x128 .f32) (X1 : Vec Ideal S600x1 .f32) (X2 X3 X4 X5 : Vec Ideal S600x16x128 .f32)
    (X6 : Vec Ideal S128x384 .f32) (X7 : Vec Ideal S384 .f32) (X8 : Vec Ideal S128x128 .f32) (X9 : Vec Ideal S128 .f32)
    (X10 : Vec Ideal S128x128 .f32) (X11 : Vec Ideal S128 .f32) (X12 : Vec Ideal S128x384 .f32) (X13 : Vec Ideal S384 .f32)
    (p : Fin 600) (j : Fin 128) :
    Step.stepC (F := Ideal) X0 X1 X2 X3 X4 X5 X6 X7 X8 X9 X10 X11 X12 X13 (ix2 p j)
      = cNew (fun k => X0 (ix2 p k)) (X1 (ix2 p 0))
          (halves (fun a k => X2 (ix3 p a k)) (fun b k => X3 (ix3 p b k)))
          (halves (fun a k => X4 (ix3 p a k)) (fun b k => X5 (ix3 p b k)))
          (fun k c => X6 (ix2 k c)) (fun c => X7 (ix1 c)) (fun k c => X8 (ix2 k c)) (fun c => X9 (ix1 c))
          (fun k c => X10 (ix2 k c)) (fun c => X11 (ix1 c)) (fun k c => X12 (ix2 k c)) (fun c => X13 (ix1 c)) j := by
  unfold Step.stepC Step.cAggrB Step.iouB Step.fInB cNew
  rw [pay2_apply, iouRow_apply, iouRow_apply, cAggrRow_apply]

/-- The block of new hidden states, at node p and channel j. -/
theorem stepH_apply (X0 : Vec Ideal S600x128 .f32) (X1 : Vec Ideal S600x1 .f32) (X2 X3 X4 X5 : Vec Ideal S600x16x128 .f32)
    (X6 : Vec Ideal S128x384 .f32) (X7 : Vec Ideal S384 .f32) (X8 : Vec Ideal S128x128 .f32) (X9 : Vec Ideal S128 .f32)
    (X10 : Vec Ideal S128x128 .f32) (X11 : Vec Ideal S128 .f32) (X12 : Vec Ideal S128x384 .f32) (X13 : Vec Ideal S384 .f32)
    (p : Fin 600) (j : Fin 128) :
    Step.stepH (F := Ideal) X0 X1 X2 X3 X4 X5 X6 X7 X8 X9 X10 X11 X12 X13 (ix2 p j)
      = hNew (fun k => X0 (ix2 p k)) (X1 (ix2 p 0))
          (halves (fun a k => X2 (ix3 p a k)) (fun b k => X3 (ix3 p b k)))
          (halves (fun a k => X4 (ix3 p a k)) (fun b k => X5 (ix3 p b k)))
          (fun k c => X6 (ix2 k c)) (fun c => X7 (ix1 c)) (fun k c => X8 (ix2 k c)) (fun c => X9 (ix1 c))
          (fun k c => X10 (ix2 k c)) (fun c => X11 (ix1 c)) (fun k c => X12 (ix2 k c)) (fun c => X13 (ix1 c)) j := by
  have hc := stepC_apply X0 X1 X2 X3 X4 X5 X6 X7 X8 X9 X10 X11 X12 X13 p j
  unfold Step.stepC Step.cAggrB Step.iouB Step.fInB at hc
  unfold Step.stepH Step.cAggrB Step.iouB Step.fInB hNew
  rw [pay3_apply, iouRow_apply, hc]

end Cert.TreeCell.Ker

end
-- ==== Proof.KernelRows.lean ====
/-
  From a row of a block to a node of the whole arrays.

  A grid step's two stored blocks, read at row p, are the common form at node p's own data (the block-row reading).
  When row p of the six node blocks holds node n's data in the whole arrays (the embedding row, the mask entry, and
  the 32 children's hidden and memory rows, children 0‥15 in the first half-block and 16‥31 in the second), the
  stored values at row p are the common form at node n of the whole arrays. And two sets of blocks that agree on row p
  store the same values at row p.
-/
import proofs.«151285_g88210038325567_cont_sun_c4_578_15_alg».proof.Proof.KernelSide
import proofs.«151285_g88210038325567_cont_sun_c4_578_15_alg».proof.Proof.Laws

noncomputable section

namespace Cert.TreeCell.Ker

open Idealize.ShloMosaic Idealize.ShloMosaic.ValueIdx Cert.KernelIdeal Cert.KernelIdeal.Gen

/-- Two half-blocks whose row p holds node n's children 0‥15 and 16‥31 join to node n's 32 children's rows. -/
theorem joinHalves (Xa Xb : Vec Ideal S600x16x128 .f32) (A : Vec Ideal S10000x32x128 .f32) (p : Fin 600) (n : Fin 10000)
    (ha : ∀ (a : Fin 16) (k : Fin 128), Xa (ix3 p a k) = A (ix3 n ⟨a.val, by omega⟩ k))
    (hb : ∀ (b : Fin 16) (k : Fin 128), Xb (ix3 p b k) = A (ix3 n ⟨16 + b.val, by omega⟩ k)) :
    halves (fun a k => Xa (ix3 p a k)) (fun b k => Xb (ix3 p b k)) = fun ch k => A (ix3 n ch k) :=
  (congrArg₂ (halves (α := Fin 128 → EReal)) (funext fun a => funext fun k => ha a k)
    (funext fun b => funext fun k => hb b k)).trans (halves_eta fun ch k => A (ix3 n ch k))

/-- The new hidden state stored at row p is the common form at node n of the whole arrays. -/
theorem stepH_at_node (X0 : Vec Ideal S600x128 .f32) (X1 : Vec Ideal S600x1 .f32) (X2 X3 X4 X5 : Vec Ideal S600x16x128 .f32)
    (X6 : Vec Ideal S128x384 .f32) (X7 : Vec Ideal S384 .f32) (X8 : Vec Ideal S128x128 .f32) (X9 : Vec Ideal S128 .f32)
    (X10 : Vec Ideal S128x128 .f32) (X11 : Vec Ideal S128 .f32) (X12 : Vec Ideal S128x384 .f32) (X13 : Vec Ideal S384 .f32)
    (A0 : Vec Ideal S10000x128 .f32) (A1 : Vec Ideal S10000x1 .f32) (A2 A3 : Vec Ideal S10000x32x128 .f32)
    (p : Fin 600) (n : Fin 10000) (j : Fin 128)
    (h0 : ∀ k : Fin 128, X0 (ix2 p k) = A0 (ix2 n k))
    (h1 : X1 (ix2 p 0) = A1 (ix2 n 0))
    (h2 : ∀ (a : Fin 16) (k : Fin 128), X2 (ix3 p a k) = A2 (ix3 n ⟨a.val, by omega⟩ k))
    (h3 : ∀ (b : Fin 16) (k : Fin 128), X3 (ix3 p b k) = A2 (ix3 n ⟨16 + b.val, by omega⟩ k))
    (h4 : ∀ (a : Fin 16) (k : Fin 128), X4 (ix3 p a k) = A3 (ix3 n ⟨a.val, by omega⟩ k))
    (h5 : ∀ (b : Fin 16) (k : Fin 128), X5 (ix3 p b k) = A3 (ix3 n ⟨16 + b.val, by omega⟩ k)) :
    Step.stepH (F := Ideal) X0 X1 X2 X3 X4 X5 X6 X7 X8 X9 X10 X11 X12 X13 (ix2 p j)
      = hNew (fun k => A0 (ix2 n k)) (A1 (ix2 n 0)) (fun ch k => A2 (ix3 n ch k)) (fun ch k => A3 (ix3 n ch k))
          (fun k c => X6 (ix2 k c)) (fun c => X7 (ix1 c)) (fun k c => X8 (ix2 k c)) (fun c => X9 (ix1 c))
          (fun k c => X10 (ix2 k c)) (fun c => X11 (ix1 c)) (fun k c => X12 (ix2 k c)) (fun c => X13 (ix1 c)) j := by
  rw [stepH_apply, funext h0, h1, joinHalves X2 X3 A2 p n h2 h3, joinHalves X4 X5 A3 p n h4 h5]

/-- The new memory stored at row p is the common form at node n of the whole arrays. -/
theorem stepC_at_node (X0 : Vec Ideal S600x128 .f32) (X1 : Vec Ideal S600x1 .f32) (X2 X3 X4 X5 : Vec Ideal S600x16x128 .f32)
    (X6 : Vec Ideal S128x384 .f32) (X7 : Vec Ideal S384 .f32) (X8 : Vec Ideal S128x128 .f32) (X9 : Vec Ideal S128 .f32)
    (X10 : Vec Ideal S128x128 .f32) (X11 : Vec Ideal S128 .f32) (X12 : Vec Ideal S128x384 .f32) (X13 : Vec Ideal S384 .f32)
    (A0 : Vec Ideal S10000x128 .f32) (A1 : Vec Ideal S10000x1 .f32) (A2 A3 : Vec Ideal S10000x32x128 .f32)
    (p : Fin 600) (n : Fin 10000) (j : Fin 128)
    (h0 : ∀ k : Fin 128, X0 (ix2 p k) = A0 (ix2 n k))
    (h1 : X1 (ix2 p 0) = A1 (ix2 n 0))
    (h2 : ∀ (a : Fin 16) (k : Fin 128), X2 (ix3 p a k) = A2 (ix3 n ⟨a.val, by omega⟩ k))
    (h3 : ∀ (b : Fin 16) (k : Fin 128), X3 (ix3 p b k) = A2 (ix3 n ⟨16 + b.val, by omega⟩ k))
    (h4 : ∀ (a : Fin 16) (k : Fin 128), X4 (ix3 p a k) = A3 (ix3 n ⟨a.val, by omega⟩ k))
    (h5 : ∀ (b : Fin 16) (k : Fin 128), X5 (ix3 p b k) = A3 (ix3 n ⟨16 + b.val, by omega⟩ k)) :
    Step.stepC (F := Ideal) X0 X1 X2 X3 X4 X5 X6 X7 X8 X9 X10 X11 X12 X13 (ix2 p j)
      = cNew (fun k => A0 (ix2 n k)) (A1 (ix2 n 0)) (fun ch k => A2 (ix3 n ch k)) (fun ch k => A3 (ix3 n ch k))
          (fun k c => X6 (ix2 k c)) (fun c => X7 (ix1 c)) (fun k c => X8 (ix2 k c)) (fun c => X9 (ix1 c))
          (fun k c => X10 (ix2 k c)) (fun c => X11 (ix1 c)) (fun k c => X12 (ix2 k c)) (fun c => X13 (ix1 c)) j := by
  rw [stepC_apply, funext h0, h1, joinHalves X2 X3 A2 p n h2 h3, joinHalves X4 X5 A3 p n h4 h5]

/-- Row p of the block of new hidden states depends on row p of the six node blocks only. -/
theorem stepH_congr_row (X0 : Vec Ideal S600x128 .f32) (X1 : Vec Ideal S600x1 .f32) (X2 X3 X4 X5 : Vec Ideal S600x16x128 .f32)
    (X0' : Vec Ideal S600x128 .f32) (X1' : Vec Ideal S600x1 .f32) (X2' X3' X4' X5' : Vec Ideal S600x16x128 .f32)
    (X6 : Vec Ideal S128x384 .f32) (X7 : Vec Ideal S384 .f32) (X8 : Vec Ideal S128x128 .f32) (X9 : Vec Ideal S128 .f32)
    (X10 : Vec Ideal S128x128 .f32) (X11 : Vec Ideal S128 .f32) (X12 : Vec Ideal S128x384 .f32) (X13 : Vec Ideal S384 .f32)
    (p : Fin 600) (j : Fin 128)
    (h0 : ∀ k : Fin 128, X0 (ix2 p k) = X0' (ix2 p k))
    (h1 : X1 (ix2 p 0) = X1' (ix2 p 0))
    (h2 : ∀ (a : Fin 16) (k : Fin 128), X2 (ix3 p a k) = X2' (ix3 p a k))
    (h3 : ∀ (b : Fin 16) (k : Fin 128), X3 (ix3 p b k) = X3' (ix3 p b k))
    (h4 : ∀ (a : Fin 16) (k : Fin 128), X4 (ix3 p a k) = X4' (ix3 p a k))
    (h5 : ∀ (b : Fin 16) (k : Fin 128), X5 (ix3 p b k) = X5' (ix3 p b k)) :
    Step.stepH (F := Ideal) X0 X1 X2 X3 X4 X5 X6 X7 X8 X9 X10 X11 X12 X13 (ix2 p j) = Step.stepH (F := Ideal) X0' X1' X2' X3' X4' X5' X6 X7 X8 X9 X10 X11 X12 X13 (ix2 p j) := by
  rw [stepH_apply, stepH_apply, funext h0, h1,
    show (fun (a : Fin 16) (k : Fin 128) => X2 (ix3 p a k)) = fun a k => X2' (ix3 p a k) from funext fun a => funext (h2 a),
    show (fun (b : Fin 16) (k : Fin 128) => X3 (ix3 p b k)) = fun b k => X3' (ix3 p b k) from funext fun b => funext (h3 b),
    show (fun (a : Fin 16) (k : Fin 128) => X4 (ix3 p a k)) = fun a k => X4' (ix3 p a k) from funext fun a => funext (h4 a),
    show (fun (b : Fin 16) (k : Fin 128) => X5 (ix3 p b k)) = fun b k => X5' (ix3 p b k) from funext fun b => funext (h5 b)]

/-- Row p of the block of new memories depends on row p of the six node blocks only. -/
theorem stepC_congr_row (X0 : Vec Ideal S600x128 .f32) (X1 : Vec Ideal S600x1 .f32) (X2 X3 X4 X5 : Vec Ideal S600x16x128 .f32)
    (X0' : Vec Ideal S600x128 .f32) (X1' : Vec Ideal S600x1 .f32) (X2' X3' X4' X5' : Vec Ideal S600x16x128 .f32)
    (X6 : Vec Ideal S128x384 .f32) (X7 : Vec Ideal S384 .f32) (X8 : Vec Ideal S128x128 .f32) (X9 : Vec Ideal S128 .f32)
    (X10 : Vec Ideal S128x128 .f32) (X11 : Vec Ideal S128 .f32) (X12 : Vec Ideal S128x384 .f32) (X13 : Vec Ideal S384 .f32)
    (p : Fin 600) (j : Fin 128)
    (h0 : ∀ k : Fin 128, X0 (ix2 p k) = X0' (ix2 p k))
    (h1 : X1 (ix2 p 0) = X1' (ix2 p 0))
    (h2 : ∀ (a : Fin 16) (k : Fin 128), X2 (ix3 p a k) = X2' (ix3 p a k))
    (h3 : ∀ (b : Fin 16) (k : Fin 128), X3 (ix3 p b k) = X3' (ix3 p b k))
    (h4 : ∀ (a : Fin 16) (k : Fin 128), X4 (ix3 p a k) = X4' (ix3 p a k))
    (h5 : ∀ (b : Fin 16) (k : Fin 128), X5 (ix3 p b k) = X5' (ix3 p b k)) :
    Step.stepC (F := Ideal) X0 X1 X2 X3 X4 X5 X6 X7 X8 X9 X10 X11 X12 X13 (ix2 p j) = Step.stepC (F := Ideal) X0' X1' X2' X3' X4' X5' X6 X7 X8 X9 X10 X11 X12 X13 (ix2 p j) := by
  rw [stepC_apply, stepC_apply, funext h0, h1,
    show (fun (a : Fin 16) (k : Fin 128) => X2 (ix3 p a k)) = fun a k => X2' (ix3 p a k) from funext fun a => funext (h2 a),
    show (fun (b : Fin 16) (k : Fin 128) => X3 (ix3 p b k)) = fun b k => X3' (ix3 p b k) from funext fun b => funext (h3 b),
    show (fun (a : Fin 16) (k : Fin 128) => X4 (ix3 p a k)) = fun a k => X4' (ix3 p a k) from funext fun a => funext (h4 a),
    show (fun (b : Fin 16) (k : Fin 128) => X5 (ix3 p b k)) = fun b k => X5' (ix3 p b k) from funext fun b => funext (h5 b)]

end Cert.TreeCell.Ker

end
-- ==== Proof.Blocks.lean ====
/-
  The index arithmetic of the tiled program's windows.

  The grid has 17 points. The node arrays have 10000 rows and are moved in blocks of 600 rows: point `t` moves rows
  `600·t ‥ 600·t + 599`, and the last point (`t = 16`, rows 9600‥9999) moves 400 rows only, its block cut at the
  array's end. The children arrays (10000 × 32 × 128) are moved by two windows each, one for children 0‥15 (block
  index 0 on the children axis) and one for children 16‥31 (block index 1).

  For each of these windows: its block index and the sizes of what its transfer moves at a point (decided over the
  grid); where an element of its block sits in the array; which block indices the transfer moves; what a staging
  buffer holds after a fetch, at a block index whose row is inside the array. For the two result windows: what a
  write-back writes, which array indices a point's block covers, that the blocks cover the array, and that different
  points' blocks are disjoint.
-/
import proofs.«151285_g88210038325567_cont_sun_c4_578_15_alg».proof.Proof.Gen.KernelIdeal.Launch
import proofs.«151285_g88210038325567_cont_sun_c4_578_15_alg».proof.Proof.Gen.KernelIdeal.Points
import Idealize.ShloMosaic.Lib.Pipeline.Value
import Idealize.ShloMosaic.Lib.ValueIdx

noncomputable section

namespace Cert.TreeCell.Blocks

open Cert.KernelIdeal Cert.KernelIdeal.Gen Idealize.ShloMosaic

/-! ## A block index the transfer moves, as an index of the moved part -/

/-- A block index the transfer at `i` moves, as an index of the part it moves (the same coordinates, their bounds
    the cut sizes). -/
def under {sig : RefSig} {G : Pipeline.Grid} (w : Pipeline.Window sig G) (i : G.Coords) (y : w.block.Idx)
    (h : w.moved i y = true) : (w.xblock i).Idx :=
  fun a => ⟨(y a).val, (w.moved_iff i y).mp h a⟩

/-- Back in the block it is the index it came from. -/
theorem xinj_under {sig : RefSig} {G : Pipeline.Grid} (w : Pipeline.Window sig G) (i : G.Coords) (y : w.block.Idx)
    (h : w.moved i y = true) : w.xinj i (under w i y h) = y := rfl

/-- Contents filled by a transfer read, at an index the transfer moves, what the transfer brought there. -/
theorem fill_of_moved {sig : RefSig} {G : Pipeline.Grid} {α : Type} (w : Pipeline.Window sig G) (i : G.Coords)
    (d : w.block.Idx → α) (g : (w.xblock i).Idx → α) (y : w.block.Idx) (h : w.moved i y = true) :
    w.fill i d g y = g (under w i y h) := by
  unfold Pipeline.Window.fill; rw [dif_pos h]; rfl

/-! ## The input windows -/

/-- Window 0 at point `t`: block index `t` on the rows, 0 on the lanes; the
    transfer moves `min 600 (10000 − 600·t)` rows (600 but at the last point, 400) and every other coordinate. -/
theorem idx_0 : ∀ t : Fin cfg0.N, (cfg0.win 0).index t (0 : Fin 2) = t.val
    ∧ (cfg0.win 0).index t (1 : Fin 2) = 0
    ∧ (cfg0.win 0).xsize (grid0.coords t) (0 : Fin 2) = min 600 (10000 - 600 * t.val)
    ∧ (cfg0.win 0).xsize (grid0.coords t) (1 : Fin 2) = 128 :=
  (by decide +kernel : ∀ t : Fin grid0.N, win0_0.index t (0 : Fin 2) = t.val
    ∧ win0_0.index t (1 : Fin 2) = 0
    ∧ win0_0.xsize (grid0.coords t) (0 : Fin 2) = min 600 (10000 - 600 * t.val)
    ∧ win0_0.xsize (grid0.coords t) (1 : Fin 2) = 128)

/-- Where an element of window 0's block at point `t` sits in the array: row `600·t` plus its row, its lane;
    and its coordinates' ranges. -/
theorem emb_0 (t : Fin cfg0.N) (j : ((cfg0.win 0).xblock (grid0.coords t)).Idx) :
    (((cfg0.win 0).blk t).view.emb j (0 : Fin 2)).val = 600 * t.val + (j 0).val
    ∧ (((cfg0.win 0).blk t).view.emb j (1 : Fin 2)).val = (j 1).val
    ∧ (j 0).val < 600
    ∧ 600 * t.val + (j 0).val < 10000
    ∧ (j 1).val < 128 := by
  obtain ⟨e0, e1, x0, x1⟩ := idx_0 t
  have hj0 : (j 0).val < (cfg0.win 0).xsize (grid0.coords t) (0 : Fin 2) := (j 0).isLt
  have hj1 : (j 1).val < (cfg0.win 0).xsize (grid0.coords t) (1 : Fin 2) := (j 1).isLt
  have ht : t.val < 17 := t.isLt
  rw [x0] at hj0
  rw [x1] at hj1
  refine ⟨?_, ?_, by omega, by omega, hj1⟩
  · show win0_0.index t (0 : Fin 2) * 600 + 1 * (j 0).val = _
    have : win0_0.index t (0 : Fin 2) = t.val := e0
    omega
  · show win0_0.index t (1 : Fin 2) * 128 + 1 * (j 1).val = _
    have : win0_0.index t (1 : Fin 2) = 0 := e1
    omega

/-- The transfer of window 0 at point `t` moves a block index iff its row is inside the array. -/
theorem moved_0 (t : Fin cfg0.N) (y : S600x128.Idx) :
    (cfg0.win 0).moved (grid0.coords t) y = true ↔ 600 * t.val + (y 0).val < 10000 := by
  rw [Pipeline.Window.moved_iff]
  obtain ⟨e0, e1, x0, x1⟩ := idx_0 t
  have h0 : (y 0).val < 600 := (y 0).isLt
  have h1 : (y 1).val < 128 := (y 1).isLt
  have ht : t.val < 17 := t.isLt
  constructor
  · intro h
    have h' : (y 0).val < (cfg0.win 0).xsize (grid0.coords t) (0 : Fin 2) := h (0 : Fin 2)
    rw [x0] at h'; omega
  · intro h a
    match a with
    | ⟨0, _⟩ => show (y 0).val < (cfg0.win 0).xsize (grid0.coords t) (0 : Fin 2); rw [x0]; omega
    | ⟨1, _⟩ => show (y 1).val < (cfg0.win 0).xsize (grid0.coords t) (1 : Fin 2); rw [x1]; omega

/-- What a staging buffer of window 0 holds after the fetch at point `t`, at a block index whose row is inside the
    array: the array's element at row `600·t` plus the row, the same lane — whatever filled the buffer before. -/
theorem read_fill_0 {Val : EltTy → Type} (t : Fin cfg0.N) (d : S600x128.Idx → Val .f32) (A : S10000x128.Idx → Val .f32)
    (y : S600x128.Idx) (h : 600 * t.val + (y 0).val < 10000) :
    (cfg0.win 0).fill (grid0.coords t) d (((cfg0.win 0).blk t).view.read Val A) y
      = A (ValueIdx.ix2 ⟨600 * t.val + (y 0).val, h⟩ ⟨(y 1).val, (y 1).isLt⟩) := by
  rw [fill_of_moved (cfg0.win 0) (grid0.coords t) d _ y ((moved_0 t y).mpr h)]
  show A (((cfg0.win 0).blk t).view.emb (under (cfg0.win 0) (grid0.coords t) y ((moved_0 t y).mpr h))) = _
  refine congrArg A (funext fun a => Fin.ext ?_)
  obtain ⟨p0, p1, -⟩ := emb_0 t (under (cfg0.win 0) (grid0.coords t) y ((moved_0 t y).mpr h))
  match a with
  | ⟨0, _⟩ => exact p0
  | ⟨1, _⟩ => exact p1

/-- Window 1 at point `t`: block index `t` on the rows, 0 on the lanes; the
    transfer moves `min 600 (10000 − 600·t)` rows (600 but at the last point, 400) and every other coordinate. -/
theorem idx_1 : ∀ t : Fin cfg0.N, (cfg0.win 1).index t (0 : Fin 2) = t.val
    ∧ (cfg0.win 1).index t (1 : Fin 2) = 0
    ∧ (cfg0.win 1).xsize (grid0.coords t) (0 : Fin 2) = min 600 (10000 - 600 * t.val)
    ∧ (cfg0.win 1).xsize (grid0.coords t) (1 : Fin 2) = 1 :=
  (by decide +kernel : ∀ t : Fin grid0.N, win0_1.index t (0 : Fin 2) = t.val
    ∧ win0_1.index t (1 : Fin 2) = 0
    ∧ win0_1.xsize (grid0.coords t) (0 : Fin 2) = min 600 (10000 - 600 * t.val)
    ∧ win0_1.xsize (grid0.coords t) (1 : Fin 2) = 1)

/-- Where an element of window 1's block at point `t` sits in the array: row `600·t` plus its row, its lane;
    and its coordinates' ranges. -/
theorem emb_1 (t : Fin cfg0.N) (j : ((cfg0.win 1).xblock (grid0.coords t)).Idx) :
    (((cfg0.win 1).blk t).view.emb j (0 : Fin 2)).val = 600 * t.val + (j 0).val
    ∧ (((cfg0.win 1).blk t).view.emb j (1 : Fin 2)).val = (j 1).val
    ∧ (j 0).val < 600
    ∧ 600 * t.val + (j 0).val < 10000
    ∧ (j 1).val < 1 := by
  obtain ⟨e0, e1, x0, x1⟩ := idx_1 t
  have hj0 : (j 0).val < (cfg0.win 1).xsize (grid0.coords t) (0 : Fin 2) := (j 0).isLt
  have hj1 : (j 1).val < (cfg0.win 1).xsize (grid0.coords t) (1 : Fin 2) := (j 1).isLt
  have ht : t.val < 17 := t.isLt
  rw [x0] at hj0
  rw [x1] at hj1
  refine ⟨?_, ?_, by omega, by omega, hj1⟩
  · show win0_1.index t (0 : Fin 2) * 600 + 1 * (j 0).val = _
    have : win0_1.index t (0 : Fin 2) = t.val := e0
    omega
  · show win0_1.index t (1 : Fin 2) * 1 + 1 * (j 1).val = _
    have : win0_1.index t (1 : Fin 2) = 0 := e1
    omega

/-- The transfer of window 1 at point `t` moves a block index iff its row is inside the array. -/
theorem moved_1 (t : Fin cfg0.N) (y : S600x1.Idx) :
    (cfg0.win 1).moved (grid0.coords t) y = true ↔ 600 * t.val + (y 0).val < 10000 := by
  rw [Pipeline.Window.moved_iff]
  obtain ⟨e0, e1, x0, x1⟩ := idx_1 t
  have h0 : (y 0).val < 600 := (y 0).isLt
  have h1 : (y 1).val < 1 := (y 1).isLt
  have ht : t.val < 17 := t.isLt
  constructor
  · intro h
    have h' : (y 0).val < (cfg0.win 1).xsize (grid0.coords t) (0 : Fin 2) := h (0 : Fin 2)
    rw [x0] at h'; omega
  · intro h a
    match a with
    | ⟨0, _⟩ => show (y 0).val < (cfg0.win 1).xsize (grid0.coords t) (0 : Fin 2); rw [x0]; omega
    | ⟨1, _⟩ => show (y 1).val < (cfg0.win 1).xsize (grid0.coords t) (1 : Fin 2); rw [x1]; omega

/-- What a staging buffer of window 1 holds after the fetch at point `t`, at a block index whose row is inside the
    array: the array's element at row `600·t` plus the row, the same lane — whatever filled the buffer before. -/
theorem read_fill_1 {Val : EltTy → Type} (t : Fin cfg0.N) (d : S600x1.Idx → Val .f32) (A : S10000x1.Idx → Val .f32)
    (y : S600x1.Idx) (h : 600 * t.val + (y 0).val < 10000) :
    (cfg0.win 1).fill (grid0.coords t) d (((cfg0.win 1).blk t).view.read Val A) y
      = A (ValueIdx.ix2 ⟨600 * t.val + (y 0).val, h⟩ ⟨(y 1).val, (y 1).isLt⟩) := by
  rw [fill_of_moved (cfg0.win 1) (grid0.coords t) d _ y ((moved_1 t y).mpr h)]
  show A (((cfg0.win 1).blk t).view.emb (under (cfg0.win 1) (grid0.coords t) y ((moved_1 t y).mpr h))) = _
  refine congrArg A (funext fun a => Fin.ext ?_)
  obtain ⟨p0, p1, -⟩ := emb_1 t (under (cfg0.win 1) (grid0.coords t) y ((moved_1 t y).mpr h))
  match a with
  | ⟨0, _⟩ => exact p0
  | ⟨1, _⟩ => exact p1

/-- Window 2 at point `t`: block index `t` on the rows, 0 on the children (children 0‥15), 0 on the lanes; the
    transfer moves `min 600 (10000 − 600·t)` rows (600 but at the last point, 400) and every other coordinate. -/
theorem idx_2 : ∀ t : Fin cfg0.N, (cfg0.win 2).index t (0 : Fin 3) = t.val
    ∧ (cfg0.win 2).index t (1 : Fin 3) = 0
    ∧ (cfg0.win 2).index t (2 : Fin 3) = 0
    ∧ (cfg0.win 2).xsize (grid0.coords t) (0 : Fin 3) = min 600 (10000 - 600 * t.val)
    ∧ (cfg0.win 2).xsize (grid0.coords t) (1 : Fin 3) = 16
    ∧ (cfg0.win 2).xsize (grid0.coords t) (2 : Fin 3) = 128 :=
  (by decide +kernel : ∀ t : Fin grid0.N, win0_2.index t (0 : Fin 3) = t.val
    ∧ win0_2.index t (1 : Fin 3) = 0
    ∧ win0_2.index t (2 : Fin 3) = 0
    ∧ win0_2.xsize (grid0.coords t) (0 : Fin 3) = min 600 (10000 - 600 * t.val)
    ∧ win0_2.xsize (grid0.coords t) (1 : Fin 3) = 16
    ∧ win0_2.xsize (grid0.coords t) (2 : Fin 3) = 128)

/-- Where an element of window 2's block at point `t` sits in the array: row `600·t` plus its row, its child, its lane;
    and its coordinates' ranges. -/
theorem emb_2 (t : Fin cfg0.N) (j : ((cfg0.win 2).xblock (grid0.coords t)).Idx) :
    (((cfg0.win 2).blk t).view.emb j (0 : Fin 3)).val = 600 * t.val + (j 0).val
    ∧ (((cfg0.win 2).blk t).view.emb j (1 : Fin 3)).val = (j 1).val
    ∧ (((cfg0.win 2).blk t).view.emb j (2 : Fin 3)).val = (j 2).val
    ∧ (j 0).val < 600
    ∧ 600 * t.val + (j 0).val < 10000
    ∧ (j 1).val < 16
    ∧ (j 2).val < 128 := by
  obtain ⟨e0, e1, e2, x0, x1, x2⟩ := idx_2 t
  have hj0 : (j 0).val < (cfg0.win 2).xsize (grid0.coords t) (0 : Fin 3) := (j 0).isLt
  have hj1 : (j 1).val < (cfg0.win 2).xsize (grid0.coords t) (1 : Fin 3) := (j 1).isLt
  have hj2 : (j 2).val < (cfg0.win 2).xsize (grid0.coords t) (2 : Fin 3) := (j 2).isLt
  have ht : t.val < 17 := t.isLt
  rw [x0] at hj0
  rw [x1] at hj1
  rw [x2] at hj2
  refine ⟨?_, ?_, ?_, by omega, by omega, hj1, hj2⟩
  · show win0_2.index t (0 : Fin 3) * 600 + 1 * (j 0).val = _
    have : win0_2.index t (0 : Fin 3) = t.val := e0
    omega
  · show win0_2.index t (1 : Fin 3) * 16 + 1 * (j 1).val = _
    have : win0_2.index t (1 : Fin 3) = 0 := e1
    omega
  · show win0_2.index t (2 : Fin 3) * 128 + 1 * (j 2).val = _
    have : win0_2.index t (2 : Fin 3) = 0 := e2
    omega

/-- The transfer of window 2 at point `t` moves a block index iff its row is inside the array. -/
theorem moved_2 (t : Fin cfg0.N) (y : S600x16x128.Idx) :
    (cfg0.win 2).moved (grid0.coords t) y = true ↔ 600 * t.val + (y 0).val < 10000 := by
  rw [Pipeline.Window.moved_iff]
  obtain ⟨e0, e1, e2, x0, x1, x2⟩ := idx_2 t
  have h0 : (y 0).val < 600 := (y 0).isLt
  have h1 : (y 1).val < 16 := (y 1).isLt
  have h2 : (y 2).val < 128 := (y 2).isLt
  have ht : t.val < 17 := t.isLt
  constructor
  · intro h
    have h' : (y 0).val < (cfg0.win 2).xsize (grid0.coords t) (0 : Fin 3) := h (0 : Fin 3)
    rw [x0] at h'; omega
  · intro h a
    match a with
    | ⟨0, _⟩ => show (y 0).val < (cfg0.win 2).xsize (grid0.coords t) (0 : Fin 3); rw [x0]; omega
    | ⟨1, _⟩ => show (y 1).val < (cfg0.win 2).xsize (grid0.coords t) (1 : Fin 3); rw [x1]; omega
    | ⟨2, _⟩ => show (y 2).val < (cfg0.win 2).xsize (grid0.coords t) (2 : Fin 3); rw [x2]; omega

/-- What a staging buffer of window 2 holds after the fetch at point `t`, at a block index whose row is inside the
    array: the array's element at row `600·t` plus the row, the same child, the same lane — whatever filled the buffer before. -/
theorem read_fill_2 {Val : EltTy → Type} (t : Fin cfg0.N) (d : S600x16x128.Idx → Val .f32) (A : S10000x32x128.Idx → Val .f32)
    (y : S600x16x128.Idx) (h : 600 * t.val + (y 0).val < 10000) :
    (cfg0.win 2).fill (grid0.coords t) d (((cfg0.win 2).blk t).view.read Val A) y
      = A (ValueIdx.ix3 ⟨600 * t.val + (y 0).val, h⟩ ⟨(y 1).val, by have h1 : (y 1).val < 16 := (y 1).isLt; omega⟩ ⟨(y 2).val, (y 2).isLt⟩) := by
  rw [fill_of_moved (cfg0.win 2) (grid0.coords t) d _ y ((moved_2 t y).mpr h)]
  show A (((cfg0.win 2).blk t).view.emb (under (cfg0.win 2) (grid0.coords t) y ((moved_2 t y).mpr h))) = _
  refine congrArg A (funext fun a => Fin.ext ?_)
  obtain ⟨p0, p1, p2, -⟩ := emb_2 t (under (cfg0.win 2) (grid0.coords t) y ((moved_2 t y).mpr h))
  match a with
  | ⟨0, _⟩ => exact p0
  | ⟨1, _⟩ => exact p1
  | ⟨2, _⟩ => exact p2

/-- Window 3 at point `t`: block index `t` on the rows, 1 on the children (children 16‥31), 0 on the lanes; the
    transfer moves `min 600 (10000 − 600·t)` rows (600 but at the last point, 400) and every other coordinate. -/
theorem idx_3 : ∀ t : Fin cfg0.N, (cfg0.win 3).index t (0 : Fin 3) = t.val
    ∧ (cfg0.win 3).index t (1 : Fin 3) = 1
    ∧ (cfg0.win 3).index t (2 : Fin 3) = 0
    ∧ (cfg0.win 3).xsize (grid0.coords t) (0 : Fin 3) = min 600 (10000 - 600 * t.val)
    ∧ (cfg0.win 3).xsize (grid0.coords t) (1 : Fin 3) = 16
    ∧ (cfg0.win 3).xsize (grid0.coords t) (2 : Fin 3) = 128 :=
  (by decide +kernel : ∀ t : Fin grid0.N, win0_3.index t (0 : Fin 3) = t.val
    ∧ win0_3.index t (1 : Fin 3) = 1
    ∧ win0_3.index t (2 : Fin 3) = 0
    ∧ win0_3.xsize (grid0.coords t) (0 : Fin 3) = min 600 (10000 - 600 * t.val)
    ∧ win0_3.xsize (grid0.coords t) (1 : Fin 3) = 16
    ∧ win0_3.xsize (grid0.coords t) (2 : Fin 3) = 128)

/-- Where an element of window 3's block at point `t` sits in the array: row `600·t` plus its row, child 16 plus its child, its lane;
    and its coordinates' ranges. -/
theorem emb_3 (t : Fin cfg0.N) (j : ((cfg0.win 3).xblock (grid0.coords t)).Idx) :
    (((cfg0.win 3).blk t).view.emb j (0 : Fin 3)).val = 600 * t.val + (j 0).val
    ∧ (((cfg0.win 3).blk t).view.emb j (1 : Fin 3)).val = 16 + (j 1).val
    ∧ (((cfg0.win 3).blk t).view.emb j (2 : Fin 3)).val = (j 2).val
    ∧ (j 0).val < 600
    ∧ 600 * t.val + (j 0).val < 10000
    ∧ (j 1).val < 16
    ∧ (j 2).val < 128 := by
  obtain ⟨e0, e1, e2, x0, x1, x2⟩ := idx_3 t
  have hj0 : (j 0).val < (cfg0.win 3).xsize (grid0.coords t) (0 : Fin 3) := (j 0).isLt
  have hj1 : (j 1).val < (cfg0.win 3).xsize (grid0.coords t) (1 : Fin 3) := (j 1).isLt
  have hj2 : (j 2).val < (cfg0.win 3).xsize (grid0.coords t) (2 : Fin 3) := (j 2).isLt
  have ht : t.val < 17 := t.isLt
  rw [x0] at hj0
  rw [x1] at hj1
  rw [x2] at hj2
  refine ⟨?_, ?_, ?_, by omega, by omega, hj1, hj2⟩
  · show win0_3.index t (0 : Fin 3) * 600 + 1 * (j 0).val = _
    have : win0_3.index t (0 : Fin 3) = t.val := e0
    omega
  · show win0_3.index t (1 : Fin 3) * 16 + 1 * (j 1).val = _
    have : win0_3.index t (1 : Fin 3) = 1 := e1
    omega
  · show win0_3.index t (2 : Fin 3) * 128 + 1 * (j 2).val = _
    have : win0_3.index t (2 : Fin 3) = 0 := e2
    omega

/-- The transfer of window 3 at point `t` moves a block index iff its row is inside the array. -/
theorem moved_3 (t : Fin cfg0.N) (y : S600x16x128.Idx) :
    (cfg0.win 3).moved (grid0.coords t) y = true ↔ 600 * t.val + (y 0).val < 10000 := by
  rw [Pipeline.Window.moved_iff]
  obtain ⟨e0, e1, e2, x0, x1, x2⟩ := idx_3 t
  have h0 : (y 0).val < 600 := (y 0).isLt
  have h1 : (y 1).val < 16 := (y 1).isLt
  have h2 : (y 2).val < 128 := (y 2).isLt
  have ht : t.val < 17 := t.isLt
  constructor
  · intro h
    have h' : (y 0).val < (cfg0.win 3).xsize (grid0.coords t) (0 : Fin 3) := h (0 : Fin 3)
    rw [x0] at h'; omega
  · intro h a
    match a with
    | ⟨0, _⟩ => show (y 0).val < (cfg0.win 3).xsize (grid0.coords t) (0 : Fin 3); rw [x0]; omega
    | ⟨1, _⟩ => show (y 1).val < (cfg0.win 3).xsize (grid0.coords t) (1 : Fin 3); rw [x1]; omega
    | ⟨2, _⟩ => show (y 2).val < (cfg0.win 3).xsize (grid0.coords t) (2 : Fin 3); rw [x2]; omega

/-- What a staging buffer of window 3 holds after the fetch at point `t`, at a block index whose row is inside the
    array: the array's element at row `600·t` plus the row, child 16 plus the child, the same lane — whatever filled the buffer before. -/
theorem read_fill_3 {Val : EltTy → Type} (t : Fin cfg0.N) (d : S600x16x128.Idx → Val .f32) (A : S10000x32x128.Idx → Val .f32)
    (y : S600x16x128.Idx) (h : 600 * t.val + (y 0).val < 10000) :
    (cfg0.win 3).fill (grid0.coords t) d (((cfg0.win 3).blk t).view.read Val A) y
      = A (ValueIdx.ix3 ⟨600 * t.val + (y 0).val, h⟩ ⟨16 + (y 1).val, by have h1 : (y 1).val < 16 := (y 1).isLt; omega⟩ ⟨(y 2).val, (y 2).isLt⟩) := by
  rw [fill_of_moved (cfg0.win 3) (grid0.coords t) d _ y ((moved_3 t y).mpr h)]
  show A (((cfg0.win 3).blk t).view.emb (under (cfg0.win 3) (grid0.coords t) y ((moved_3 t y).mpr h))) = _
  refine congrArg A (funext fun a => Fin.ext ?_)
  obtain ⟨p0, p1, p2, -⟩ := emb_3 t (under (cfg0.win 3) (grid0.coords t) y ((moved_3 t y).mpr h))
  match a with
  | ⟨0, _⟩ => exact p0
  | ⟨1, _⟩ => exact p1
  | ⟨2, _⟩ => exact p2

/-- Window 4 at point `t`: block index `t` on the rows, 0 on the children (children 0‥15), 0 on the lanes; the
    transfer moves `min 600 (10000 − 600·t)` rows (600 but at the last point, 400) and every other coordinate. -/
theorem idx_4 : ∀ t : Fin cfg0.N, (cfg0.win 4).index t (0 : Fin 3) = t.val
    ∧ (cfg0.win 4).index t (1 : Fin 3) = 0
    ∧ (cfg0.win 4).index t (2 : Fin 3) = 0
    ∧ (cfg0.win 4).xsize (grid0.coords t) (0 : Fin 3) = min 600 (10000 - 600 * t.val)
    ∧ (cfg0.win 4).xsize (grid0.coords t) (1 : Fin 3) = 16
    ∧ (cfg0.win 4).xsize (grid0.coords t) (2 : Fin 3) = 128 :=
  (by decide +kernel : ∀ t : Fin grid0.N, win0_4.index t (0 : Fin 3) = t.val
    ∧ win0_4.index t (1 : Fin 3) = 0
    ∧ win0_4.index t (2 : Fin 3) = 0
    ∧ win0_4.xsize (grid0.coords t) (0 : Fin 3) = min 600 (10000 - 600 * t.val)
    ∧ win0_4.xsize (grid0.coords t) (1 : Fin 3) = 16
    ∧ win0_4.xsize (grid0.coords t) (2 : Fin 3) = 128)

/-- Where an element of window 4's block at point `t` sits in the array: row `600·t` plus its row, its child, its lane;
    and its coordinates' ranges. -/
theorem emb_4 (t : Fin cfg0.N) (j : ((cfg0.win 4).xblock (grid0.coords t)).Idx) :
    (((cfg0.win 4).blk t).view.emb j (0 : Fin 3)).val = 600 * t.val + (j 0).val
    ∧ (((cfg0.win 4).blk t).view.emb j (1 : Fin 3)).val = (j 1).val
    ∧ (((cfg0.win 4).blk t).view.emb j (2 : Fin 3)).val = (j 2).val
    ∧ (j 0).val < 600
    ∧ 600 * t.val + (j 0).val < 10000
    ∧ (j 1).val < 16
    ∧ (j 2).val < 128 := by
  obtain ⟨e0, e1, e2, x0, x1, x2⟩ := idx_4 t
  have hj0 : (j 0).val < (cfg0.win 4).xsize (grid0.coords t) (0 : Fin 3) := (j 0).isLt
  have hj1 : (j 1).val < (cfg0.win 4).xsize (grid0.coords t) (1 : Fin 3) := (j 1).isLt
  have hj2 : (j 2).val < (cfg0.win 4).xsize (grid0.coords t) (2 : Fin 3) := (j 2).isLt
  have ht : t.val < 17 := t.isLt
  rw [x0] at hj0
  rw [x1] at hj1
  rw [x2] at hj2
  refine ⟨?_, ?_, ?_, by omega, by omega, hj1, hj2⟩
  · show win0_4.index t (0 : Fin 3) * 600 + 1 * (j 0).val = _
    have : win0_4.index t (0 : Fin 3) = t.val := e0
    omega
  · show win0_4.index t (1 : Fin 3) * 16 + 1 * (j 1).val = _
    have : win0_4.index t (1 : Fin 3) = 0 := e1
    omega
  · show win0_4.index t (2 : Fin 3) * 128 + 1 * (j 2).val = _
    have : win0_4.index t (2 : Fin 3) = 0 := e2
    omega

/-- The transfer of window 4 at point `t` moves a block index iff its row is inside the array. -/
theorem moved_4 (t : Fin cfg0.N) (y : S600x16x128.Idx) :
    (cfg0.win 4).moved (grid0.coords t) y = true ↔ 600 * t.val + (y 0).val < 10000 := by
  rw [Pipeline.Window.moved_iff]
  obtain ⟨e0, e1, e2, x0, x1, x2⟩ := idx_4 t
  have h0 : (y 0).val < 600 := (y 0).isLt
  have h1 : (y 1).val < 16 := (y 1).isLt
  have h2 : (y 2).val < 128 := (y 2).isLt
  have ht : t.val < 17 := t.isLt
  constructor
  · intro h
    have h' : (y 0).val < (cfg0.win 4).xsize (grid0.coords t) (0 : Fin 3) := h (0 : Fin 3)
    rw [x0] at h'; omega
  · intro h a
    match a with
    | ⟨0, _⟩ => show (y 0).val < (cfg0.win 4).xsize (grid0.coords t) (0 : Fin 3); rw [x0]; omega
    | ⟨1, _⟩ => show (y 1).val < (cfg0.win 4).xsize (grid0.coords t) (1 : Fin 3); rw [x1]; omega
    | ⟨2, _⟩ => show (y 2).val < (cfg0.win 4).xsize (grid0.coords t) (2 : Fin 3); rw [x2]; omega

/-- What a staging buffer of window 4 holds after the fetch at point `t`, at a block index whose row is inside the
    array: the array's element at row `600·t` plus the row, the same child, the same lane — whatever filled the buffer before. -/
theorem read_fill_4 {Val : EltTy → Type} (t : Fin cfg0.N) (d : S600x16x128.Idx → Val .f32) (A : S10000x32x128.Idx → Val .f32)
    (y : S600x16x128.Idx) (h : 600 * t.val + (y 0).val < 10000) :
    (cfg0.win 4).fill (grid0.coords t) d (((cfg0.win 4).blk t).view.read Val A) y
      = A (ValueIdx.ix3 ⟨600 * t.val + (y 0).val, h⟩ ⟨(y 1).val, by have h1 : (y 1).val < 16 := (y 1).isLt; omega⟩ ⟨(y 2).val, (y 2).isLt⟩) := by
  rw [fill_of_moved (cfg0.win 4) (grid0.coords t) d _ y ((moved_4 t y).mpr h)]
  show A (((cfg0.win 4).blk t).view.emb (under (cfg0.win 4) (grid0.coords t) y ((moved_4 t y).mpr h))) = _
  refine congrArg A (funext fun a => Fin.ext ?_)
  obtain ⟨p0, p1, p2, -⟩ := emb_4 t (under (cfg0.win 4) (grid0.coords t) y ((moved_4 t y).mpr h))
  match a with
  | ⟨0, _⟩ => exact p0
  | ⟨1, _⟩ => exact p1
  | ⟨2, _⟩ => exact p2

/-- Window 5 at point `t`: block index `t` on the rows, 1 on the children (children 16‥31), 0 on the lanes; the
    transfer moves `min 600 (10000 − 600·t)` rows (600 but at the last point, 400) and every other coordinate. -/
theorem idx_5 : ∀ t : Fin cfg0.N, (cfg0.win 5).index t (0 : Fin 3) = t.val
    ∧ (cfg0.win 5).index t (1 : Fin 3) = 1
    ∧ (cfg0.win 5).index t (2 : Fin 3) = 0
    ∧ (cfg0.win 5).xsize (grid0.coords t) (0 : Fin 3) = min 600 (10000 - 600 * t.val)
    ∧ (cfg0.win 5).xsize (grid0.coords t) (1 : Fin 3) = 16
    ∧ (cfg0.win 5).xsize (grid0.coords t) (2 : Fin 3) = 128 :=
  (by decide +kernel : ∀ t : Fin grid0.N, win0_5.index t (0 : Fin 3) = t.val
    ∧ win0_5.index t (1 : Fin 3) = 1
    ∧ win0_5.index t (2 : Fin 3) = 0
    ∧ win0_5.xsize (grid0.coords t) (0 : Fin 3) = min 600 (10000 - 600 * t.val)
    ∧ win0_5.xsize (grid0.coords t) (1 : Fin 3) = 16
    ∧ win0_5.xsize (grid0.coords t) (2 : Fin 3) = 128)

/-- Where an element of window 5's block at point `t` sits in the array: row `600·t` plus its row, child 16 plus its child, its lane;
    and its coordinates' ranges. -/
theorem emb_5 (t : Fin cfg0.N) (j : ((cfg0.win 5).xblock (grid0.coords t)).Idx) :
    (((cfg0.win 5).blk t).view.emb j (0 : Fin 3)).val = 600 * t.val + (j 0).val
    ∧ (((cfg0.win 5).blk t).view.emb j (1 : Fin 3)).val = 16 + (j 1).val
    ∧ (((cfg0.win 5).blk t).view.emb j (2 : Fin 3)).val = (j 2).val
    ∧ (j 0).val < 600
    ∧ 600 * t.val + (j 0).val < 10000
    ∧ (j 1).val < 16
    ∧ (j 2).val < 128 := by
  obtain ⟨e0, e1, e2, x0, x1, x2⟩ := idx_5 t
  have hj0 : (j 0).val < (cfg0.win 5).xsize (grid0.coords t) (0 : Fin 3) := (j 0).isLt
  have hj1 : (j 1).val < (cfg0.win 5).xsize (grid0.coords t) (1 : Fin 3) := (j 1).isLt
  have hj2 : (j 2).val < (cfg0.win 5).xsize (grid0.coords t) (2 : Fin 3) := (j 2).isLt
  have ht : t.val < 17 := t.isLt
  rw [x0] at hj0
  rw [x1] at hj1
  rw [x2] at hj2
  refine ⟨?_, ?_, ?_, by omega, by omega, hj1, hj2⟩
  · show win0_5.index t (0 : Fin 3) * 600 + 1 * (j 0).val = _
    have : win0_5.index t (0 : Fin 3) = t.val := e0
    omega
  · show win0_5.index t (1 : Fin 3) * 16 + 1 * (j 1).val = _
    have : win0_5.index t (1 : Fin 3) = 1 := e1
    omega
  · show win0_5.index t (2 : Fin 3) * 128 + 1 * (j 2).val = _
    have : win0_5.index t (2 : Fin 3) = 0 := e2
    omega

/-- The transfer of window 5 at point `t` moves a block index iff its row is inside the array. -/
theorem moved_5 (t : Fin cfg0.N) (y : S600x16x128.Idx) :
    (cfg0.win 5).moved (grid0.coords t) y = true ↔ 600 * t.val + (y 0).val < 10000 := by
  rw [Pipeline.Window.moved_iff]
  obtain ⟨e0, e1, e2, x0, x1, x2⟩ := idx_5 t
  have h0 : (y 0).val < 600 := (y 0).isLt
  have h1 : (y 1).val < 16 := (y 1).isLt
  have h2 : (y 2).val < 128 := (y 2).isLt
  have ht : t.val < 17 := t.isLt
  constructor
  · intro h
    have h' : (y 0).val < (cfg0.win 5).xsize (grid0.coords t) (0 : Fin 3) := h (0 : Fin 3)
    rw [x0] at h'; omega
  · intro h a
    match a with
    | ⟨0, _⟩ => show (y 0).val < (cfg0.win 5).xsize (grid0.coords t) (0 : Fin 3); rw [x0]; omega
    | ⟨1, _⟩ => show (y 1).val < (cfg0.win 5).xsize (grid0.coords t) (1 : Fin 3); rw [x1]; omega
    | ⟨2, _⟩ => show (y 2).val < (cfg0.win 5).xsize (grid0.coords t) (2 : Fin 3); rw [x2]; omega

/-- What a staging buffer of window 5 holds after the fetch at point `t`, at a block index whose row is inside the
    array: the array's element at row `600·t` plus the row, child 16 plus the child, the same lane — whatever filled the buffer before. -/
theorem read_fill_5 {Val : EltTy → Type} (t : Fin cfg0.N) (d : S600x16x128.Idx → Val .f32) (A : S10000x32x128.Idx → Val .f32)
    (y : S600x16x128.Idx) (h : 600 * t.val + (y 0).val < 10000) :
    (cfg0.win 5).fill (grid0.coords t) d (((cfg0.win 5).blk t).view.read Val A) y
      = A (ValueIdx.ix3 ⟨600 * t.val + (y 0).val, h⟩ ⟨16 + (y 1).val, by have h1 : (y 1).val < 16 := (y 1).isLt; omega⟩ ⟨(y 2).val, (y 2).isLt⟩) := by
  rw [fill_of_moved (cfg0.win 5) (grid0.coords t) d _ y ((moved_5 t y).mpr h)]
  show A (((cfg0.win 5).blk t).view.emb (under (cfg0.win 5) (grid0.coords t) y ((moved_5 t y).mpr h))) = _
  refine congrArg A (funext fun a => Fin.ext ?_)
  obtain ⟨p0, p1, p2, -⟩ := emb_5 t (under (cfg0.win 5) (grid0.coords t) y ((moved_5 t y).mpr h))
  match a with
  | ⟨0, _⟩ => exact p0
  | ⟨1, _⟩ => exact p1
  | ⟨2, _⟩ => exact p2

/-! ## The result windows -/

/-- Window 14 at point `t`: block index `t` on the rows, 0 on the lanes; the
    transfer moves `min 600 (10000 − 600·t)` rows (600 but at the last point, 400) and every other coordinate. -/
theorem idx_14 : ∀ t : Fin cfg0.N, (cfg0.win 14).index t (0 : Fin 2) = t.val
    ∧ (cfg0.win 14).index t (1 : Fin 2) = 0
    ∧ (cfg0.win 14).xsize (grid0.coords t) (0 : Fin 2) = min 600 (10000 - 600 * t.val)
    ∧ (cfg0.win 14).xsize (grid0.coords t) (1 : Fin 2) = 128 :=
  (by decide +kernel : ∀ t : Fin grid0.N, win0_14.index t (0 : Fin 2) = t.val
    ∧ win0_14.index t (1 : Fin 2) = 0
    ∧ win0_14.xsize (grid0.coords t) (0 : Fin 2) = min 600 (10000 - 600 * t.val)
    ∧ win0_14.xsize (grid0.coords t) (1 : Fin 2) = 128)

/-- Where an element of window 14's block at point `t` sits in the array: row `600·t` plus its row, its lane;
    and its coordinates' ranges. -/
theorem emb_14 (t : Fin cfg0.N) (j : ((cfg0.win 14).xblock (grid0.coords t)).Idx) :
    (((cfg0.win 14).blk t).view.emb j (0 : Fin 2)).val = 600 * t.val + (j 0).val
    ∧ (((cfg0.win 14).blk t).view.emb j (1 : Fin 2)).val = (j 1).val
    ∧ (j 0).val < 600
    ∧ 600 * t.val + (j 0).val < 10000
    ∧ (j 1).val < 128 := by
  obtain ⟨e0, e1, x0, x1⟩ := idx_14 t
  have hj0 : (j 0).val < (cfg0.win 14).xsize (grid0.coords t) (0 : Fin 2) := (j 0).isLt
  have hj1 : (j 1).val < (cfg0.win 14).xsize (grid0.coords t) (1 : Fin 2) := (j 1).isLt
  have ht : t.val < 17 := t.isLt
  rw [x0] at hj0
  rw [x1] at hj1
  refine ⟨?_, ?_, by omega, by omega, hj1⟩
  · show win0_14.index t (0 : Fin 2) * 600 + 1 * (j 0).val = _
    have : win0_14.index t (0 : Fin 2) = t.val := e0
    omega
  · show win0_14.index t (1 : Fin 2) * 128 + 1 * (j 1).val = _
    have : win0_14.index t (1 : Fin 2) = 0 := e1
    omega

/-- The transfer of window 14 at point `t` moves a block index iff its row is inside the array. -/
theorem moved_14 (t : Fin cfg0.N) (y : S600x128.Idx) :
    (cfg0.win 14).moved (grid0.coords t) y = true ↔ 600 * t.val + (y 0).val < 10000 := by
  rw [Pipeline.Window.moved_iff]
  obtain ⟨e0, e1, x0, x1⟩ := idx_14 t
  have h0 : (y 0).val < 600 := (y 0).isLt
  have h1 : (y 1).val < 128 := (y 1).isLt
  have ht : t.val < 17 := t.isLt
  constructor
  · intro h
    have h' : (y 0).val < (cfg0.win 14).xsize (grid0.coords t) (0 : Fin 2) := h (0 : Fin 2)
    rw [x0] at h'; omega
  · intro h a
    match a with
    | ⟨0, _⟩ => show (y 0).val < (cfg0.win 14).xsize (grid0.coords t) (0 : Fin 2); rw [x0]; omega
    | ⟨1, _⟩ => show (y 1).val < (cfg0.win 14).xsize (grid0.coords t) (1 : Fin 2); rw [x1]; omega

/-- What the write-back of window 14 at point `t` writes: the staging buffer's contents at the same coordinates. -/
theorem cut_14 {α : Type} (t : Fin cfg0.N) (X : S600x128.Idx → α) (j : ((cfg0.win 14).xblock (grid0.coords t)).Idx) :
    (cfg0.win 14).cut (grid0.coords t) X j
      = X (ValueIdx.ix2 ⟨(j 0).val, (emb_14 t j).2.2.1⟩ ⟨(j 1).val, (emb_14 t j).2.2.2.2⟩) := by
  show X ((cfg0.win 14).xinj (grid0.coords t) j) = _
  refine congrArg X (funext fun a => ?_)
  match a with
  | ⟨0, _⟩ => rfl
  | ⟨1, _⟩ => rfl

/-- An index of the array is in window 14's block at point `t` iff its row is one of the 600 from `600·t` (the
    array's rows end at 10000, where the last block is cut). -/
theorem mem_blk_14 (t : Fin cfg0.N) (i : S10000x128.Idx) :
    i ∈ ((cfg0.win 14).blk t).view.set ↔ 600 * t.val ≤ (i 0).val ∧ (i 0).val < 600 * t.val + 600 := by
  show i ∈ ((View.whole main_v1_0).slice (win0_14.rect t)).set ↔ _
  rw [View.set_slice_whole, Rect.mem_set_unit]
  obtain ⟨e0, e1, x0, x1⟩ := idx_14 t
  have h0 : (i 0).val < 10000 := (i 0).isLt
  have h1 : (i 1).val < 128 := (i 1).isLt
  have ht : t.val < 17 := t.isLt
  have f0 : win0_14.index t (0 : Fin 2) = t.val := e0
  have f1 : win0_14.index t (1 : Fin 2) = 0 := e1
  have g0 : win0_14.xsize (grid0.coords t) (0 : Fin 2) = min 600 (10000 - 600 * t.val) := x0
  have g1 : win0_14.xsize (grid0.coords t) (1 : Fin 2) = 128 := x1
  constructor
  · intro h
    have b0 : win0_14.index t (0 : Fin 2) * 600 ≤ (i 0).val ∧ (i 0).val < win0_14.index t (0 : Fin 2) * 600 + win0_14.xsize (grid0.coords t) (0 : Fin 2) := h (0 : Fin 2)
    rw [f0, g0] at b0; omega
  · intro h a
    match a with
    | ⟨0, _⟩ =>
      show win0_14.index t (0 : Fin 2) * 600 ≤ (i 0).val ∧ (i 0).val < win0_14.index t (0 : Fin 2) * 600 + win0_14.xsize (grid0.coords t) (0 : Fin 2)
      rw [f0, g0]; omega
    | ⟨1, _⟩ =>
      show win0_14.index t (1 : Fin 2) * 128 ≤ (i 1).val ∧ (i 1).val < win0_14.index t (1 : Fin 2) * 128 + win0_14.xsize (grid0.coords t) (1 : Fin 2)
      rw [f1, g1]; omega

/-- Every index of the array is in the block window 14 writes back at some point: the point `row / 600`. -/
theorem cover_14 (i : S10000x128.Idx) :
    ∃ t : Fin cfg0.N, (cfg0.win 14).flush t = true ∧ i ∈ ((cfg0.win 14).blk t).view.set := by
  have h0 : (i 0).val < 10000 := (i 0).isLt
  refine ⟨⟨(i 0).val / 600, show (i 0).val / 600 < 17 by omega⟩, flush0_14 _, ?_⟩
  rw [mem_blk_14]
  show 600 * ((i 0).val / 600) ≤ (i 0).val ∧ (i 0).val < 600 * ((i 0).val / 600) + 600
  omega

/-- Different points' blocks of window 14 share no index. -/
theorem disjoint_14 (t t' : Fin cfg0.N) (h : t ≠ t') :
    Disjoint ((cfg0.win 14).blk t).view.set ((cfg0.win 14).blk t').view.set := by
  rw [Finset.disjoint_left]
  intro i hi hi'
  rw [mem_blk_14] at hi hi'
  exact h (Fin.ext (by omega))

/-- Window 15 at point `t`: block index `t` on the rows, 0 on the lanes; the
    transfer moves `min 600 (10000 − 600·t)` rows (600 but at the last point, 400) and every other coordinate. -/
theorem idx_15 : ∀ t : Fin cfg0.N, (cfg0.win 15).index t (0 : Fin 2) = t.val
    ∧ (cfg0.win 15).index t (1 : Fin 2) = 0
    ∧ (cfg0.win 15).xsize (grid0.coords t) (0 : Fin 2) = min 600 (10000 - 600 * t.val)
    ∧ (cfg0.win 15).xsize (grid0.coords t) (1 : Fin 2) = 128 :=
  (by decide +kernel : ∀ t : Fin grid0.N, win0_15.index t (0 : Fin 2) = t.val
    ∧ win0_15.index t (1 : Fin 2) = 0
    ∧ win0_15.xsize (grid0.coords t) (0 : Fin 2) = min 600 (10000 - 600 * t.val)
    ∧ win0_15.xsize (grid0.coords t) (1 : Fin 2) = 128)

/-- Where an element of window 15's block at point `t` sits in the array: row `600·t` plus its row, its lane;
    and its coordinates' ranges. -/
theorem emb_15 (t : Fin cfg0.N) (j : ((cfg0.win 15).xblock (grid0.coords t)).Idx) :
    (((cfg0.win 15).blk t).view.emb j (0 : Fin 2)).val = 600 * t.val + (j 0).val
    ∧ (((cfg0.win 15).blk t).view.emb j (1 : Fin 2)).val = (j 1).val
    ∧ (j 0).val < 600
    ∧ 600 * t.val + (j 0).val < 10000
    ∧ (j 1).val < 128 := by
  obtain ⟨e0, e1, x0, x1⟩ := idx_15 t
  have hj0 : (j 0).val < (cfg0.win 15).xsize (grid0.coords t) (0 : Fin 2) := (j 0).isLt
  have hj1 : (j 1).val < (cfg0.win 15).xsize (grid0.coords t) (1 : Fin 2) := (j 1).isLt
  have ht : t.val < 17 := t.isLt
  rw [x0] at hj0
  rw [x1] at hj1
  refine ⟨?_, ?_, by omega, by omega, hj1⟩
  · show win0_15.index t (0 : Fin 2) * 600 + 1 * (j 0).val = _
    have : win0_15.index t (0 : Fin 2) = t.val := e0
    omega
  · show win0_15.index t (1 : Fin 2) * 128 + 1 * (j 1).val = _
    have : win0_15.index t (1 : Fin 2) = 0 := e1
    omega

/-- The transfer of window 15 at point `t` moves a block index iff its row is inside the array. -/
theorem moved_15 (t : Fin cfg0.N) (y : S600x128.Idx) :
    (cfg0.win 15).moved (grid0.coords t) y = true ↔ 600 * t.val + (y 0).val < 10000 := by
  rw [Pipeline.Window.moved_iff]
  obtain ⟨e0, e1, x0, x1⟩ := idx_15 t
  have h0 : (y 0).val < 600 := (y 0).isLt
  have h1 : (y 1).val < 128 := (y 1).isLt
  have ht : t.val < 17 := t.isLt
  constructor
  · intro h
    have h' : (y 0).val < (cfg0.win 15).xsize (grid0.coords t) (0 : Fin 2) := h (0 : Fin 2)
    rw [x0] at h'; omega
  · intro h a
    match a with
    | ⟨0, _⟩ => show (y 0).val < (cfg0.win 15).xsize (grid0.coords t) (0 : Fin 2); rw [x0]; omega
    | ⟨1, _⟩ => show (y 1).val < (cfg0.win 15).xsize (grid0.coords t) (1 : Fin 2); rw [x1]; omega

/-- What the write-back of window 15 at point `t` writes: the staging buffer's contents at the same coordinates. -/
theorem cut_15 {α : Type} (t : Fin cfg0.N) (X : S600x128.Idx → α) (j : ((cfg0.win 15).xblock (grid0.coords t)).Idx) :
    (cfg0.win 15).cut (grid0.coords t) X j
      = X (ValueIdx.ix2 ⟨(j 0).val, (emb_15 t j).2.2.1⟩ ⟨(j 1).val, (emb_15 t j).2.2.2.2⟩) := by
  show X ((cfg0.win 15).xinj (grid0.coords t) j) = _
  refine congrArg X (funext fun a => ?_)
  match a with
  | ⟨0, _⟩ => rfl
  | ⟨1, _⟩ => rfl

/-- An index of the array is in window 15's block at point `t` iff its row is one of the 600 from `600·t` (the
    array's rows end at 10000, where the last block is cut). -/
theorem mem_blk_15 (t : Fin cfg0.N) (i : S10000x128.Idx) :
    i ∈ ((cfg0.win 15).blk t).view.set ↔ 600 * t.val ≤ (i 0).val ∧ (i 0).val < 600 * t.val + 600 := by
  show i ∈ ((View.whole main_v1_1).slice (win0_15.rect t)).set ↔ _
  rw [View.set_slice_whole, Rect.mem_set_unit]
  obtain ⟨e0, e1, x0, x1⟩ := idx_15 t
  have h0 : (i 0).val < 10000 := (i 0).isLt
  have h1 : (i 1).val < 128 := (i 1).isLt
  have ht : t.val < 17 := t.isLt
  have f0 : win0_15.index t (0 : Fin 2) = t.val := e0
  have f1 : win0_15.index t (1 : Fin 2) = 0 := e1
  have g0 : win0_15.xsize (grid0.coords t) (0 : Fin 2) = min 600 (10000 - 600 * t.val) := x0
  have g1 : win0_15.xsize (grid0.coords t) (1 : Fin 2) = 128 := x1
  constructor
  · intro h
    have b0 : win0_15.index t (0 : Fin 2) * 600 ≤ (i 0).val ∧ (i 0).val < win0_15.index t (0 : Fin 2) * 600 + win0_15.xsize (grid0.coords t) (0 : Fin 2) := h (0 : Fin 2)
    rw [f0, g0] at b0; omega
  · intro h a
    match a with
    | ⟨0, _⟩ =>
      show win0_15.index t (0 : Fin 2) * 600 ≤ (i 0).val ∧ (i 0).val < win0_15.index t (0 : Fin 2) * 600 + win0_15.xsize (grid0.coords t) (0 : Fin 2)
      rw [f0, g0]; omega
    | ⟨1, _⟩ =>
      show win0_15.index t (1 : Fin 2) * 128 ≤ (i 1).val ∧ (i 1).val < win0_15.index t (1 : Fin 2) * 128 + win0_15.xsize (grid0.coords t) (1 : Fin 2)
      rw [f1, g1]; omega

/-- Every index of the array is in the block window 15 writes back at some point: the point `row / 600`. -/
theorem cover_15 (i : S10000x128.Idx) :
    ∃ t : Fin cfg0.N, (cfg0.win 15).flush t = true ∧ i ∈ ((cfg0.win 15).blk t).view.set := by
  have h0 : (i 0).val < 10000 := (i 0).isLt
  refine ⟨⟨(i 0).val / 600, show (i 0).val / 600 < 17 by omega⟩, flush0_15 _, ?_⟩
  rw [mem_blk_15]
  show 600 * ((i 0).val / 600) ≤ (i 0).val ∧ (i 0).val < 600 * ((i 0).val / 600) + 600
  omega

/-- Different points' blocks of window 15 share no index. -/
theorem disjoint_15 (t t' : Fin cfg0.N) (h : t ≠ t') :
    Disjoint ((cfg0.win 15).blk t).view.set ((cfg0.win 15).blk t').view.set := by
  rw [Finset.disjoint_left]
  intro i hi hi'
  rw [mem_blk_15] at hi hi'
  exact h (Fin.ext (by omega))

end Cert.TreeCell.Blocks

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.ValueKernelIdeal.lean ====
/-
  The tiled program's two results, as functions of the launched arrays.

  Grid step t stages rows 600 t ‥ 600 t + 599 of the node arrays (the last step's blocks overhang the arrays, and what
  the staging buffers hold past the arrays' end is anything) and the weights whole, and writes back the rows of its two
  result blocks that lie inside the arrays. Row p of a result block is the common form at node p's own staged data; a
  row that is written back has 600 t + p < 10000, so its staged data are node 600 t + p's rows of the arrays as the call
  finds them, whatever filled the buffers; the arrays as the call finds them are the launched ones, the mask column the
  launched mask vector re-laid. So what step t writes back is block t of one function of the launched arrays, the new
  hidden state (the new memory) of every node; the blocks cover the result arrays, which therefore end holding that function.
-/
import proofs.«151285_g88210038325567_cont_sun_c4_578_15_alg».proof.Proof.TileKernelIdeal
import proofs.«151285_g88210038325567_cont_sun_c4_578_15_alg».proof.Proof.KernelRows
import proofs.«151285_g88210038325567_cont_sun_c4_578_15_alg».proof.Proof.Blocks
import proofs.«151285_g88210038325567_cont_sun_c4_578_15_alg».proof.Proof.LibColumn
import Idealize.ShloMosaic.Lib.StableHlo.Run

set_option maxRecDepth 16384

noncomputable section

namespace Cert.TreeCell.TileKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Idealize.ShloMosaic.ValueIdx Idealize.ShloMosaic.StableHlo

variable (m : (ℓ : Loc nD τ sig) → Buf (Elt Ideal) ℓ)

/-! ## The step's two results are the block functions read row by row -/

/-- The block of new hidden states a step stores is the composition read row by row. -/
theorem outH_eq : outH (F := Ideal) = Step.stepH (F := Ideal) := rfl

/-- The block of new memories a step stores is the composition read row by row. -/
theorem outC_eq : outC (F := Ideal) = Step.stepC (F := Ideal) := rfl

/-! ## The arrays as the call finds them -/

/-- The mask column as the call finds it: entry (n, 0) is the launched mask vector at n. -/
theorem V_mask (c : Dev nD) (n : Fin 10000) :
    V m c main_v0 (ix2 n (0 : Fin 1)) = m ((c : Thread nD τ).loc main_arg1) (ix1 n) := by
  have e : (V m c main_v0 : S10000x1.Idx → EReal)
      = shapeCast S10000x1 (m ((c : Thread nD τ).loc main_arg1)) shapeCasts_S10000_S10000x1 := by
    dsimp only [V, hostOps0]; after_results; rfl
  rw [e]
  exact LibColumn.shapeCast_a_a1_apply _ _ n 0

/-! ## The two results as functions of the launched arrays -/

/-- The new hidden state of every node, from the launched arrays. -/
def GH (c : Dev nD) : S10000x128.Idx → EReal := fun i =>
  Cert.TreeCell.hNew (fun k => m ((c : Thread nD τ).loc main_arg0) (ix2 (i 0) k)) (m ((c : Thread nD τ).loc main_arg1) (ix1 (i 0)))
    (fun ch k => m ((c : Thread nD τ).loc main_arg2) (ix3 (i 0) ch k)) (fun ch k => m ((c : Thread nD τ).loc main_arg3) (ix3 (i 0) ch k))
    (fun k c' => m ((c : Thread nD τ).loc main_arg4) (ix2 k c')) (fun c' => m ((c : Thread nD τ).loc main_arg5) (ix1 c'))
    (fun k c' => m ((c : Thread nD τ).loc main_arg6) (ix2 k c')) (fun c' => m ((c : Thread nD τ).loc main_arg7) (ix1 c'))
    (fun k c' => m ((c : Thread nD τ).loc main_arg8) (ix2 k c')) (fun c' => m ((c : Thread nD τ).loc main_arg9) (ix1 c'))
    (fun k c' => m ((c : Thread nD τ).loc main_arg10) (ix2 k c')) (fun c' => m ((c : Thread nD τ).loc main_arg11) (ix1 c')) (i 1)

/-- The new memory of every node, from the launched arrays. -/
def GC (c : Dev nD) : S10000x128.Idx → EReal := fun i =>
  Cert.TreeCell.cNew (fun k => m ((c : Thread nD τ).loc main_arg0) (ix2 (i 0) k)) (m ((c : Thread nD τ).loc main_arg1) (ix1 (i 0)))
    (fun ch k => m ((c : Thread nD τ).loc main_arg2) (ix3 (i 0) ch k)) (fun ch k => m ((c : Thread nD τ).loc main_arg3) (ix3 (i 0) ch k))
    (fun k c' => m ((c : Thread nD τ).loc main_arg4) (ix2 k c')) (fun c' => m ((c : Thread nD τ).loc main_arg5) (ix1 c'))
    (fun k c' => m ((c : Thread nD τ).loc main_arg6) (ix2 k c')) (fun c' => m ((c : Thread nD τ).loc main_arg7) (ix1 c'))
    (fun k c' => m ((c : Thread nD τ).loc main_arg8) (ix2 k c')) (fun c' => m ((c : Thread nD τ).loc main_arg9) (ix1 c'))
    (fun k c' => m ((c : Thread nD τ).loc main_arg10) (ix2 k c')) (fun c' => m ((c : Thread nD τ).loc main_arg11) (ix1 c')) (i 1)

/-! ## The weight and bias windows: the whole array at every step -/

/-- The weight and bias windows stay at block index 0 at every grid step. -/
theorem idx_whole : ∀ t : Fin cfg0.N,
    win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0
    ∧ win0_12.index t (0 : Fin 2) = 0 ∧ win0_12.index t (1 : Fin 2) = 0
    ∧ win0_13.index t (0 : Fin 1) = 0 :=
  (by decide +kernel : ∀ t : Fin grid0.N,
    win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0
    ∧ win0_12.index t (0 : Fin 2) = 0 ∧ win0_12.index t (1 : Fin 2) = 0
    ∧ win0_13.index t (0 : Fin 1) = 0)

/-- Window 6's block at every step is its whole array, as launched. -/
theorem iblk6_apply (c : Dev nD) (t : Fin cfg0.N) (k : Fin 128) (c' : Fin 384) :
    (iblk m c 6 t : S128x384.Idx → EReal) (ix2 k c') = m ((c : Thread nD τ).loc main_arg4) (ix2 k c') := by
  obtain ⟨e0, e1, -, -, -, -, -, -, -, -, -, -⟩ := idx_whole t
  rw [← V_arg m c main_arg4 (by decide)]
  show V m c main_arg4 (((cfg0.win 6).blk t).view.emb (ix2 k c')) = V m c main_arg4 (ix2 k c')
  refine congrArg (V m c main_arg4) (funext fun a => Fin.ext ?_)
  match a with
  | ⟨0, _⟩ => show win0_6.index t (0 : Fin 2) * 128 + 1 * k.val = k.val; omega
  | ⟨1, _⟩ => show win0_6.index t (1 : Fin 2) * 384 + 1 * c'.val = c'.val; omega

/-- Window 7's block at every step is its whole array, as launched. -/
theorem iblk7_apply (c : Dev nD) (t : Fin cfg0.N) (c' : Fin 384) :
    (iblk m c 7 t : S384.Idx → EReal) (ix1 c') = m ((c : Thread nD τ).loc main_arg5) (ix1 c') := by
  obtain ⟨-, -, e0, -, -, -, -, -, -, -, -, -⟩ := idx_whole t
  rw [← V_arg m c main_arg5 (by decide)]
  show V m c main_arg5 (((cfg0.win 7).blk t).view.emb (ix1 c')) = V m c main_arg5 (ix1 c')
  refine congrArg (V m c main_arg5) (funext fun a => Fin.ext ?_)
  match a with
  | ⟨0, _⟩ => show win0_7.index t (0 : Fin 1) * 384 + 1 * c'.val = c'.val; omega

/-- Window 8's block at every step is its whole array, as launched. -/
theorem iblk8_apply (c : Dev nD) (t : Fin cfg0.N) (k : Fin 128) (c' : Fin 128) :
    (iblk m c 8 t : S128x128.Idx → EReal) (ix2 k c') = m ((c : Thread nD τ).loc main_arg6) (ix2 k c') := by
  obtain ⟨-, -, -, e0, e1, -, -, -, -, -, -, -⟩ := idx_whole t
  rw [← V_arg m c main_arg6 (by decide)]
  show V m c main_arg6 (((cfg0.win 8).blk t).view.emb (ix2 k c')) = V m c main_arg6 (ix2 k c')
  refine congrArg (V m c main_arg6) (funext fun a => Fin.ext ?_)
  match a with
  | ⟨0, _⟩ => show win0_8.index t (0 : Fin 2) * 128 + 1 * k.val = k.val; omega
  | ⟨1, _⟩ => show win0_8.index t (1 : Fin 2) * 128 + 1 * c'.val = c'.val; omega

/-- Window 9's block at every step is its whole array, as launched. -/
theorem iblk9_apply (c : Dev nD) (t : Fin cfg0.N) (c' : Fin 128) :
    (iblk m c 9 t : S128.Idx → EReal) (ix1 c') = m ((c : Thread nD τ).loc main_arg7) (ix1 c') := by
  obtain ⟨-, -, -, -, -, e0, -, -, -, -, -, -⟩ := idx_whole t
  rw [← V_arg m c main_arg7 (by decide)]
  show V m c main_arg7 (((cfg0.win 9).blk t).view.emb (ix1 c')) = V m c main_arg7 (ix1 c')
  refine congrArg (V m c main_arg7) (funext fun a => Fin.ext ?_)
  match a with
  | ⟨0, _⟩ => show win0_9.index t (0 : Fin 1) * 128 + 1 * c'.val = c'.val; omega

/-- Window 10's block at every step is its whole array, as launched. -/
theorem iblk10_apply (c : Dev nD) (t : Fin cfg0.N) (k : Fin 128) (c' : Fin 128) :
    (iblk m c 10 t : S128x128.Idx → EReal) (ix2 k c') = m ((c : Thread nD τ).loc main_arg8) (ix2 k c') := by
  obtain ⟨-, -, -, -, -, -, e0, e1, -, -, -, -⟩ := idx_whole t
  rw [← V_arg m c main_arg8 (by decide)]
  show V m c main_arg8 (((cfg0.win 10).blk t).view.emb (ix2 k c')) = V m c main_arg8 (ix2 k c')
  refine congrArg (V m c main_arg8) (funext fun a => Fin.ext ?_)
  match a with
  | ⟨0, _⟩ => show win0_10.index t (0 : Fin 2) * 128 + 1 * k.val = k.val; omega
  | ⟨1, _⟩ => show win0_10.index t (1 : Fin 2) * 128 + 1 * c'.val = c'.val; omega

/-- Window 11's block at every step is its whole array, as launched. -/
theorem iblk11_apply (c : Dev nD) (t : Fin cfg0.N) (c' : Fin 128) :
    (iblk m c 11 t : S128.Idx → EReal) (ix1 c') = m ((c : Thread nD τ).loc main_arg9) (ix1 c') := by
  obtain ⟨-, -, -, -, -, -, -, -, e0, -, -, -⟩ := idx_whole t
  rw [← V_arg m c main_arg9 (by decide)]
  show V m c main_arg9 (((cfg0.win 11).blk t).view.emb (ix1 c')) = V m c main_arg9 (ix1 c')
  refine congrArg (V m c main_arg9) (funext fun a => Fin.ext ?_)
  match a with
  | ⟨0, _⟩ => show win0_11.index t (0 : Fin 1) * 128 + 1 * c'.val = c'.val; omega

/-- Window 12's block at every step is its whole array, as launched. -/
theorem iblk12_apply (c : Dev nD) (t : Fin cfg0.N) (k : Fin 128) (c' : Fin 384) :
    (iblk m c 12 t : S128x384.Idx → EReal) (ix2 k c') = m ((c : Thread nD τ).loc main_arg10) (ix2 k c') := by
  obtain ⟨-, -, -, -, -, -, -, -, -, e0, e1, -⟩ := idx_whole t
  rw [← V_arg m c main_arg10 (by decide)]
  show V m c main_arg10 (((cfg0.win 12).blk t).view.emb (ix2 k c')) = V m c main_arg10 (ix2 k c')
  refine congrArg (V m c main_arg10) (funext fun a => Fin.ext ?_)
  match a with
  | ⟨0, _⟩ => show win0_12.index t (0 : Fin 2) * 128 + 1 * k.val = k.val; omega
  | ⟨1, _⟩ => show win0_12.index t (1 : Fin 2) * 384 + 1 * c'.val = c'.val; omega

/-- Window 13's block at every step is its whole array, as launched. -/
theorem iblk13_apply (c : Dev nD) (t : Fin cfg0.N) (c' : Fin 384) :
    (iblk m c 13 t : S384.Idx → EReal) (ix1 c') = m ((c : Thread nD τ).loc main_arg11) (ix1 c') := by
  obtain ⟨-, -, -, -, -, -, -, -, -, -, -, e0⟩ := idx_whole t
  rw [← V_arg m c main_arg11 (by decide)]
  show V m c main_arg11 (((cfg0.win 13).blk t).view.emb (ix1 c')) = V m c main_arg11 (ix1 c')
  refine congrArg (V m c main_arg11) (funext fun a => Fin.ext ?_)
  match a with
  | ⟨0, _⟩ => show win0_13.index t (0 : Fin 1) * 384 + 1 * c'.val = c'.val; omega

/-! ## What a step writes back -/

/-- The common form's value depends on its arguments' values only. -/
theorem hNew_congr {x x' : Fin 128 → EReal} {mk mk' : EReal} {nh nh' nc nc' : Fin 32 → Fin 128 → EReal}
    {Wiou Wiou' : Fin 128 → Fin 384 → EReal} {biou biou' : Fin 384 → EReal}
    {Wfin Wfin' : Fin 128 → Fin 128 → EReal} {bfin bfin' : Fin 128 → EReal}
    {Wf Wf' : Fin 128 → Fin 128 → EReal} {bf bf' : Fin 128 → EReal}
    {Waggr Waggr' : Fin 128 → Fin 384 → EReal} {baggr baggr' : Fin 384 → EReal} (j : Fin 128)
    (e0 : x = x') (e1 : mk = mk') (e2 : nh = nh') (e3 : nc = nc') (e4 : Wiou = Wiou') (e5 : biou = biou')
    (e6 : Wfin = Wfin') (e7 : bfin = bfin') (e8 : Wf = Wf') (e9 : bf = bf') (e10 : Waggr = Waggr') (e11 : baggr = baggr') :
    Cert.TreeCell.hNew x mk nh nc Wiou biou Wfin bfin Wf bf Waggr baggr j
      = Cert.TreeCell.hNew x' mk' nh' nc' Wiou' biou' Wfin' bfin' Wf' bf' Waggr' baggr' j := by
  subst e0 e1 e2 e3 e4 e5 e6 e7 e8 e9 e10 e11; rfl

/-- The common form's value depends on its arguments' values only. -/
theorem cNew_congr {x x' : Fin 128 → EReal} {mk mk' : EReal} {nh nh' nc nc' : Fin 32 → Fin 128 → EReal}
    {Wiou Wiou' : Fin 128 → Fin 384 → EReal} {biou biou' : Fin 384 → EReal}
    {Wfin Wfin' : Fin 128 → Fin 128 → EReal} {bfin bfin' : Fin 128 → EReal}
    {Wf Wf' : Fin 128 → Fin 128 → EReal} {bf bf' : Fin 128 → EReal}
    {Waggr Waggr' : Fin 128 → Fin 384 → EReal} {baggr baggr' : Fin 384 → EReal} (j : Fin 128)
    (e0 : x = x') (e1 : mk = mk') (e2 : nh = nh') (e3 : nc = nc') (e4 : Wiou = Wiou') (e5 : biou = biou')
    (e6 : Wfin = Wfin') (e7 : bfin = bfin') (e8 : Wf = Wf') (e9 : bf = bf') (e10 : Waggr = Waggr') (e11 : baggr = baggr') :
    Cert.TreeCell.cNew x mk nh nc Wiou biou Wfin bfin Wf bf Waggr baggr j
      = Cert.TreeCell.cNew x' mk' nh' nc' Wiou' biou' Wfin' bfin' Wf' bf' Waggr' baggr' j := by
  subst e0 e1 e2 e3 e4 e5 e6 e7 e8 e9 e10 e11; rfl

/-- What a step's write-back of the new hidden states writes is the block of the whole-array function, whatever filled the six
    row-block buffers past the array's end. -/
theorem cut_outH (c : Dev nD) (t : Fin cfg0.N) (d0 : S600x128.Idx → EReal) (d1 : S600x1.Idx → EReal)
    (d2 d3 d4 d5 : S600x16x128.Idx → EReal) :
    win0_14.cut (grid0.coords t) (outH (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) (iblk m c 10 t) (iblk m c 11 t) (iblk m c 12 t) (iblk m c 13 t))
      = ((cfg0.win 14).blk t).view.read (Elt Ideal) (GH m c) := by
  funext j
  obtain ⟨p0, p1, hj0, hrow, hj1⟩ := Blocks.emb_14 t j
  have hemb : ((cfg0.win 14).blk t).view.emb j
      = ix2 (⟨600 * t.val + (j 0).val, hrow⟩ : Fin 10000) (⟨(j 1).val, hj1⟩ : Fin 128) :=
    funext fun a => Fin.ext (by
      match a with
      | ⟨0, _⟩ => exact p0
      | ⟨1, _⟩ => exact p1)
  refine (Blocks.cut_14 t _ j).trans ?_
  refine Eq.trans ?_ (congrArg (GH m c) hemb.symm)
  rw [outH_eq]
  refine (Ker.stepH_at_node
    (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))
    (iblk m c 6 t) (iblk m c 7 t) (iblk m c 8 t) (iblk m c 9 t) (iblk m c 10 t) (iblk m c 11 t) (iblk m c 12 t) (iblk m c 13 t)
    (V m c main_arg0) (V m c main_v0) (V m c main_arg2) (V m c main_arg3)
    (⟨(j 0).val, hj0⟩ : Fin 600) (⟨600 * t.val + (j 0).val, hrow⟩ : Fin 10000) (⟨(j 1).val, hj1⟩ : Fin 128)
    (fun k => Blocks.read_fill_0 (Val := Elt Ideal) t d0 (V m c main_arg0) (ix2 (⟨(j 0).val, hj0⟩ : Fin 600) k) hrow)
    (Blocks.read_fill_1 (Val := Elt Ideal) t d1 (V m c main_v0) (ix2 (⟨(j 0).val, hj0⟩ : Fin 600) (0 : Fin 1)) hrow)
    (fun a k => Blocks.read_fill_2 (Val := Elt Ideal) t d2 (V m c main_arg2) (ix3 (⟨(j 0).val, hj0⟩ : Fin 600) a k) hrow)
    (fun b k => Blocks.read_fill_3 (Val := Elt Ideal) t d3 (V m c main_arg2) (ix3 (⟨(j 0).val, hj0⟩ : Fin 600) b k) hrow)
    (fun a k => Blocks.read_fill_4 (Val := Elt Ideal) t d4 (V m c main_arg3) (ix3 (⟨(j 0).val, hj0⟩ : Fin 600) a k) hrow)
    (fun b k => Blocks.read_fill_5 (Val := Elt Ideal) t d5 (V m c main_arg3) (ix3 (⟨(j 0).val, hj0⟩ : Fin 600) b k) hrow)).trans ?_
  exact hNew_congr _
    (funext fun k => congrFun (V_arg m c main_arg0 (by decide)) _)
    (V_mask m c _)
    (funext fun ch => funext fun k => congrFun (V_arg m c main_arg2 (by decide)) _)
    (funext fun ch => funext fun k => congrFun (V_arg m c main_arg3 (by decide)) _)
    (funext fun k => funext fun c' => iblk6_apply m c t k c')
    (funext fun c' => iblk7_apply m c t c')
    (funext fun k => funext fun c' => iblk8_apply m c t k c')
    (funext fun c' => iblk9_apply m c t c')
    (funext fun k => funext fun c' => iblk10_apply m c t k c')
    (funext fun c' => iblk11_apply m c t c')
    (funext fun k => funext fun c' => iblk12_apply m c t k c')
    (funext fun c' => iblk13_apply m c t c')

/-- What a step's write-back of the new memories writes is the block of the whole-array function, whatever filled the six
    row-block buffers past the array's end. -/
theorem cut_outC (c : Dev nD) (t : Fin cfg0.N) (d0 : S600x128.Idx → EReal) (d1 : S600x1.Idx → EReal)
    (d2 d3 d4 d5 : S600x16x128.Idx → EReal) :
    win0_15.cut (grid0.coords t) (outC (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) (iblk m c 10 t) (iblk m c 11 t) (iblk m c 12 t) (iblk m c 13 t))
      = ((cfg0.win 15).blk t).view.read (Elt Ideal) (GC m c) := by
  funext j
  obtain ⟨p0, p1, hj0, hrow, hj1⟩ := Blocks.emb_15 t j
  have hemb : ((cfg0.win 15).blk t).view.emb j
      = ix2 (⟨600 * t.val + (j 0).val, hrow⟩ : Fin 10000) (⟨(j 1).val, hj1⟩ : Fin 128) :=
    funext fun a => Fin.ext (by
      match a with
      | ⟨0, _⟩ => exact p0
      | ⟨1, _⟩ => exact p1)
  refine (Blocks.cut_15 t _ j).trans ?_
  refine Eq.trans ?_ (congrArg (GC m c) hemb.symm)
  rw [outC_eq]
  refine (Ker.stepC_at_node
    (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))
    (iblk m c 6 t) (iblk m c 7 t) (iblk m c 8 t) (iblk m c 9 t) (iblk m c 10 t) (iblk m c 11 t) (iblk m c 12 t) (iblk m c 13 t)
    (V m c main_arg0) (V m c main_v0) (V m c main_arg2) (V m c main_arg3)
    (⟨(j 0).val, hj0⟩ : Fin 600) (⟨600 * t.val + (j 0).val, hrow⟩ : Fin 10000) (⟨(j 1).val, hj1⟩ : Fin 128)
    (fun k => Blocks.read_fill_0 (Val := Elt Ideal) t d0 (V m c main_arg0) (ix2 (⟨(j 0).val, hj0⟩ : Fin 600) k) hrow)
    (Blocks.read_fill_1 (Val := Elt Ideal) t d1 (V m c main_v0) (ix2 (⟨(j 0).val, hj0⟩ : Fin 600) (0 : Fin 1)) hrow)
    (fun a k => Blocks.read_fill_2 (Val := Elt Ideal) t d2 (V m c main_arg2) (ix3 (⟨(j 0).val, hj0⟩ : Fin 600) a k) hrow)
    (fun b k => Blocks.read_fill_3 (Val := Elt Ideal) t d3 (V m c main_arg2) (ix3 (⟨(j 0).val, hj0⟩ : Fin 600) b k) hrow)
    (fun a k => Blocks.read_fill_4 (Val := Elt Ideal) t d4 (V m c main_arg3) (ix3 (⟨(j 0).val, hj0⟩ : Fin 600) a k) hrow)
    (fun b k => Blocks.read_fill_5 (Val := Elt Ideal) t d5 (V m c main_arg3) (ix3 (⟨(j 0).val, hj0⟩ : Fin 600) b k) hrow)).trans ?_
  exact cNew_congr _
    (funext fun k => congrFun (V_arg m c main_arg0 (by decide)) _)
    (V_mask m c _)
    (funext fun ch => funext fun k => congrFun (V_arg m c main_arg2 (by decide)) _)
    (funext fun ch => funext fun k => congrFun (V_arg m c main_arg3 (by decide)) _)
    (funext fun k => funext fun c' => iblk6_apply m c t k c')
    (funext fun c' => iblk7_apply m c t c')
    (funext fun k => funext fun c' => iblk8_apply m c t k c')
    (funext fun c' => iblk9_apply m c t c')
    (funext fun k => funext fun c' => iblk10_apply m c t k c')
    (funext fun c' => iblk11_apply m c t c')
    (funext fun k => funext fun c' => iblk12_apply m c t k c')
    (funext fun c' => iblk13_apply m c t c')

/-! ## The two result arrays after the call -/

/-- What grid step t writes back to the hidden-state array: its block of the whole-array function. -/
theorem flushed14 (c : Dev nD) (t : Fin cfg0.N) :
    (dats m 0 c).flushed 14 t = ((cfg0.win 14).blk t).view.read (Elt Ideal) (GH m c) := by
  show (cfg0.win 14).cut (grid0.coords t) ((dats m 0 c).after 14 t) = _
  rw [after14]
  exact cut_outH m c t _ _ _ _ _ _

/-- What grid step t writes back to the memory array: its block of the whole-array function. -/
theorem flushed15 (c : Dev nD) (t : Fin cfg0.N) :
    (dats m 0 c).flushed 15 t = ((cfg0.win 15).blk t).view.read (Elt Ideal) (GC m c) := by
  show (cfg0.win 15).cut (grid0.coords t) ((dats m 0 c).after 15 t) = _
  rw [after15]
  exact cut_outC m c t _ _ _ _ _ _

/-- The hidden-state array after the call: the new hidden state of every node. -/
theorem final14 (c : Dev nD) : (dats m 0 c).arrAt 14 cfg0.N = GH m c :=
  (dats m 0 c).arrAt_eq_of_cover 14 (GH m c) (fun t _ => flushed14 m c t) Blocks.cover_14

/-- The memory array after the call: the new memory of every node. -/
theorem final15 (c : Dev nD) : (dats m 0 c).arrAt 15 cfg0.N = GC m c :=
  (dats m 0 c).arrAt_eq_of_cover 15 (GC m c) (fun t _ => flushed15 m c t) Blocks.cover_15

end Cert.TreeCell.TileKernelIdeal

end
-- ==== Proof.ValueRun.lean ====
/-
  The tiled program's run at the ideal instance, with its two results named.

  The step's exact obligation holds at the ideal instance because a row of a step's result depends only on that row of
  the staged blocks: whatever a staging buffer holds past the array's end in the last, overhanging step never reaches
  a row that is written back. The launch then gives each result array as the library computes it from the seventeen
  write-backs, and the seventeen blocks tile the 10000 rows: each result is ONE function of the launched argument
  arrays, row by row the node's new hidden state (`GH`) and new memory (`GC`) of the common form.
-/
import proofs.«151285_g88210038325567_cont_sun_c4_578_15_alg».proof.Proof.RunKernelIdeal
import proofs.«151285_g88210038325567_cont_sun_c4_578_15_alg».proof.Proof.ExactKernelIdeal
import proofs.«151285_g88210038325567_cont_sun_c4_578_15_alg».proof.Proof.ValueKernelIdeal

set_option maxRecDepth 16384

noncomputable section

namespace Cert.TreeCell.TileKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable (m : (ℓ : Loc nD τ sig) → Buf (Elt Ideal) ℓ) (ρ : Dev nD → PrngReg)

/-- The run with every staging buffer named: the exact obligation, whose two row-locality hypotheses are the key lemma
    read twice (both fillers give the block of `GH`, of `GC`). -/
theorem run_exact : θ_run defs (onTc (τ := τ) (main (F := Ideal))) (s₀ m ρ)
    (Pipeline.RDat.FramePost cfg0 (fun c => (dats m 0 c).toR) (V m)) :=
  run_rdat m ρ (fun c => (dats m 0 c).toR)
    (fun c => (body_obligation_exact m c
      (fun t d0 d1 d2 d3 d4 d5 => (cut_outH m c t d0 d1 d2 d3 d4 d5).trans (cut_outH m c t _ _ _ _ _ _).symm)
      (fun t d0 d1 d2 d3 d4 d5 => (cut_outC m c t d0 d1 d2 d3 d4 d5).trans (cut_outC m c t _ _ _ _ _ _).symm)).toR)
    (fun _ _ => rfl) (fun _ _ => rfl) (hsplit_of m (fun c => (dats m 0 c).toR) (fun _ => rfl) (fun _ _ => rfl))

/-- THE VALUE RUN: the program ends with the first result at `GH`, the second at `GC` of the launched arguments, and
    the arguments as launched. -/
theorem value_run : θ_run defs (onTc (τ := τ) (main (F := Ideal))) ⟨m, fun _ => 0, ρ⟩ (fun r => ∀ c : Dev nD,
      r.2.mem ((c.tc : Thread nD τ).loc main_v1_0) = GH m c
      ∧ r.2.mem ((c.tc : Thread nD τ).loc main_v1_1) = GC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(((dats m 0 c).toR_arrAt_iff 14 _ _).mp ((h c).1 14)).trans (final14 m c),
     (((dats m 0 c).toR_arrAt_iff 15 _ _).mp ((h c).1 15)).trans (final15 m c),
     kept_of m (fun c => (dats m 0 c).toR) (fun _ _ => rfl) r h c⟩) (run_exact m ρ)

end Cert.TreeCell.TileKernelIdeal

end
-- ==== Proof.RefSide.lean ====
/-
  The reference's two results, read index by index, are the common form of `Spec.lean`.

  Every intermediate array of the reference is read at explicit coordinates (node `n`, child `ch`, column `j` or `c`)
  and shown equal to the matching function of the common form. The three reshapes between `[10000, 32, 128]`,
  `[320000, 128]` and `[10000, 4096]` keep the row-major position, so entry `(n, ch, k)` is row `32 n + ch`, column
  `k` of the second and row `n`, column `128 ch + k` of the third.
-/
import proofs.«151285_g88210038325567_cont_sun_c4_578_15_alg».proof.Proof.Gen.ReferenceIdeal.Read
import proofs.«151285_g88210038325567_cont_sun_c4_578_15_alg».proof.Proof.Spec
import Idealize.ShloMosaic.Lib.ValueIdx
import Idealize.ShloMosaic.Lib.Pipeline.Value
import Idealize.ShloMosaic.PureOps.Ideal.Laws

noncomputable section

namespace Cert.TreeCell.Ref

open Idealize.ShloMosaic Idealize.ShloMosaic.ValueIdx Cert.ReferenceIdeal Cert.ReferenceIdeal.Read

/-! ## Two literals, and indices equal by coordinates -/

/-- The word `0x3F800000` is the real number one. -/
theorem word_one : Ideal.ofBits .f32 0x3F800000#32 = 1 := by
  simp [Ideal.ofBits, Ideal.ieee, -EReal.coe_mul]; norm_num

/-- The word `0x00000000` is zero. -/
theorem word_zero : Ideal.ofBits .f32 0x00000000#32 = 0 := Ideal.ofBits_zero_f32

/-- Two rank-1 indices with the same coordinate are equal. -/
theorem ext1 {n0 : Nat} {i j : (⟨1, ![n0]⟩ : Shape).Idx} (h0 : (i 0).val = (j 0).val) : i = j :=
  funext fun a => Fin.ext (by match a with | ⟨0, _⟩ => exact h0)

/-- Two rank-2 indices with the same coordinates are equal. -/
theorem ext2 {n0 n1 : Nat} {i j : (⟨2, ![n0, n1]⟩ : Shape).Idx} (h0 : (i 0).val = (j 0).val) (h1 : (i 1).val = (j 1).val) :
    i = j :=
  funext fun a => Fin.ext (by match a with | ⟨0, _⟩ => exact h0 | ⟨1, _⟩ => exact h1)

/-- Two rank-3 indices with the same coordinates are equal. -/
theorem ext3 {n0 n1 n2 : Nat} {i j : (⟨3, ![n0, n1, n2]⟩ : Shape).Idx} (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

variable (x0 : (⟨S10000x128, .f32⟩ : BufTy).Contents (Elt Ideal)) (x1 : (⟨S10000, .f32⟩ : BufTy).Contents (Elt Ideal))
  (x2 x3 : (⟨S10000x32x128, .f32⟩ : BufTy).Contents (Elt Ideal)) (x4 : (⟨S128x384, .f32⟩ : BufTy).Contents (Elt Ideal))
  (x5 : (⟨S384, .f32⟩ : BufTy).Contents (Elt Ideal)) (x6 : (⟨S128x128, .f32⟩ : BufTy).Contents (Elt Ideal))
  (x7 : (⟨S128, .f32⟩ : BufTy).Contents (Elt Ideal)) (x8 : (⟨S128x128, .f32⟩ : BufTy).Contents (Elt Ideal))
  (x9 : (⟨S128, .f32⟩ : BufTy).Contents (Elt Ideal)) (x10 : (⟨S128x384, .f32⟩ : BufTy).Contents (Elt Ideal))
  (x11 : (⟨S384, .f32⟩ : BufTy).Contents (Elt Ideal))

/-! ## The masked input projection of the forget gates -/

/-- `(x W_fin + b_fin) · mask` at node `n`, column `j`. -/
theorem fIn_at (n : Fin 10000) (j : Fin 128) :
    val_main_v6 (F := Ideal) x0 x1 x6 x7 (ix2 n j)
      = fIn (fun k => x0 (ix2 n k)) (x1 (ix1 n)) (fun k c => x6 (ix2 k c)) (fun c => x7 (ix1 c)) j := by
  rw [val_main_v6_apply, val_main_v3_apply, val_main_v0_apply, val_main_v2_apply, val_main_v1_apply, val_main_v5_apply,
    val_main_v4_apply]
  simp only [Ideal.addf_def, Ideal.mulf_def]
  unfold fIn
  refine congrArg₂ (· * ·) (congrArg₂ (· + ·) (Finset.sum_congr rfl fun k _ => ?_) (congrArg x7 (ext1 rfl)))
    (congrArg x1 (ext1 rfl))
  exact congrArg₂ (· * ·) (congrArg x0 (ext2 rfl rfl)) (congrArg x6 (ext2 rfl rfl))

/-! ## The children's hidden rows summed -/

/-- The sum over the child axis, from zero, at node `n`, column `k`. -/
theorem hSum_at (n : Fin 10000) (k : Fin 128) :
    val_main_v17 (F := Ideal) x2 (ix2 n k) = hSum (fun ch k => x2 (ix3 n ch k)) k := by
  rw [val_main_v17_apply, val_main_cst_apply, Ideal.ofBits_def, word_zero, zero_add]
  unfold hSum
  exact Finset.sum_congr rfl fun ch _ => congrArg x2 (ext3 rfl rfl rfl)

/-! ## The three stacked gate pre-activations -/

/-- `(x W_iou + b_iou) · mask + (hSum W_aggr + b_aggr)` at node `n`, column `c` of 384. -/
theorem iou_at (n : Fin 10000) (c : Fin 384) :
    val_main_v38 (F := Ideal) x0 x1 x2 x4 x5 x10 x11 (ix2 n c)
      = iou (fun k => x0 (ix2 n k)) (x1 (ix1 n)) (fun ch k => x2 (ix3 n ch k)) (fun k c => x4 (ix2 k c))
          (fun c => x5 (ix1 c)) (fun k c => x10 (ix2 k c)) (fun c => x11 (ix1 c)) c := by
  rw [val_main_v38_apply, val_main_v37_apply, val_main_v34_apply, val_main_v31_apply, val_main_v33_apply,
    val_main_v32_apply, val_main_v36_apply, val_main_v35_apply, val_main_v21_apply, val_main_v18_apply,
    val_main_v20_apply, val_main_v19_apply]
  simp only [Ideal.addf_def, Ideal.mulf_def]
  unfold iou
  refine congrArg₂ (· + ·) (congrArg₂ (· * ·) (congrArg₂ (· + ·) (Finset.sum_congr rfl fun k _ => ?_)
    (congrArg x5 (ext1 rfl))) (congrArg x1 (ext1 rfl))) (congrArg₂ (· + ·) (Finset.sum_congr rfl fun k _ => ?_)
    (congrArg x11 (ext1 rfl)))
  · exact congrArg₂ (· * ·) (congrArg x0 (ext2 rfl rfl)) (congrArg x4 (ext2 rfl rfl))
  · refine congrArg₂ (· * ·) ?_ (congrArg x10 (ext2 rfl rfl))
    rw [show lidx_main_v18 (ix2 n c) k = ix2 n k from ext2 rfl rfl]
    exact hSum_at x2 n k

/-! ## Rows and columns of the reshaped views -/

/-- Two rank-4 indices with the same coordinates are equal. -/
theorem ext4 {n0 n1 n2 n3 : Nat} {i j : (⟨4, ![n0, n1, n2, n3]⟩ : Shape).Idx} (h0 : (i 0).val = (j 0).val)
    (h1 : (i 1).val = (j 1).val) (h2 : (i 2).val = (j 2).val) (h3 : (i 3).val = (j 3).val) : i = j :=
  funext fun a => Fin.ext (by
    match a with | ⟨0, _⟩ => exact h0 | ⟨1, _⟩ => exact h1 | ⟨2, _⟩ => exact h2 | ⟨3, _⟩ => exact h3)

/-- Row `32 n + ch` of the `[320000, 128]` view: child `ch` of node `n`. -/
abbrev row (n : Fin 10000) (ch : Fin 32) : Fin 320000 :=
  ⟨32 * n.val + ch.val, by have := n.isLt; have := ch.isLt; omega⟩

/-- Column `128 ch + j` of the `[10000, 4096]` view: entry `j` of child `ch`. -/
abbrev col (ch : Fin 32) (j : Fin 128) : Fin 4096 :=
  ⟨128 * ch.val + j.val, by have := ch.isLt; have := j.isLt; omega⟩

/-- `[10000, 4096]` at `(n, 128 ch + j)` is `[320000, 128]` at `(32 n + ch, j)`. -/
theorem idx15_at (n : Fin 10000) (ch : Fin 32) (j : Fin 128) : idx_main_v15 (ix2 n (col ch j)) = ix2 (row n ch) j :=
  ext2
    (by show (n.val * 4096 + (128 * ch.val + j.val)) / 128 = 32 * n.val + ch.val
        have := j.isLt; omega)
    (by show (n.val * 4096 + (128 * ch.val + j.val)) % 128 = j.val
        have := j.isLt; omega)

/-- `[320000, 128]` at `(32 n + ch, k)` is `[10000, 32, 128]` at `(n, ch, k)`. -/
theorem idx10_at (n : Fin 10000) (ch : Fin 32) (k : Fin 128) : idx_main_v10 (ix2 (row n ch) k) = ix3 n ch k :=
  ext3
    (by show ((32 * n.val + ch.val) * 128 + k.val) / 4096 = n.val
        have := ch.isLt; have := k.isLt; omega)
    (by show ((32 * n.val + ch.val) * 128 + k.val) / 128 % 32 = ch.val
        have := ch.isLt; have := k.isLt; omega)
    (by show ((32 * n.val + ch.val) * 128 + k.val) % 128 = k.val
        have := k.isLt; omega)

/-- `[10000, 4096]` at `(n, 128 ch + j)` is `[1, 10000, 32, 128]` at `(0, n, ch, j)`. -/
theorem idx9_at (n : Fin 10000) (ch : Fin 32) (j : Fin 128) :
    idx_main_v9 (ix2 n (col ch j)) = ix4 (0 : Fin 1) n ch j :=
  ext4 rfl
    (by show (n.val * 4096 + (128 * ch.val + j.val)) / 4096 % 10000 = n.val
        have := n.isLt; have := ch.isLt; have := j.isLt; omega)
    (by show (n.val * 4096 + (128 * ch.val + j.val)) / 128 % 32 = ch.val
        have := ch.isLt; have := j.isLt; omega)
    (by show (n.val * 4096 + (128 * ch.val + j.val)) % 128 = j.val
        have := j.isLt; omega)

/-- The broadcast over the child axis reads child `0` of the one-child array. -/
theorem idx8_at (n : Fin 10000) (ch : Fin 32) (j : Fin 128) :
    idx_main_v8 (ix4 (0 : Fin 1) n ch j) = ix4 (0 : Fin 1) n (0 : Fin 1) j :=
  ext4 rfl rfl rfl rfl

/-- `[1, 10000, 1, 128]` at `(0, n, 0, j)` is `[10000, 128]` at `(n, j)`. -/
theorem idx7_at (n : Fin 10000) (j : Fin 128) : idx_main_v7 (ix4 (0 : Fin 1) n (0 : Fin 1) j) = ix2 n j :=
  ext2
    (by show (((0 * 10000 + n.val) * 1 + 0) * 128 + j.val) / 128 = n.val
        have := j.isLt; omega)
    (by show (((0 * 10000 + n.val) * 1 + 0) * 128 + j.val) % 128 = j.val
        have := j.isLt; omega)

/-- `[10000, 32, 128]` at `(n, ch, j)` is `[10000, 4096]` at `(n, 128 ch + j)`. -/
theorem idx28_at (n : Fin 10000) (ch : Fin 32) (j : Fin 128) : idx_main_v28 (ix3 n ch j) = ix2 n (col ch j) :=
  ext2
    (by show ((n.val * 32 + ch.val) * 128 + j.val) / 4096 = n.val
        have := ch.isLt; have := j.isLt; omega)
    (by show ((n.val * 32 + ch.val) * 128 + j.val) % 4096 = 128 * ch.val + j.val
        have := ch.isLt; have := j.isLt; omega)

/-! ## The forget gates -/

/-- The forget gate's pre-activation at node `n`, child `ch`, column `j`: the child's projection plus the node's. -/
theorem pre_at (n : Fin 10000) (ch : Fin 32) (j : Fin 128) :
    val_main_v16 (F := Ideal) x0 x1 x2 x6 x7 x8 x9 (ix2 n (col ch j))
      = (∑ k : Fin 128, x2 (ix3 n ch k) * x8 (ix2 k j) + x9 (ix1 j))
        + fIn (fun k => x0 (ix2 n k)) (x1 (ix1 n)) (fun k c => x6 (ix2 k c)) (fun c => x7 (ix1 c)) j := by
  rw [val_main_v16_apply, val_main_v15_apply, idx15_at, val_main_v14_apply, val_main_v11_apply, val_main_v13_apply,
    val_main_v12_apply, val_main_v9_apply, idx9_at, val_main_v8_apply, idx8_at, val_main_v7_apply, idx7_at, fIn_at]
  simp only [Ideal.addf_def]
  refine congrArg₂ (· + ·) (congrArg₂ (· + ·) (Finset.sum_congr rfl fun k _ => ?_) (congrArg x9 (ext1 rfl))) rfl
  rw [show lidx_main_v11 (ix2 (row n ch) j) k = ix2 (row n ch) k from ext2 rfl rfl, val_main_v10_apply, idx10_at]
  exact congrArg (_ * ·) (congrArg x8 (ext2 rfl rfl))

/-- The forget gate at node `n`, child `ch`, column `j`: one over one plus the exponential of minus the pre-activation. -/
theorem gate_at (n : Fin 10000) (ch : Fin 32) (j : Fin 128) :
    val_main_v28 (F := Ideal) x0 x1 x2 x6 x7 x8 x9 (ix3 n ch j)
      = gate (fun k => x2 (ix3 n ch k)) (fun k c => x8 (ix2 k c)) (fun c => x9 (ix1 c))
          (fIn (fun k => x0 (ix2 n k)) (x1 (ix1 n)) (fun k c => x6 (ix2 k c)) (fun c => x7 (ix1 c)) j) j := by
  rw [val_main_v28_apply, idx28_at, val_main_v27_apply, val_main_v26_apply, val_main_cst_1_apply, val_main_v25_apply,
    val_main_v24_apply, val_main_cst_0_apply, val_main_v23_apply, val_main_v22_apply, pre_at]
  simp only [Ideal.ofBits_def, word_one, Ideal.hostDivf_def, Ideal.addf_def, Ideal.hostUnary_exp_def,
    Ideal.hostNegf_def, Ideal.negf_def]
  rfl

/-! ## The children's memories, gated and summed -/

/-- The sum over the children of gate times memory, from zero, at node `n`, column `j`. -/
theorem cAggr_at (n : Fin 10000) (j : Fin 128) :
    val_main_v30 (F := Ideal) x0 x1 x2 x3 x6 x7 x8 x9 (ix2 n j)
      = cAggr (fun k => x0 (ix2 n k)) (x1 (ix1 n)) (fun ch k => x2 (ix3 n ch k)) (fun ch k => x3 (ix3 n ch k))
          (fun k c => x6 (ix2 k c)) (fun c => x7 (ix1 c)) (fun k c => x8 (ix2 k c)) (fun c => x9 (ix1 c)) j := by
  rw [val_main_v30_apply, val_main_cst_2_apply, Ideal.ofBits_def, word_zero, zero_add]
  unfold cAggr
  refine Finset.sum_congr rfl fun ch _ => ?_
  rw [show idx_main_v30 (ix2 n j) ch = ix3 n ch j from ext3 rfl rfl rfl, val_main_v29_apply, gate_at, Ideal.mulf_def]

/-! ## The node's new memory and new hidden state -/

/-- The reference's second result at node `n`, column `j` is the common form's new memory. -/
theorem ref_c (n : Fin 10000) (j : Fin 128) :
    Cert.ReferenceIdeal.Read.val_main_v56 (F := Ideal) x0 x1 x2 x3 x4 x5 x6 x7 x8 x9 x10 x11 (ix2 n j)
      = Cert.TreeCell.cNew (fun k => x0 (ix2 n k)) (x1 (ix1 n)) (fun ch k => x2 (ix3 n ch k)) (fun ch k => x3 (ix3 n ch k))
          (fun k c => x4 (ix2 k c)) (fun c => x5 (ix1 c)) (fun k c => x6 (ix2 k c)) (fun c => x7 (ix1 c))
          (fun k c => x8 (ix2 k c)) (fun c => x9 (ix1 c)) (fun k c => x10 (ix2 k c)) (fun c => x11 (ix1 c)) j := by
  rw [val_main_v56_apply, val_main_v55_apply, val_main_v47_apply, val_main_v46_apply, val_main_cst_4_apply,
    val_main_v45_apply, val_main_v44_apply, val_main_cst_3_apply, val_main_v43_apply, val_main_v42_apply,
    val_main_v39_apply, val_main_v54_apply, val_main_v41_apply, cAggr_at,
    show idx_main_v39 (ix2 n j) = ix2 n (colI j) from ext2 rfl rfl,
    show idx_main_v41 (ix2 n j) = ix2 n (colU j) from ext2 rfl rfl, iou_at, iou_at]
  simp only [Ideal.ofBits_def, word_one, Ideal.hostDivf_def, Ideal.addf_def, Ideal.mulf_def, Ideal.hostUnary_exp_def,
    Ideal.hostUnary_tanh_def, Ideal.hostNegf_def, Ideal.negf_def]
  rfl

/-- The reference's first result at node `n`, column `j` is the common form's new hidden state. -/
theorem ref_h (n : Fin 10000) (j : Fin 128) :
    Cert.ReferenceIdeal.Read.val_main_v58 (F := Ideal) x0 x1 x2 x3 x4 x5 x6 x7 x8 x9 x10 x11 (ix2 n j)
      = Cert.TreeCell.hNew (fun k => x0 (ix2 n k)) (x1 (ix1 n)) (fun ch k => x2 (ix3 n ch k)) (fun ch k => x3 (ix3 n ch k))
          (fun k c => x4 (ix2 k c)) (fun c => x5 (ix1 c)) (fun k c => x6 (ix2 k c)) (fun c => x7 (ix1 c))
          (fun k c => x8 (ix2 k c)) (fun c => x9 (ix1 c)) (fun k c => x10 (ix2 k c)) (fun c => x11 (ix1 c)) j := by
  rw [val_main_v58_apply, val_main_v53_apply, val_main_v52_apply, val_main_cst_6_apply, val_main_v51_apply,
    val_main_v50_apply, val_main_cst_5_apply, val_main_v49_apply, val_main_v48_apply, val_main_v40_apply,
    val_main_v57_apply, ref_c,
    show idx_main_v40 (ix2 n j) = ix2 n (colO j) from ext2 rfl rfl, iou_at]
  simp only [Ideal.ofBits_def, word_one, Ideal.hostDivf_def, Ideal.addf_def, Ideal.mulf_def, Ideal.hostUnary_exp_def,
    Ideal.hostUnary_tanh_def, Ideal.hostNegf_def, Ideal.negf_def]
  rfl

end Cert.TreeCell.Ref

end
-- ==== Proof.RefRun.lean ====
/-
  The reference's run, with its two results in the common form of `Spec.lean`: every weakly fair execution of the
  reference terminates with the first result the new hidden state and the second the new memory of every node, computed
  from the argument arrays, and the arguments unchanged.
-/
import proofs.«151285_g88210038325567_cont_sun_c4_578_15_alg».proof.Proof.RefSide

noncomputable section

namespace Cert.TreeCell.Ref

open Idealize.ShloMosaic Idealize.ShloMosaic.ValueIdx Idealize.ShloMosaic.TcCoe Idealize.SL.Sem
open Cert.ReferenceIdeal Cert.ReferenceIdeal.Read

/-- The new hidden state of every node (row `i 0`, column `i 1`), from the argument arrays a memory holds. -/
def refH (m' : (ℓ : Loc nD τ sig) → Buf (Elt Ideal) ℓ) (c : Dev nD) : S10000x128.Idx → EReal := fun i =>
  hNew (fun k => (m' ((c.tc : Thread nD τ).loc main_arg0)) (ix2 (i 0) k)) ((m' ((c.tc : Thread nD τ).loc main_arg1)) (ix1 (i 0)))
    (fun ch k => (m' ((c.tc : Thread nD τ).loc main_arg2)) (ix3 (i 0) ch k)) (fun ch k => (m' ((c.tc : Thread nD τ).loc main_arg3)) (ix3 (i 0) ch k))
    (fun k c' => (m' ((c.tc : Thread nD τ).loc main_arg4)) (ix2 k c')) (fun c' => (m' ((c.tc : Thread nD τ).loc main_arg5)) (ix1 c'))
    (fun k c' => (m' ((c.tc : Thread nD τ).loc main_arg6)) (ix2 k c')) (fun c' => (m' ((c.tc : Thread nD τ).loc main_arg7)) (ix1 c'))
    (fun k c' => (m' ((c.tc : Thread nD τ).loc main_arg8)) (ix2 k c')) (fun c' => (m' ((c.tc : Thread nD τ).loc main_arg9)) (ix1 c'))
    (fun k c' => (m' ((c.tc : Thread nD τ).loc main_arg10)) (ix2 k c')) (fun c' => (m' ((c.tc : Thread nD τ).loc main_arg11)) (ix1 c')) (i 1)

/-- The new memory of every node, likewise. -/
def refC (m' : (ℓ : Loc nD τ sig) → Buf (Elt Ideal) ℓ) (c : Dev nD) : S10000x128.Idx → EReal := fun i =>
  cNew (fun k => (m' ((c.tc : Thread nD τ).loc main_arg0)) (ix2 (i 0) k)) ((m' ((c.tc : Thread nD τ).loc main_arg1)) (ix1 (i 0)))
    (fun ch k => (m' ((c.tc : Thread nD τ).loc main_arg2)) (ix3 (i 0) ch k)) (fun ch k => (m' ((c.tc : Thread nD τ).loc main_arg3)) (ix3 (i 0) ch k))
    (fun k c' => (m' ((c.tc : Thread nD τ).loc main_arg4)) (ix2 k c')) (fun c' => (m' ((c.tc : Thread nD τ).loc main_arg5)) (ix1 c'))
    (fun k c' => (m' ((c.tc : Thread nD τ).loc main_arg6)) (ix2 k c')) (fun c' => (m' ((c.tc : Thread nD τ).loc main_arg7)) (ix1 c'))
    (fun k c' => (m' ((c.tc : Thread nD τ).loc main_arg8)) (ix2 k c')) (fun c' => (m' ((c.tc : Thread nD τ).loc main_arg9)) (ix1 c'))
    (fun k c' => (m' ((c.tc : Thread nD τ).loc main_arg10)) (ix2 k c')) (fun c' => (m' ((c.tc : Thread nD τ).loc main_arg11)) (ix1 c')) (i 1)

/-- The reference's first result is the new hidden state. -/
theorem res_h_eq (m' : (ℓ : Loc nD τ sig) → Buf (Elt Ideal) ℓ) (c : Dev nD) :
    Cert.ReferenceIdeal.Value.res_main_v58 m' c = refH m' c := by
  rw [val_main_v58_eq]
  funext i
  exact (congrArg _ (eq_ix2 (n0 := 10000) (n1 := 128) i)).trans (ref_h _ _ _ _ _ _ _ _ _ _ _ _ (i 0) (i 1))

/-- The reference's second result is the new memory. -/
theorem res_c_eq (m' : (ℓ : Loc nD τ sig) → Buf (Elt Ideal) ℓ) (c : Dev nD) :
    val_main_v56 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) = refC m' c := by
  funext i
  exact (congrArg _ (eq_ix2 (n0 := 10000) (n1 := 128) i)).trans (ref_c _ _ _ _ _ _ _ _ _ _ _ _ (i 0) (i 1))

/-- From any memory with zero counters, every weakly fair execution of the reference terminates with its two results
    the common form's new hidden state and new memory, and its twelve arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v58) = refH m' c
      ∧ r.2.mem ((c.tc : Thread nD τ).loc main_v56) = refC m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11) :=
  (θ_run defs _ _).mono (fun _ h c => ⟨(h c).1.trans (res_h_eq m' c),
      (h c).2.1.trans ((val_main_v56_eq _ _ _ _ _ _ _ _ _ _ _ _).trans (res_c_eq m' c)), (h c).2.2⟩)
    (Cert.ReferenceIdeal.Value.run (F := Ideal) m' ρ')

end Cert.TreeCell.Ref

end
-- ==== Proof.lean ====
/-
  A child-sum tree cell, tiled, against its plain form: the two programs compute the same extended reals.

  For each of 10000 nodes, with an embedding row, a mask scalar and 32 children (a hidden row and a memory row each), both
  programs compute the node's new memory and new hidden state of `Proof/Spec.lean`: forget gates from the children's
  hidden rows and the masked input projection, the children's memories gated and summed, the three stacked gate
  pre-activations from the masked input projection and the summed hidden rows, then the cell update.

  They differ in arrangement only. The tiled program walks the nodes in 17 blocks of 600 (the last overhanging the
  arrays by 200 rows, never written back), reads each child array through two windows of 16 children and adds the two
  partial sums, multiplies the 600 · 16 hidden rows by the forget weights as one 9600-row product, and writes the
  logistic function as ½·tanh(½z) + ½; the plain program flattens all 320000 hidden rows into one product, sums over
  the 32 children at once, and writes the logistic function as 1/(1 + e^(−z)). Over the extended reals these agree at
  every argument, the infinities included (`Proof/Laws.lean`), and a sum over 32 children is the sum of its halves;
  only associativity and commutativity of + are used, so the precondition is never opened.

  The modules: `Spec` (the common form), `Laws` (the two laws), `RefSide` / `RefRun` (the plain program's results,
  read index by index off its generated run, are the common form), `BodyFn` / `KernelSide` / `KernelRows` (one
  step's stored blocks, as pure functions of the staged blocks, are the common form row by row), `Blocks` (which rows
  of which array a window's block holds at a step; the blocks of a result tile it), `Tile…` / `Split…` / `Run…` (the
  tiled program's run and frame: the step's triple, the proof data, the two twice-read arrays split between their
  windows, the launch — once for each of the word-level and the idealized program), `Exact…` / `Value…` / `ValueRun`
  (the idealized program's run with its results named), and here the five claims.
-/
import proofs.«151285_g88210038325567_cont_sun_c4_578_15_alg».proof.Defs
import proofs.«151285_g88210038325567_cont_sun_c4_578_15_alg».proof.Proof.Gen.Kernel
import proofs.«151285_g88210038325567_cont_sun_c4_578_15_alg».proof.Proof.Gen.KernelIdeal
import proofs.«151285_g88210038325567_cont_sun_c4_578_15_alg».proof.Proof.Gen.ReferenceIdeal
import proofs.«151285_g88210038325567_cont_sun_c4_578_15_alg».proof.Proof.Gen.Pre_finite_inputs
import proofs.«151285_g88210038325567_cont_sun_c4_578_15_alg».proof.Proof.RunKernel
import proofs.«151285_g88210038325567_cont_sun_c4_578_15_alg».proof.Proof.ValueRun
import proofs.«151285_g88210038325567_cont_sun_c4_578_15_alg».proof.Proof.RefRun
import Idealize.ShloMosaic.Adequacy
import Idealize.ShloMosaic.Init

noncomputable section

namespace Cert.Proof

open Idealize.ShloMosaic Idealize.ShloMosaic.TcCoe Idealize.SL.Sem

/-- The word-level tiled program runs to the end and leaves its arguments as launched. -/
theorem frame_k : Cert.frame_Kernel := fun m ρ _ => Cert.TreeCell.TileKernel.frame m ρ

/-- So does the idealized tiled program. -/
theorem frame_ki : Cert.frame_KernelIdeal := fun m ρ _ => Cert.TreeCell.TileKernelIdeal.frame m ρ

/-- So does the plain program: its generated run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing: the idealized tiled program is the word-level one's text read at the ideal instance. -/
theorem preserves : Cert.preserves_Kernel_KernelIdeal := trivial

/-- From memories that agree on the arguments, both programs end with the same two results: the node-by-node common form
    of the launched arguments. -/
theorem algebraic : Cert.algebraic_KernelIdeal_ReferenceIdeal := by
  intro m ρ m' ρ' _ hagree
  refine ⟨fun c => Cert.TreeCell.TileKernelIdeal.GH m c, fun c => Cert.TreeCell.TileKernelIdeal.GC m c,
    Cert.TreeCell.TileKernelIdeal.value_run m ρ, ?_⟩
  refine (θ_run Cert.ReferenceIdeal.defs _ _).mono (fun r h c => ⟨(h c).1.trans ?_, (h c).2.1.trans ?_, (h c).2.2⟩)
    (Cert.TreeCell.Ref.ref_run m' ρ')
  · obtain ⟨e0, e1, e2, e3, e4, e5, e6, e7, e8, e9, e10, e11⟩ := hagree c
    unfold Cert.TreeCell.Ref.refH Cert.TreeCell.TileKernelIdeal.GH
    rw [e0, e1, e2, e3, e4, e5, e6, e7, e8, e9, e10, e11]
  · obtain ⟨e0, e1, e2, e3, e4, e5, e6, e7, e8, e9, e10, e11⟩ := hagree c
    unfold Cert.TreeCell.Ref.refC Cert.TreeCell.TileKernelIdeal.GC
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
